-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000x32 : Shape := ⟨2, ![600000, 32]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S128x256 : Shape := ⟨2, ![128, 256]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S600000x32 : S_.BroadcastsInDim S600000x32 (![] : Fin 0 → Fin S600000x32.rank)
  reducesTo_S600000x32_S_d0_1 : S600000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S128x256 : S_.BroadcastsInDim S128x256 (![] : Fin 0 → Fin S128x256.rank)
  reducesTo_S128x256_S_d0_1 : S128x256.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part8 {F : FTy → Type} [FloatOps F] (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  main_v138

def fn_part7 {F : FTy → Type} [FloatOps F] (main_arg26 : FVec F S128 .f32) (main_arg27 : FVec F S128x128 .f32) (main_arg28 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128 .f32 := Host.absf main_arg27
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg28
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_v133 main_v136

def fn_part6 {F : FTy → Type} [FloatOps F] (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S3x128x128 .f32 := Host.absf main_arg22
  let main_cst_40 : FVec F S_ .f32 := constant S_ .f32 0x7F800000#32
  let main_v105 : FVec F S3x128x128 .f32 := broadcastInDim S3x128x128 ![] bcast_S_S3x128x128 main_cst_40
  let main_v106 : IVec S3x128x128 1 := cmpf .olt main_v104 main_v105
  let main_c_41 : IVec S_ 1 := constantI S_ 1 1#1
  let main_v107 : IVec S_ 1 := (fun x v => Host.reduce IntOp.andi x v reducesTo_S3x128x128_S_d0_1_2 h_S_) main_v106 main_c_41
  let main_v108 : IVec S_ 1 := andi main_v103 main_v107
  let main_v109 : FVec F S3x128 .f32 := Host.absf main_arg23
  let main_cst_42 : FVec F S_ .f32 := constant S_ .f32 0x7F800000#32
  let main_v110 : FVec F S3x128 .f32 := broadcastInDim S3x128 ![] bcast_S_S3x128 main_cst_42
  let main_v111 : IVec S3x128 1 := cmpf .olt main_v109 main_v110
  let main_c_43 : IVec S_ 1 := constantI S_ 1 1#1
  let main_v112 : IVec S_ 1 := (fun x v => Host.reduce IntOp.andi x v reducesTo_S3x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg25
  fn_part7 (F := F) main_arg26 main_arg27 main_arg28 main_v118 main_v119

def fn_part5 {F : FTy → Type} [FloatOps F] (main_arg19 : FVec F S128 .f32) (main_arg20 : FVec F S128x256 .f32) (main_arg21 : FVec F S128 .f32) (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg20
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S128x128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S128x32 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S128 .f32) (main_arg6 : FVec F S128x128 .f32) (main_arg7 : FVec F S128x128 .f32) (main_arg8 : FVec F S128x32 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x128 .f32) (main_arg1 : FVec F S600000x128 .f32) (main_arg2 : FVec F S600000x32 .f32) (main_arg3 : IVec S2x600000 32) (main_arg4 : FVec F S128x128 .f32) (main_arg5 : FVec F S128 .f32) (main_arg6 : FVec F S128x128 .f32) (main_arg7 : FVec F S128x128 .f32) (main_arg8 : FVec F S128x32 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_arg19 : FVec F S128 .f32) (main_arg20 : FVec F S128x256 .f32) (main_arg21 : FVec F S128 .f32) (main_arg22 : FVec F S3x128x128 .f32) (main_arg23 : FVec F S3x128 .f32) (main_arg24 : FVec F S128 .f32) (main_arg25 : FVec F S128 .f32) (main_arg26 : FVec F S128 .f32) (main_arg27 : FVec F S128x128 .f32) (main_arg28 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S600000x32 .f32 := Host.absf main_arg2
  let main_cst_2 : FVec F S_ .f32 := constant S_ .f32 0x7F800000#32
  let main_v10 : FVec F S600000x32 .f32 := broadcastInDim S600000x32 ![] bcast_S_S600000x32 main_cst_2
  let main_v11 : IVec S600000x32 1 := cmpf .olt main_v9 main_v10
  let main_c_3 : IVec S_ 1 := constantI S_ 1 1#1
  let main_v12 : IVec S_ 1 := (fun x v => Host.reduce IntOp.andi x v reducesTo_S600000x32_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x128 : Shape := ⟨2, ![100000, 128]⟩
abbrev S600000x128 : Shape := ⟨2, ![600000, 128]⟩
abbrev S600000x32 : Shape := ⟨2, ![600000, 32]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S128x256 : Shape := ⟨2, ![128, 256]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S5000x128 : Shape := ⟨2, ![5000, 128]⟩
abbrev S1x128 : Shape := ⟨2, ![1, 128]⟩
abbrev S_ : Shape := ⟨0, ![]⟩
abbrev S600000x1 : Shape := ⟨2, ![600000, 1]⟩
abbrev S600000x256 : Shape := ⟨2, ![600000, 256]⟩
abbrev S3000x128 : Shape := ⟨2, ![3000, 128]⟩
abbrev S3000x32 : Shape := ⟨2, ![3000, 32]⟩
abbrev S3000x256 : Shape := ⟨2, ![3000, 256]⟩
abbrev S32x128 : Shape := ⟨2, ![32, 128]⟩
abbrev S100000x256 : Shape := ⟨2, ![100000, 256]⟩
abbrev S400x128 : Shape := ⟨2, ![400, 128]⟩
abbrev S2000x128 : Shape := ⟨2, ![2000, 128]⟩
abbrev S8x128 : Shape := ⟨2, ![8, 128]⟩
abbrev S1x128x128 : Shape := ⟨3, ![1, 128, 128]⟩
abbrev S6x128 : Shape := ⟨2, ![6, 128]⟩
abbrev S50x8x128 : Shape := ⟨3, ![50, 8, 128]⟩
abbrev S50x1x128 : Shape := ⟨3, ![50, 1, 128]⟩
abbrev S50x128 : Shape := ⟨2, ![50, 128]⟩

abbrev nBuf : Space → Nat
  | .hbm => 84
  | .vmem => 54
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000x32, .f32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x32, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x256, .f32⟩
  | .hbm, ⟨21, _⟩ => ⟨S128, .f32⟩
  | .hbm, ⟨22, _⟩ => ⟨S3x128x128, .f32⟩
  | .hbm, ⟨23, _⟩ => ⟨S3x128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S1x600000, .i32⟩
  | .hbm, ⟨30, _⟩ => ⟨S600000, .i32⟩
  | .hbm, ⟨31, _⟩ => ⟨S1x600000, .i32⟩
  | .hbm, ⟨32, _⟩ => ⟨S600000, .i32⟩
  | .hbm, ⟨33, _⟩ => ⟨S100000x128, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S600000x256, .f32⟩
  | .hbm, ⟨44, _⟩ => ⟨S_, .f32⟩
  | .hbm, ⟨45, _⟩ => ⟨S100000x256, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S100000x256, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S128x128, .f32⟩
  | .hbm, ⟨59, _⟩ => ⟨S100000x128, .f32⟩
  | .hbm, ⟨60, _⟩ => ⟨S400x128, .f32⟩
  | .hbm, ⟨61, _⟩ => ⟨S50x8x128, .f32⟩
  | .hbm, ⟨62, _⟩ => ⟨S50x1x128, .f32⟩
  | .hbm, ⟨63, _⟩ => ⟨S50x128, .f32⟩
  | .hbm, ⟨64, _⟩ => ⟨S_, .f32⟩
  | .hbm, ⟨65, _⟩ => ⟨S128, .f32⟩
  | .hbm, ⟨66, _⟩ => ⟨S50x1x128, .f32⟩
  | .hbm, ⟨67, _⟩ => ⟨S50x128, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S3000x128, .f32⟩
  | .local _ .vmem, ⟨7, _⟩ => ⟨S3000x128, .f32⟩
  | .local _ .vmem, ⟨8, _⟩ => ⟨S3000x32, .f32⟩
  | .local _ .vmem, ⟨9, _⟩ => ⟨S3000x32, .f32⟩
  | .local _ .vmem, ⟨10, _⟩ => ⟨S3000x128, .f32⟩
  | .local _ .vmem, ⟨11, _⟩ => ⟨S3000x128, .f32⟩
  | .local _ .vmem, ⟨12, _⟩ => ⟨S128x128, .f32⟩
  | .local _ .vmem, ⟨13, _⟩ => ⟨S128x128, .f32⟩
  | .local _ .vmem, ⟨14, _⟩ => ⟨S128x32, .f32⟩
  | .local _ .vmem, ⟨15, _⟩ => ⟨S128x128, .f32⟩
  | .local _ .vmem, ⟨16, _⟩ => ⟨S3000x256, .f32⟩
  | .local _ .vmem, ⟨17, _⟩ => ⟨S3000x256, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128x128, .f32⟩
  | .local _ .vmem, ⟨28, _⟩ => ⟨S128, .f32⟩
  | .local _ .vmem, ⟨29, _⟩ => ⟨S128x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S3x128x128, .f32⟩
  | .local _ .vmem, ⟨38, _⟩ => ⟨S3x128, .f32⟩
  | .local _ .vmem, ⟨39, _⟩ => ⟨S2000x128, .f32⟩
  | .local _ .vmem, ⟨40, _⟩ => ⟨S2000x128, .f32⟩
  | .local _ .vmem, ⟨41, _⟩ => ⟨S8x128, .f32⟩
  | .local _ .vmem, ⟨42, _⟩ => ⟨S8x128, .f32⟩
  | .local _ .vmem, ⟨43, _⟩ => ⟨S5000x128, .f32⟩
  | .local _ .vmem, ⟨44, _⟩ => ⟨S5000x128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst : Ref sig .tc := ⟨.hbm, 44, rfl⟩
abbrev main_v13 : Ref sig .tc := ⟨.hbm, 45, rfl⟩
abbrev main_c_1 : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25_0 : Ref sig .tc := ⟨.hbm, 59, rfl⟩
abbrev main_v25_1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_7 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg14_0 : Ref sig .tc := ⟨.vmem, 35, rfl⟩
abbrev cc2_stg15_0 : Ref sig .tc := ⟨.vmem, 36, rfl⟩
abbrev cc2_stg16_0 : Ref sig .tc := ⟨.vmem, 37, rfl⟩
abbrev cc2_stg17_0 : Ref sig .tc := ⟨.vmem, 38, rfl⟩
abbrev cc2_stg18_0 : Ref sig .tc := ⟨.vmem, 39, rfl⟩
abbrev cc2_stg18_1 : Ref sig .tc := ⟨.vmem, 40, rfl⟩
abbrev cc2_stg19_0 : Ref sig .tc := ⟨.vmem, 41, rfl⟩
abbrev cc2_stg19_1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg8_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem14_0 : DmaSem sig := 35
abbrev cc2_sem15_0 : DmaSem sig := 36
abbrev cc2_sem16_0 : DmaSem sig := 37
abbrev cc2_sem17_0 : DmaSem sig := 38
abbrev cc2_sem18_0 : DmaSem sig := 39
abbrev cc2_sem18_1 : DmaSem sig := 40
abbrev cc2_sem19_0 : DmaSem sig := 41
abbrev cc2_sem19_1 : DmaSem sig := 42
abbrev cc3_sem0_0 : DmaSem sig := 43
abbrev cc3_sem0_1 : DmaSem sig := 44
abbrev cc3_sem1_0 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem8_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S3x128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S3x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S2000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S8x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  inb_S3000x128_S3000x128_0_0 : ∀ a, (![0, 0] : Fin 2 → Nat) a + S3000x128.size a ≤ S3000x128.size a
  h_S3000x128 : 0 < S3000x128.numel
  inb_S3000x32_S3000x32_0_0 : ∀ a, (![0, 0] : Fin 2 → Nat) a + S3000x32.size a ≤ S3000x32.size a
  h_S3000x32 : 0 < S3000x32.numel
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  shapeCasts_S3000x128_S3000x128 : S3000x128.ShapeCasts S3000x128
  inb_S3000x256_S3000x128_0_0 : ∀ a, (![0, 0] : Fin 2 → Nat) a + S3000x128.size a ≤ S3000x256.size a
  inb_S3000x256_S3000x128_0_128 : ∀ a, (![0, 128] : Fin 2 → Nat) a + S3000x128.size a ≤ S3000x256.size a
  bcast_S_S100000x256 : S_.BroadcastsInDim S100000x256 (![] : Fin 0 → Fin S100000x256.rank)
  slices_S100000x256_S100000x128_0_0 : S100000x256.Slices ![0, 0] S100000x128
  slices_S100000x256_S100000x128_0_128 : S100000x256.Slices ![0, 128] S100000x128
  slices_S128x256_S128x128_0_0 : S128x256.Slices ![0, 0] S128x128
  slices_S128x256_S128x128_0_128 : S128x256.Slices ![0, 128] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  shapeCasts_S128x128_S128x128 : S128x128.ShapeCasts S128x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  reduces_S2000x128_S128 : S2000x128.Reduces [0] S128
  concatenates_S1x128_S1x128_S6x128_S8x128_d0 : Shape.Concatenates [S1x128, S1x128, S6x128] S8x128 0
  inb_S8x128_S8x128_0_0 : ∀ a, (![0, 0] : Fin 2 → Nat) a + S8x128.size a ≤ S8x128.size a
  h_S8x128 : 0 < S8x128.numel
  shapeCasts_S400x128_S50x8x128 : S400x128.ShapeCasts S50x8x128
  slices_S50x8x128_S50x1x128_0_0_0 : S50x8x128.Slices ![0, 0, 0] S50x1x128
  shapeCasts_S50x1x128_S50x128 : S50x1x128.ShapeCasts S50x128
  reducesTo_S50x128_S128_d0 : S50x128.ReducesTo [0] S128
  h_S_ : 0 < S_.numel
  slices_S50x8x128_S50x1x128_0_1_0 : S50x8x128.Slices ![0, 1, 0] S50x1x128
  bcast_S_S128 : S_.BroadcastsInDim S128 (![] : Fin 0 → Fin S128.rank)
  shapeCasts_S5000x128_S5000x128 : S5000x128.ShapeCasts S5000x128
  shapeCasts_S128_S128 : S128.ShapeCasts S128
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  dot_S3000x128_S128x128_S3000x128_1_0_0_1_n_n_wf : DotDims.WF S3000x128 S128x128 S3000x128 [1] [0] [0] [1] [] []
  dot_S3000x32_S32x128_S3000x128_1_0_0_1_n_n_wf : DotDims.WF S3000x32 S32x128 S3000x128 [1] [0] [0] [1] [] []
  scatter_S100000x256_S600000x1_S600000x256_1_0_0_1_wf : ScatterDims.WF S100000x256 S600000x1 S600000x256 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S600000x128.size a
  hwx1_0 : ∀ i : grid1.Coords, EltTy.bits .f32 = 32 ∨ (Rect.block (s := S600000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x32.size a ≤ S600000x32.size a
  hwx1_1 : ∀ i : grid1.Coords, EltTy.bits .f32 = 32 ∨ (Rect.block (s := S600000x32) S3000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x128.size a ≤ S600000x128.size a
  hwx1_2 : ∀ i : grid1.Coords, EltTy.bits .f32 = 32 ∨ (Rect.block (s := S600000x128) S3000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .f32 = 32 ∨ (Rect.block (s := S128x32) S128x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x256.size a ≤ S600000x256.size a
  hwx1_7 : ∀ i : grid1.Coords, EltTy.bits .f32 = 32 ∨ (Rect.block (s := S600000x256) S3000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .f32 = 32 ∨ (Rect.block (s := S128x128) S128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128.size a ≤ S128.size a
  hwx2_15 : ∀ i : grid2.Coords, EltTy.bits .f32 = 32 ∨ (Rect.block (s := S128) S128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S3x128x128.size a ≤ S3x128x128.size a
  hwx2_16 : ∀ i : grid2.Coords, EltTy.bits .f32 = 32 ∨ (Rect.block (s := S3x128x128) S3x128x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S3x128.size a ≤ S3x128.size a
  hwx2_17 : ∀ i : grid2.Coords, EltTy.bits .f32 = 32 ∨ (Rect.block (s := S3x128) S3x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x128.size a ≤ S100000x128.size a
  hwx2_18 : ∀ i : grid2.Coords, EltTy.bits .f32 = 32 ∨ (Rect.block (s := S100000x128) S2000x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S8x128.size a ≤ S400x128.size a
  hwx2_19 : ∀ i : grid2.Coords, EltTy.bits .f32 = 32 ∨ (Rect.block (s := S400x128) S8x128.size (cc2_transform_19 i) (hinb2_19 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x32_S32x128_S3000x128_1_0_0_1_n_n : DotDims S3000x32 S32x128 S3000x128 where
  lhsContracting := [1]
  rhsContracting := [0]
  lhsNonContracting := [0]
  rhsNonContracting := [1]
  lhsBatch := []
  rhsBatch := []
  wf := dot_S3000x32_S32x128_S3000x128_1_0_0_1_n_n_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S3000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S3000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S3000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg18) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg19) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v23) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v24) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg21) S128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg22) S3x128x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg23) S3x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v25_0) S2000x128.size cc2_transform_18 reads2_18 true false 2 stage2_18 sem2_18
    hrank2 hreads2_18 hinb2_18 nbuf2_18 (Memref.isWhole_whole _) hwx2_18 hstage2_18

abbrev win2_19 : Pipeline.Window sig grid2 :=
  Pipeline.Window.ofSpec (Memref.whole main_v25_1) S8x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

abbrev win3_0 : Pipeline.Window sig grid3 :=
  Pipeline.Window.ofSpec (Memref.whole main_v25_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg26) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg24) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg25) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg27) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg28) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000x32 : Shape := ⟨2, ![600000, 32]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S128x256 : Shape := ⟨2, ![128, 256]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S32x128 : Shape := ⟨2, ![32, 128]⟩
abbrev S600000x1 : Shape := ⟨2, ![600000, 1]⟩
abbrev S100000x256 : Shape := ⟨2, ![100000, 256]⟩
abbrev S256x128 : Shape := ⟨2, ![256, 128]⟩
abbrev S1x128x128 : Shape := ⟨3, ![1, 128, 128]⟩

abbrev nBuf : Space → Nat
  | .hbm => 238
  | .vmem => 0
  | .smem => 0
  | _ => 0

abbrev hbmTy0_0 (i : Nat) : BufTy := match i % 128 with
  | 0 => ⟨S100000x128, .f32⟩
  | 1 => ⟨S600000x128, .f32⟩
  | 2 => ⟨S600000x32, .f32⟩
  | 3 => ⟨S2x600000, .i32⟩
  | 4 => ⟨S128x128, .f32⟩
  | 5 => ⟨S128, .f32⟩
  | 6 => ⟨S128x128, .f32⟩
  | 7 => ⟨S128x128, .f32⟩
  | 8 => ⟨S128x32, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S128, .f32⟩
  | 20 => ⟨S128x256, .f32⟩
  | 21 => ⟨S128, .f32⟩
  | 22 => ⟨S3x128x128, .f32⟩
  | 23 => ⟨S3x128, .f32⟩
  | 24 => ⟨S128, .f32⟩
  | 25 => ⟨S128, .f32⟩
  | 26 => ⟨S128, .f32⟩
  | 27 => ⟨S128x128, .f32⟩
  | 28 => ⟨S128, .f32⟩
  | 29 => ⟨S1x600000, .i32⟩
  | 30 => ⟨S600000, .i32⟩
  | 31 => ⟨S1x600000, .i32⟩
  | 32 => ⟨S600000, .i32⟩
  | 33 => ⟨S128x128, .f32⟩
  | 34 => ⟨S100000x128, .f32⟩
  | 35 => ⟨S1x128, .f32⟩
  | 36 => ⟨S100000x128, .f32⟩
  | 37 => ⟨S100000x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S128x128, .f32⟩
  | 48 => ⟨S600000x128, .f32⟩
  | 49 => ⟨S128x128, .f32⟩
  | 50 => ⟨S600000x128, .f32⟩
  | 51 => ⟨S32x128, .f32⟩
  | 52 => ⟨S600000x128, .f32⟩
  | 53 => ⟨S128x128, .f32⟩
  | 54 => ⟨S600000x128, .f32⟩
  | 55 => ⟨S_, .f32⟩
  | 56 => ⟨S100000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S100000x128, .f32⟩
  | 76 => ⟨S128x128, .f32⟩
  | 77 => ⟨S100000x128, .f32⟩
  | 78 => ⟨S1x128, .f32⟩
  | 79 => ⟨S100000x128, .f32⟩
  | 80 => ⟨S100000x128, .f32⟩
  | 81 => ⟨S128x128, .f32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S600000x128, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S100000x128, .f32⟩
  | 119 => ⟨S128x128, .f32⟩
  | 120 => ⟨S100000x128, .f32⟩
  | 121 => ⟨S1x128, .f32⟩
  | 122 => ⟨S100000x128, .f32⟩
  | 123 => ⟨S100000x128, .f32⟩
  | 124 => ⟨S128x128, .f32⟩
  | 125 => ⟨S100000x128, .f32⟩
  | 126 => ⟨S100000x128, .f32⟩
  | 127 => ⟨S128x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x128, .f32⟩
  | 13 => ⟨S100000x256, .f32⟩
  | 14 => ⟨S256x128, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S1x128x128, .f32⟩
  | 21 => ⟨S128x128, .f32⟩
  | 22 => ⟨S128x128, .f32⟩
  | 23 => ⟨S100000x128, .f32⟩
  | 24 => ⟨S1x128, .f32⟩
  | 25 => ⟨S128, .f32⟩
  | 26 => ⟨S1x128, .f32⟩
  | 27 => ⟨S100000x128, .f32⟩
  | 28 => ⟨S100000x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S100000x128, .f32⟩
  | 39 => ⟨S1x128x128, .f32⟩
  | 40 => ⟨S128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S100000x128, .f32⟩
  | 58 => ⟨S1x128x128, .f32⟩
  | 59 => ⟨S128x128, .f32⟩
  | 60 => ⟨S128x128, .f32⟩
  | 61 => ⟨S100000x128, .f32⟩
  | 62 => ⟨S1x128, .f32⟩
  | 63 => ⟨S128, .f32⟩
  | 64 => ⟨S1x128, .f32⟩
  | 65 => ⟨S100000x128, .f32⟩
  | 66 => ⟨S100000x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S128x128, .f32⟩
  | 106 => ⟨S100000x128, .f32⟩
  | 107 => ⟨S1x128, .f32⟩
  | 108 => ⟨S100000x128, .f32⟩
  | 109 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_c : Ref sig .tc := ⟨.hbm, 57, rfl⟩
abbrev main_v25 : Ref sig .tc := ⟨.hbm, 58, rfl⟩
abbrev main_v26 : Ref sig .tc := ⟨.hbm, 59, rfl⟩
abbrev main_c_2 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_3 : Ref sig .tc := ⟨.hbm, 67, rfl⟩
abbrev main_v33 : Ref sig .tc := ⟨.hbm, 68, rfl⟩
abbrev main_v34 : Ref sig .tc := ⟨.hbm, 69, rfl⟩
abbrev main_c_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_5 : Ref sig .tc := ⟨.hbm, 91, rfl⟩
abbrev main_v55 : Ref sig .tc := ⟨.hbm, 92, rfl⟩
abbrev main_v56 : Ref sig .tc := ⟨.hbm, 93, rfl⟩
abbrev main_cst_6 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_7 : Ref sig .tc := ⟨.hbm, 98, rfl⟩
abbrev main_v60 : Ref sig .tc := ⟨.hbm, 99, rfl⟩
abbrev main_c_8 : Ref sig .tc := ⟨.hbm, 100, rfl⟩
abbrev main_v61 : Ref sig .tc := ⟨.hbm, 101, rfl⟩
abbrev main_v62 : Ref sig .tc := ⟨.hbm, 102, rfl⟩
abbrev main_c_9 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_10 : Ref sig .tc := ⟨.hbm, 110, rfl⟩
abbrev main_v69 : Ref sig .tc := ⟨.hbm, 111, rfl⟩
abbrev main_v70 : Ref sig .tc := ⟨.hbm, 112, rfl⟩
abbrev main_c_11 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_12 : Ref sig .tc := ⟨.hbm, 134, rfl⟩
abbrev main_v91 : Ref sig .tc := ⟨.hbm, 135, rfl⟩
abbrev main_v92 : Ref sig .tc := ⟨.hbm, 136, rfl⟩
abbrev main_cst_13 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_14 : Ref sig .tc := ⟨.hbm, 159, rfl⟩
abbrev main_v114 : Ref sig .tc := ⟨.hbm, 160, rfl⟩
abbrev main_v115 : Ref sig .tc := ⟨.hbm, 161, rfl⟩
abbrev main_cst_15 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_16 : Ref sig .tc := ⟨.hbm, 178, rfl⟩
abbrev main_v131 : Ref sig .tc := ⟨.hbm, 179, rfl⟩
abbrev main_v132 : Ref sig .tc := ⟨.hbm, 180, rfl⟩
abbrev main_cst_17 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_18 : Ref sig .tc := ⟨.hbm, 197, rfl⟩
abbrev main_v148 : Ref sig .tc := ⟨.hbm, 198, rfl⟩
abbrev main_v149 : Ref sig .tc := ⟨.hbm, 199, rfl⟩
abbrev main_cst_19 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_20 : Ref sig .tc := ⟨.hbm, 205, rfl⟩
abbrev main_v154 : Ref sig .tc := ⟨.hbm, 206, rfl⟩
abbrev main_cst_21 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_22 : Ref sig .tc := ⟨.hbm, 215, rfl⟩
abbrev main_v162 : Ref sig .tc := ⟨.hbm, 216, rfl⟩
abbrev main_cst_23 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_24 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x32_S32x128_1_0 : S128x32.Transposes [1, 0] S32x128
  bcast_S_S600000 : S_.BroadcastsInDim S600000 (![] : Fin 0 → Fin S600000.rank)
  bcast_S600000_S600000x1_0 : S600000.BroadcastsInDim S600000x1 (![0] : Fin 1 → Fin S600000x1.rank)
  concatenates_S100000x128_S100000x128_S100000x256_d1 : Shape.Concatenates [S100000x128, S100000x128] S100000x256 1
  transposes_S128x256_S256x128_1_0 : S128x256.Transposes [1, 0] S256x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  dot_S600000x128_S128x128_S600000x128_1_0_0_1_n_n_wf : DotDims.WF S600000x128 S128x128 S600000x128 [1] [0] [0] [1] [] []
  dot_S600000x32_S32x128_S600000x128_1_0_0_1_n_n_wf : DotDims.WF S600000x32 S32x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KRun.lean ====
/-
  The run of the kernel program with every buffer's final contents named: every weakly fair execution of @main
  terminates, nothing faulting, and each unscoped buffer of each core ends at the contents the fold through @main's
  segments gives it (`Gen.W8`): the launch theorem over the generated segments, its last thread state read against the
  final state.  The result buffer and the argument arrays are then read off that fold.
-/
import proofs.«108244_j21019569947168_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.KRun

end
-- ==== Proof.LibRealEntries.lean ====
/-
  Extended reals that are real numbers, and the log-softmax rearrangement among them.

  An extended real is "real" when it is the image of a real number. Reals are closed under addition, subtraction,
  multiplication, the larger of two, and finite sums; the largest entry of a nonempty finite family of reals (the fold of
  `max` from `−∞`) is real and bounds every entry; the exponential of a real is a positive real, a nonempty finite
  sum of positive reals is a positive real, and the logarithm of a positive real is real.

  The rearrangement: for a nonempty finite family `z` of reals with largest entry `m` and
  `S = Σ_k exp (z k − m)`, `z c − (log S + m) = (z c − m) − log S`. On the extended reals subtraction does not
  distribute over a sum at the infinities; among reals both sides are the real number `z c − m − log S`.
-/
import Idealize.ShloMosaic.PureOps.Ideal.Laws

noncomputable section

namespace Idealize.ShloMosaic.RealEntries

open scoped BigOperators

/-- An extended real that is (the image of) a real number. -/
def IsReal (a : EReal) : Prop := ∃ r : ℝ, a = (r : EReal)

/-- An extended real that is a positive real number. -/
def IsPosReal (a : EReal) : Prop := ∃ r : ℝ, 0 < r ∧ a = (r : EReal)

theorem isReal_coe (r : ℝ) : IsReal (r : EReal) := ⟨r, rfl⟩

theorem isReal_zero : IsReal 0 := ⟨0, rfl⟩

theorem isReal_iff {a : EReal} : IsReal a ↔ a ≠ ⊤ ∧ a ≠ ⊥ := by
  constructor
  · rintro ⟨r, rfl⟩
    exact ⟨EReal.coe_ne_top r, EReal.coe_ne_bot r⟩
  · rintro ⟨h1, h2⟩
    exact ⟨a.toReal, (EReal.coe_toReal h1 h2).symm⟩

theorem IsPosReal.isReal {a : EReal} (h : IsPosReal a) : IsReal a := by
  obtain ⟨r, _, rfl⟩ := h
  exact ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The embedding of the reals carries the larger of two reals to the larger of their images. -/
theorem coe_max (r s : ℝ) : ((max r s : ℝ) : EReal) = max (r : EReal) (s : EReal) :=
  (EReal.coe_strictMono.monotone).map_max

theorem IsReal.max {a b : EReal} (ha : IsReal a) (hb : IsReal b) : IsReal (max a b) := by
  obtain ⟨r, rfl⟩ := ha
  obtain ⟨s, rfl⟩ := hb
  exact ⟨Max.max r s, (coe_max r s).symm⟩

/-- The embedding of the reals carries a finite sum to the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- A sum of reals over a whole finite index type is real. -/
theorem isReal_sum_univ {ι : Type*} [Fintype ι] (f : ι → EReal) (h : ∀ k, IsReal (f k)) : IsReal (∑ k, f k) :=
  isReal_sum Finset.univ f fun k _ => h k

/-- A nonempty finite sum of positive reals is a positive real. -/
theorem isPosReal_sum {ι : Type*} (s : Finset ι) (hs : s.Nonempty) (f : ι → EReal) (h : ∀ k ∈ s, IsPosReal (f k)) :
    IsPosReal (∑ k ∈ s, f k) := by
  classical
  have hg : ∀ k : ι, ∃ r : ℝ, k ∈ s → (0 < r ∧ f k = (r : EReal)) := fun k => by
    by_cases hk : k ∈ s
    · obtain ⟨r, hr, e⟩ := h k hk
      exact ⟨r, fun _ => ⟨hr, e⟩⟩
    · exact ⟨0, fun hk' => absurd hk' hk⟩
  choose g hg using hg
  refine ⟨∑ k ∈ s, g k, Finset.sum_pos (fun k hk => (hg k hk).1) hs, ?_⟩
  rw [coe_sum]
  exact Finset.sum_congr rfl fun k hk => (hg k hk).2

/-- Every entry is at most the fold of `max` from `−∞`. -/
theorem le_foldMax {ι : Type*} [Fintype ι] (z : ι → EReal) (c : ι) :
    z c ≤ (Finset.univ : Finset ι).fold max ⊥ z :=
  (Finset.le_fold_max _).mpr (Or.inr ⟨c, Finset.mem_univ c, le_refl _⟩)

/-- The fold of `max` from `−∞` over a nonempty finite family of reals is real. -/
theorem isReal_foldMax {ι : Type*} [Fintype ι] [Nonempty ι] (z : ι → EReal) (h : ∀ k, IsReal (z k)) :
    IsReal ((Finset.univ : Finset ι).fold max ⊥ z) := by
  refine isReal_iff.mpr ⟨?_, ?_⟩
  · refine ne_of_lt ((Finset.fold_max_lt _).mpr ⟨bot_lt_top, fun k _ => ?_⟩)
    obtain ⟨r, hr⟩ := h k
    rw [hr]
    exact EReal.coe_lt_top r
  · obtain ⟨c⟩ := ‹Nonempty ι›
    obtain ⟨r, hr⟩ := h c
    refine ne_of_gt (lt_of_lt_of_le ?_ (le_foldMax z c))
    rw [hr]
    exact EReal.bot_lt_coe r

/-- The exponential of a real is a positive real. -/
theorem IsReal.exp_isPosReal {a : EReal} (ha : IsReal a) : IsPosReal (Ideal.exp a) := by
  obtain ⟨r, rfl⟩ := ha
  exact ⟨Real.exp r, Real.exp_pos r, rfl⟩

/-- The logarithm of a positive real is real. -/
theorem IsPosReal.log_isReal {a : EReal} (ha : IsPosReal a) : IsReal (Ideal.log a) := by
  obtain ⟨r, hr, rfl⟩ := ha
  refine ⟨Real.log r, ?_⟩
  rw [Ideal.log_coe, if_neg (not_le.mpr hr)]

/-- Among reals, subtracting a sum is subtracting its terms one after the other (in either order). -/
theorem IsReal.sub_add {a l m : EReal} (ha : IsReal a) (hl : IsReal l) (hm : IsReal m) :
    a - (l + m) = (a - m) - l := by
  obtain ⟨r, rfl⟩ := ha
  obtain ⟨s, rfl⟩ := hl
  obtain ⟨t, rfl⟩ := hm
  rw [← EReal.coe_add, ← EReal.coe_sub, ← EReal.coe_sub, ← EReal.coe_sub]
  exact congrArg _ (by ring)

/-- The shifted exponential sum of a nonempty finite family of reals is a positive real. -/
theorem isPosReal_expSum {ι : Type*} [Fintype ι] [Nonempty ι] (z : ι → EReal) (h : ∀ k, IsReal (z k)) :
    IsPosReal (∑ k, Ideal.exp (z k - (Finset.univ : Finset ι).fold max ⊥ z)) :=
  isPosReal_sum Finset.univ Finset.univ_nonempty _ fun k _ => ((h k).sub (isReal_foldMax z h)).exp_isPosReal

/-- The log-softmax rearrangement among reals: subtracting "log-sum-exp plus the largest entry" from an entry is
    subtracting the largest entry and then the log-sum-exp. -/
theorem sub_logSumExp_add_top {ι : Type*} [Fintype ι] [Nonempty ι] (z : ι → EReal) (h : ∀ k, IsReal (z k)) (c : ι) :
    z c - (Ideal.log (∑ k, Ideal.exp (z k - (Finset.univ : Finset ι).fold max ⊥ z))
            + (Finset.univ : Finset ι).fold max ⊥ z)
      = (z c - (Finset.univ : Finset ι).fold max ⊥ z)
          - Ideal.log (∑ k, Ideal.exp (z k - (Finset.univ : Finset ι).fold max ⊥ z)) :=
  (h c).sub_add (isPosReal_expSum z h).log_isReal (isReal_foldMax z h)

end Idealize.ShloMosaic.RealEntries

end
-- ==== Proof.Spec.lean ====
/-
  The mathematics of one message-passing block, as functions of whole arrays on the extended reals.

  Every array is a function of its coordinates.  `dense X W` is the product X·Wᵀ (entry (p,q) is the sum over j of
  X p j · W q j), `sw` is y ↦ y·σ(y) with σ the logistic function, `lin` adds a bias row to a product, `act` applies
  `sw` entrywise.  The block is: a node projection (`proj`), an edge message (`msg`: two stacked products times the
  gathered source row), two convolution branches (`branch`) on the scattered sums, their combination (`comb`), three
  residual layers (`resid`), and a column normalisation followed by a last product (`normOutK` / `normOutR`: the two
  arrangements, one through the mean of squares and a reciprocal square root, one through centred squares and a
  quotient by a square root).
-/
import Idealize.ShloMosaic.PureOps.Ideal
import Idealize.ShloMosaic.Lib.ValueIdx
import proofs.«108244_j21019569947168_2_alg».proof.Proof.LibRealEntries

open scoped BigOperators

noncomputable section

namespace Cert.Spec

open Idealize.ShloMosaic Idealize.ShloMosaic.ValueIdx Idealize.ShloMosaic.RealEntries

variable {n k b h e f : ℕ}

/-- An `[a, b]` array as a function of its two coordinates. -/
abbrev mat {a b : ℕ} (v : (⟨2, ![a, b]⟩ : Shape).Idx → EReal) : Fin a → Fin b → EReal := fun p q => v (ix2 p q)
/-- A flat `[b]` array as a function of its coordinate. -/
abbrev vec {b : ℕ} (v : (⟨1, ![b]⟩ : Shape).Idx → EReal) : Fin b → EReal := fun q => v (ix1 q)

/-- Entry (p,q) of X·Wᵀ. -/
def dense (X : Fin n → Fin k → EReal) (W : Fin b → Fin k → EReal) : Fin n → Fin b → EReal :=
  fun p q => ∑ j, X p j * W q j

/-- y ↦ y·σ(y). -/
def sw (y : EReal) : EReal := y * Ideal.logistic y

/-- X·Wᵀ plus a bias row. -/
def lin (X : Fin n → Fin k → EReal) (W : Fin b → Fin k → EReal) (β : Fin b → EReal) : Fin n → Fin b → EReal :=
  fun p q => dense X W p q + β q

/-- `sw` entrywise. -/
def act (Y : Fin n → Fin b → EReal) : Fin n → Fin b → EReal := fun p q => sw (Y p q)

/-- The node projection sw(x·Wᵀ + β). -/
def proj (x : Fin n → Fin k → EReal) (W : Fin b → Fin k → EReal) (β : Fin b → EReal) : Fin n → Fin b → EReal :=
  act (lin x W β)

/-- The edge message ((feat·W₁ᵀ)·W₂ᵀ) ∘ xs. -/
def msg (feat : Fin e → Fin f → EReal) (W1 : Fin h → Fin f → EReal) (W2 : Fin h → Fin h → EReal)
    (xs : Fin e → Fin h → EReal) : Fin e → Fin h → EReal :=
  fun a q => dense (dense feat W1) W2 a q * xs a q

/-- One convolution branch: sw(((agg·Relᵀ + relb) + x·Rootᵀ)·Lᵀ + lb). -/
def branch (agg x : Fin n → Fin h → EReal) (Rel : Fin h → Fin h → EReal) (relb : Fin h → EReal)
    (Root : Fin h → Fin h → EReal) (L : Fin h → Fin h → EReal) (lb : Fin h → EReal) : Fin n → Fin h → EReal :=
  act (lin (fun p q => (dense agg Rel p q + relb q) + dense x Root p q) L lb)

/-- The two branches combined through the two halves Wa, Wb of one weight, plus bias, plus the skip x. -/
def comb (h1 h2 x : Fin n → Fin h → EReal) (Wa Wb : Fin h → Fin h → EReal) (cb : Fin h → EReal) :
    Fin n → Fin h → EReal :=
  fun p q => ((dense h1 Wa p q + dense h2 Wb p q) + cb q) + x p q

/-- One residual layer: sw(z·Wᵀ + β) + z. -/
def resid (z : Fin n → Fin h → EReal) (W : Fin h → Fin h → EReal) (β : Fin h → EReal) : Fin n → Fin h → EReal :=
  fun p q => sw (lin z W β p q) + z p q

/-- The column sum of an array. -/
def colSum (z : Fin n → Fin h → EReal) : Fin h → EReal := fun q => ∑ p, z p q

/-- The normalised rows of the first arrangement: (w·(z − μ·s))·rsqrt(v + ε) + β. -/
def normK (z : Fin n → Fin h → EReal) (μ v s w β : Fin h → EReal) (ε : EReal) : Fin n → Fin h → EReal :=
  fun p j => (w j * (z p j - μ j * s j)) * Ideal.rsqrt (v j + ε) + β j

/-- The normalised rows of the second arrangement: (w·c) / sqrt(v + ε) + β over centred rows c. -/
def normR (c : Fin n → Fin h → EReal) (v w β : Fin h → EReal) (ε : EReal) : Fin n → Fin h → EReal :=
  fun p j => Ideal.div (w j * c p j) (Ideal.sqrt (v j + ε)) + β j

/-- Layer i of three stacked square weights, as a matrix. -/
abbrev layerW (w : (⟨3, ![3, h, h]⟩ : Shape).Idx → EReal) (i : Fin 3) : Fin h → Fin h → EReal :=
  fun q j => w (ix3 i q j)
/-- Layer i of three stacked bias rows. -/
abbrev layerB (w : (⟨2, ![3, h]⟩ : Shape).Idx → EReal) (i : Fin 3) : Fin h → EReal := fun q => w (ix2 i q)

/-- The node-side chain: two convolution branches, their combination with the skip, three residual layers. -/
def nodeH (agg1 agg2 x1 : Fin n → Fin h → EReal)
    (rel1 : Fin h → Fin h → EReal) (rel1b : Fin h → EReal) (root1 : Fin h → Fin h → EReal)
    (rel2 : Fin h → Fin h → EReal) (rel2b : Fin h → EReal) (root2 : Fin h → Fin h → EReal)
    (l1 : Fin h → Fin h → EReal) (l1b : Fin h → EReal) (l2 : Fin h → Fin h → EReal) (l2b : Fin h → EReal)
    (wa wb : Fin h → Fin h → EReal) (cb : Fin h → EReal)
    (W : Fin 3 → Fin h → Fin h → EReal) (β : Fin 3 → Fin h → EReal) : Fin n → Fin h → EReal :=
  resid (resid (resid (comb (branch agg1 x1 rel1 rel1b root1 l1 l1b) (branch agg2 x1 rel2 rel2b root2 l2 l2b) x1 wa wb cb)
    (W 0) (β 0)) (W 1) (β 1)) (W 2) (β 2)

/-- Every entry of an array is a real number. -/
def AllReal (z : Fin n → Fin h → EReal) : Prop := ∀ p q, IsReal (z p q)
/-- Every entry of a row is a real number. -/
def RowReal (v : Fin h → EReal) : Prop := ∀ q, IsReal (v q)

end Cert.Spec

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRealMatmul.lean ====
/-
  Matrix products of real matrices, on the extended reals.

  A product `Σ j, l p j · w j c` of extended reals is bilinear and associative only away from the infinities.  When every
  entry is a real number the sums are real sums: a product of real matrices is real, a real matrix clamped below at
  `0` is real, and `(z · K) · V = z · (K · V)` — both sides are the double sum `Σ i, Σ j, z p i · K i j · V j c`.

  Also here: an `[a, b]` array read as a function of its two coordinates, and, for a dimension record of a plain
  `[a, k] × [k, b]` product, the two index facts that its non-contracted axes give (each by evaluating the record's lists).
-/
import Idealize.ShloMosaic.Lib.ValueIdx
import Idealize.ShloMosaic.PureOps.Ideal.Laws

noncomputable section

namespace Idealize.ShloMosaic.RealMatmul

open Idealize.ShloMosaic Idealize.ShloMosaic.ValueIdx

/-- For a dimension record `D` whose left operand's axis 0 is its one non-contracting axis: the left operand's index
    at `(i, q)` has first coordinate `i 0`.  Read off the record's lists. -/
macro "left_row_of% " D:term : term => `(fun i q => by
  unfold DotDims.lhsIdx
  rw [dif_neg (show ¬(0 : Fin _) ∈ ($D).lhsBatch by decide), dif_pos (show (0 : Fin _) ∈ ($D).lhsNonContracting by decide)]
  rfl)

/-- For a dimension record `D` whose right operand's axis 1 is its one non-contracting axis: the right operand's
    index at `(i, q)` has second coordinate `i 1`.  Read off the record's lists. -/
macro "right_col_of% " D:term : term => `(fun i q => by
  unfold DotDims.rhsIdx
  rw [dif_neg (show ¬(1 : Fin _) ∈ ($D).rhsBatch by decide), dif_pos (show (1 : Fin _) ∈ ($D).rhsNonContracting by decide)]
  rfl)

variable {a k r b : ℕ}

/-- An `[a, b]` array as a function of its two coordinates. -/
abbrev mat (v : FVec Ideal ⟨2, ![a, b]⟩ .f32) : Fin a → Fin b → EReal := fun p c => v (ix2 p c)

/-- The matrix product of extended reals: entry `(p, c)` is `Σ j, l p j · w j c`. -/
def dot (l : Fin a → Fin k → EReal) (w : Fin k → Fin b → EReal) : Fin a → Fin b → EReal :=
  fun p c => ∑ j : Fin k, l p j * w j c

/-- Clamping below at `0`, entry by entry. -/
def relu (z : Fin a → Fin b → EReal) : Fin a → Fin b → EReal := fun p c => max (z p c) 0

/-- Every entry is a real number. -/
def AllReal (z : Fin a → Fin b → EReal) : Prop := ∀ p c, ∃ x : ℝ, z p c = (x : EReal)

/-- The inclusion of the reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A product of real matrices is real. -/
theorem allReal_dot {l : Fin a → Fin k → EReal} {w : Fin k → Fin b → EReal} (hl : AllReal l) (hw : AllReal w) :
    AllReal (dot l w) := by
  choose l' hl' using hl
  choose w' hw' using hw
  intro p c
  refine ⟨∑ j : Fin k, l' p j * w' j c, ?_⟩
  simp only [dot, hl', hw', ← EReal.coe_mul, ← coe_sum]

/-- A real matrix clamped at `0` is real. -/
theorem allReal_relu {z : Fin a → Fin b → EReal} (hz : AllReal z) : AllReal (relu z) := by
  intro p c
  obtain ⟨x, hx⟩ := hz p c
  refine ⟨max x 0, ?_⟩
  show max (z p c) 0 = _
  rw [hx, ← EReal.coe_zero]
  exact (EReal.coe_strictMono.monotone.map_max).symm

/-- Matrix multiplication of real matrices is associative: both sides are the double sum
    `Σ i, Σ j, z p i · K i j · V j c`. -/
theorem dot_assoc {z : Fin a → Fin k → EReal} {K : Fin k → Fin r → EReal} {V : Fin r → Fin b → EReal}
    (hz : AllReal z) (hK : AllReal K) (hV : AllReal V) : dot (dot z K) V = dot z (dot K V) := by
  choose z' hz' using hz
  choose K' hK' using hK
  choose V' hV' using hV
  funext p c
  simp only [dot, hz', hK', hV', ← EReal.coe_mul, ← coe_sum]
  refine congrArg Real.toEReal ?_
  simp only [Finset.sum_mul, Finset.mul_sum]
  rw [Finset.sum_comm]
  exact Finset.sum_congr rfl fun i _ => Finset.sum_congr rfl fun j _ => by ring

end Idealize.ShloMosaic.RealMatmul

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.Region0.lean ====
import proofs.«108244_j21019569947168_2_alg».proof.Proof.Gen.KernelIdeal.Frame
import proofs.«108244_j21019569947168_2_alg».proof.Proof.Spec
import proofs.«108244_j21019569947168_2_alg».proof.Proof.LibPlainDot
import proofs.«108244_j21019569947168_2_alg».proof.Proof.LibRealMatmul
import proofs.«108244_j21019569947168_2_alg».proof.Proof.LibRowBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Region0

open Idealize.ShloMosaic Idealize.ShloMosaic.TcCoe Idealize.SL.Sem Idealize.ShloMosaic.ValueIdx
open Cert.KernelIdeal Cert.KernelIdeal.Gen Cert.Spec

/-! ## The body's payload at an entry -/

/-- The matrix unit's dimension record contracts the left operand's second axis with the right operand's first. -/
theorem matmul_apply (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ j : Fin 128, l (ix2 r j) * w (ix2 j q) :=
  PlainDot.matmul_zero_apply dot_S5000x128_S128x128_S5000x128_1_0_0_1_n_n none rfl rfl
    (left_row_of% dot_S5000x128_S128x128_S5000x128_1_0_0_1_n_n)
    (fun i q => by
      unfold DotDims.lhsIdx
      rw [dif_neg (show ¬(1 : Fin _) ∈ (dot_S5000x128_S128x128_S5000x128_1_0_0_1_n_n).lhsBatch by decide),
        dif_neg (show ¬(1 : Fin _) ∈ (dot_S5000x128_S128x128_S5000x128_1_0_0_1_n_n).lhsNonContracting by decide)]
      rfl)
    (fun i q => by
      unfold DotDims.rhsIdx
      rw [dif_neg (show ¬(0 : Fin _) ∈ (dot_S5000x128_S128x128_S5000x128_1_0_0_1_n_n).rhsBatch by decide),
        dif_neg (show ¬(0 : Fin _) ∈ (dot_S5000x128_S128x128_S5000x128_1_0_0_1_n_n).rhsNonContracting by decide)]
      rfl)
    (right_col_of% dot_S5000x128_S128x128_S5000x128_1_0_0_1_n_n) l w r q

/-- The transposed weight reads, at (j,q), the weight at (q,j). -/
theorem transposed_apply {α : Type} (w : S128x128.Idx → α) (j q : Fin 128) :
    transpose S128x128 [1, 0] w transposes_S128x128_p1_0_S128x128 (ix2 j q) = w (ix2 q j) :=
  transpose_ix2_apply w transposes_S128x128_p1_0_S128x128 j q

/-- The logistic operation acts entry by entry. -/
theorem logistic_apply {s : Shape} {φ : FTy} (x : FVec Ideal s φ) (i : s.Idx) : logistic x i = Ideal.logistic (x i) := rfl

/-- Entry (r,q) of the body's stored block: sw of the row of x against the row q of W, plus β(q). -/
theorem pay_apply (x0 : Vec Ideal S5000x128 .f32) (x1 : Vec Ideal S128x128 .f32) (x2 : Vec Ideal S128 .f32)
    (r : Fin 5000) (q : Fin 128) :
    k0_pay1 x0 x1 x2 (ix2 r q) = sw ((∑ j : Fin 128, x0 (ix2 r j) * x1 (ix2 q j)) + x2 (ix1 q)) := by
  unfold k0_pay1
  simp only [mulf_apply, addf_apply, logistic_apply, matmul_apply, RowBroadcast.broadcastTo_row_apply,
    RowBroadcast.shapeCast_flat_apply, truncf_apply]
  have e : ∀ j : Fin 128, (transpose S128x128 [1, 0] (truncf (F := Ideal) FTy.bf16 x1 bitsLt_bf16_f32) transposes_S128x128_p1_0_S128x128 (ix2 j q) : EReal) = x1 (ix2 q j) :=
    fun j => transposed_apply (truncf (F := Ideal) FTy.bf16 x1 bitsLt_bf16_f32) j q
  simp only [e]
  rfl

variable (V : (c : Dev nD) → (b : Ref sig .tc) → Buf (Elt Ideal) ((c : Thread nD τ).loc b))

/-! ## From blocks to the array -/

theorem zero2 : (![0, 0] : Fin 2 → Nat) = fun _ => 0 := funext fun a => by fin_cases a <;> rfl
theorem zero1 : (![0] : Fin 1 → Nat) = fun _ => 0 := funext fun a => by fin_cases a <;> rfl

/-- The projected array as one function of the three argument arrays, entry by entry. -/
def G (x : S100000x128.Idx → EReal) (W : S128x128.Idx → EReal) (β : S128.Idx → EReal) : S100000x128.Idx → EReal :=
  fun i => proj (mat x) (mat W) (vec β) (i 0) (i 1)

/-- A block whose entries are the arrays' entries has, as its payload, the entry of G. -/
theorem pay_eq_G (x0 : Vec Ideal S5000x128 .f32) (x1 : Vec Ideal S128x128 .f32) (x2 : Vec Ideal S128 .f32)
    (X : S100000x128.Idx → EReal) (W : S128x128.Idx → EReal) (β : S128.Idx → EReal)
    (r : Fin 5000) (q : Fin 128) (ρ : Fin 100000)
    (hx : ∀ j : Fin 128, x0 (ix2 r j) = X (ix2 ρ j)) (hW : ∀ j : Fin 128, x1 (ix2 q j) = W (ix2 q j))
    (hβ : x2 (ix1 q) = β (ix1 q)) :
    k0_pay1 x0 x1 x2 (ix2 r q) = G X W β (ix2 ρ q) := by
  rw [pay_apply]
  simp only [hx, hW, hβ]
  rfl

/-- The index maps over the grid: point t reads rows 5000·t … of x and writes the same rows of the output; the weight and
    the bias are one block each. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The x block of point t at (r,j) is the array's entry (5000·t + r, j). -/
theorem read_x (c : Dev nD) (t : Fin cfg0.N) (r : Fin 5000) (j : Fin 128) (ρ : Fin 100000)
    (hρ : ρ.val = t.val * 5000 + r.val) :
    iblk0 V c 0 t (ix2 r j) = V c main_arg0 (ix2 ρ j) := by
  obtain ⟨e0, e1, -⟩ := idx_facts t
  show V c main_arg0 (((cfg0.win 0).blk t).view.emb (ix2 r j)) = V c main_arg0 (ix2 ρ j)
  refine congrArg _ (funext fun a => Fin.ext ?_)
  match a with
  | ⟨0, _⟩ => show win0_0.index t (0 : Fin 2) * 5000 + 1 * r.val = ρ.val; omega
  | ⟨1, _⟩ => show win0_0.index t (1 : Fin 2) * 128 + 1 * j.val = j.val; omega

/-- The weight block of any point is the whole weight. -/
theorem read_W (c : Dev nD) (t : Fin cfg0.N) (q j : Fin 128) :
    iblk0 V c 1 t (ix2 q j) = V c main_arg4 (ix2 q j) := by
  obtain ⟨-, -, e2, e3, -⟩ := idx_facts t
  show V c main_arg4 (((cfg0.win 1).blk t).view.emb (ix2 q j)) = V c main_arg4 (ix2 q j)
  refine congrArg _ (funext fun a => Fin.ext ?_)
  match a with
  | ⟨0, _⟩ => show win0_1.index t (0 : Fin 2) * 128 + 1 * q.val = q.val; omega
  | ⟨1, _⟩ => show win0_1.index t (1 : Fin 2) * 128 + 1 * j.val = j.val; omega

/-- The bias block of any point is the whole bias. -/
theorem read_β (c : Dev nD) (t : Fin cfg0.N) (q : Fin 128) :
    iblk0 V c 2 t (ix1 q) = V c main_arg5 (ix1 q) := by
  obtain ⟨-, -, -, -, e4, -⟩ := idx_facts t
  show V c main_arg5 (((cfg0.win 2).blk t).view.emb (ix1 q)) = V c main_arg5 (ix1 q)
  refine congrArg _ (funext fun a => Fin.ext ?_)
  match a with
  | ⟨0, _⟩ => show win0_2.index t (0 : Fin 1) * 128 + 1 * q.val = q.val; omega

/-- What point t writes back is block t of G of the arrays as the region finds them. -/
theorem flushed_eq (c : Dev nD) (t : Fin cfg0.N) :
    (dat0 V c).flushed 3 t
      = ((cfg0.win 3).blk t).view.read (Elt Ideal) (G (V c main_arg0) (V c main_arg4) (V c main_arg5)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x128) zero2,
    View.ld_unit_zero (S := S128) zero1]
  funext y
  obtain ⟨r, q, rfl⟩ : ∃ (r : Fin 5000) (q : Fin 128), y = ix2 r q :=
    ⟨y 0, y 1, eq_ix2 (n0 := 5000) (n1 := 128) y⟩
  have ht : t.val < 20 := lt_of_lt_of_eq t.isLt N_0
  obtain ⟨-, -, -, -, -, e5, e6⟩ := idx_facts t
  have hemb : ((cfg0.win 3).blk t).view.emb (ix2 r q)
      = (ix2 (⟨t.val * 5000 + r.val, by omega⟩ : Fin 100000) q : S100000x128.Idx) := by
    funext a; apply Fin.ext
    match a with
    | ⟨0, _⟩ => show win0_3.index t (0 : Fin 2) * 5000 + 1 * r.val = t.val * 5000 + r.val; omega
    | ⟨1, _⟩ => show win0_3.index t (1 : Fin 2) * 128 + 1 * q.val = q.val; omega
  show k0_pay1 (iblk0 V c 0 t) (iblk0 V c 1 t) (iblk0 V c 2 t) (ix2 r q)
    = G (V c main_arg0) (V c main_arg4) (V c main_arg5) (((cfg0.win 3).blk t).view.emb (ix2 r q))
  rw [hemb]
  exact pay_eq_G (iblk0 V c 0 t) (iblk0 V c 1 t) (iblk0 V c 2 t) (V c main_arg0) (V c main_arg4) (V c main_arg5) r q
    ⟨t.val * 5000 + r.val, by omega⟩ (fun j => read_x V c t r j ⟨t.val * 5000 + r.val, by omega⟩ rfl)
    (fun j => read_W V c t q j) (read_β V c t q)

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4).slice (win0_3.rect t)).set ↔ _
  rw [View.set_slice_whole, Rect.mem_set_unit]
  exact Iff.rfl

/-- Every entry of the output is in some point's block: row p is in the block of point p / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, e5, e6⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the first region the projected node array holds, at (p,q), sw(Σ_j x(p,j)·W(q,j) + β(q)). -/
theorem arr0 (c : Dev nD) (p : Fin 100000) (q : Fin 128) :
    (dat0 (F := Ideal) V c).arrAt 3 cfg0.N (ix2 p q)
      = proj (mat (V c main_arg0)) (mat (V c main_arg4)) (vec (V c main_arg5)) p q := by
  rw [(dat0 (F := Ideal) V c).arrAt_eq_of_cover 3 (G (V c main_arg0) (V c main_arg4) (V c main_arg5))
    (fun t _ => flushed_eq V c t) cover]
  rfl

end Cert.KernelIdeal.Region0

end
-- ==== Proof.Region1.lean ====
import proofs.«108244_j21019569947168_2_alg».proof.Proof.Gen.KernelIdeal.Frame
import proofs.«108244_j21019569947168_2_alg».proof.Proof.Spec
import proofs.«108244_j21019569947168_2_alg».proof.Proof.LibPlainDot
import proofs.«108244_j21019569947168_2_alg».proof.Proof.LibRealMatmul
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Region1

open Idealize.ShloMosaic Idealize.ShloMosaic.TcCoe Idealize.SL.Sem Idealize.ShloMosaic.ValueIdx
open Cert.KernelIdeal Cert.KernelIdeal.Gen Cert.Spec

variable (V : (c : Dev nD) → (b : Ref sig .tc) → Buf (Elt Ideal) ((c : Thread nD τ).loc b))

/-! ## The two matrix units at an entry -/

/-- A [3000,128] by [128,128] product into the zero accumulator, at entry (p, c): the sum over j of lhs(p,j)·rhs(j,c). -/
theorem matmul128_apply {φ₁ φ₂ : FTy} (lhs : FVec Ideal S3000x128 φ₁) (rhs : FVec Ideal S128x128 φ₂) (p : Fin 3000) (c : Fin 128) :
    matmul dot_S3000x128_S128x128_S3000x128_1_0_0_1_n_n none lhs rhs (constant (F := Ideal) S3000x128 .f32 0x00000000#32) (ix2 p c)
      = ∑ j : Fin 128, lhs (ix2 p j) * rhs (ix2 j c) :=
  PlainDot.matmul_zero_apply (a := 3000) (k := 128) (b := 128) dot_S3000x128_S128x128_S3000x128_1_0_0_1_n_n none rfl rfl
    (left_row_of% dot_S3000x128_S128x128_S3000x128_1_0_0_1_n_n)
    (fun i q => DotDims.lhsIdx_val_of_single _ rfl i q)
    (fun i q => DotDims.rhsIdx_val_of_single _ rfl i q)
    (right_col_of% dot_S3000x128_S128x128_S3000x128_1_0_0_1_n_n) lhs rhs p c

/-- A [3000,32] by [32,128] product into the zero accumulator, at entry (p, c). -/
theorem matmul32_apply {φ₁ φ₂ : FTy} (lhs : FVec Ideal S3000x32 φ₁) (rhs : FVec Ideal S32x128 φ₂) (p : Fin 3000) (c : Fin 128) :
    matmul dot_S3000x32_S32x128_S3000x128_1_0_0_1_n_n none lhs rhs (constant (F := Ideal) S3000x128 .f32 0x00000000#32) (ix2 p c)
      = ∑ j : Fin 32, lhs (ix2 p j) * rhs (ix2 j c) :=
  PlainDot.matmul_zero_apply (a := 3000) (k := 32) (b := 128) dot_S3000x32_S32x128_S3000x128_1_0_0_1_n_n none rfl rfl
    (left_row_of% dot_S3000x32_S32x128_S3000x128_1_0_0_1_n_n)
    (fun i q => DotDims.lhsIdx_val_of_single _ rfl i q)
    (fun i q => DotDims.rhsIdx_val_of_single _ rfl i q)
    (right_col_of% dot_S3000x32_S32x128_S3000x128_1_0_0_1_n_n) lhs rhs p c

/-! ## The body's two stored values at an entry -/

/-- The first stored value at (r, q): ((feat·W₁ᵀ)·W₂ᵀ)(r,q) times the gathered source row's entry. -/
theorem pay2_apply (v0 : Vec Ideal S3000x128 .f32) (v4 v6 : Vec Ideal S128x128 .f32) (v22 : Vec Ideal S3000x128 .f32)
    (r : Fin 3000) (q : Fin 128) :
    k1_pay2 (F := Ideal) v0 v4 v6 v22 (ix2 r q)
      = (∑ j : Fin 128, (∑ i : Fin 128, v0 (ix2 r i) * v4 (ix2 j i)) * v6 (ix2 q j)) * v22 (ix2 r q) := by
  unfold k1_pay2 k1_pay1
  dsimp only
  refine (mulf_apply _ _ _).trans ?_
  rw [shapeCast_self]
  refine congrArg (· * v22 (ix2 r q)) ?_
  refine (matmul128_apply _ _ r q).trans ?_
  refine Finset.sum_congr rfl fun j _ => congrArg₂ (· * ·) ?_ ?_
  · refine (matmul128_apply _ _ r j).trans ?_
    refine Finset.sum_congr rfl fun i _ => congrArg₂ (· * ·) rfl ?_
    exact transpose_ix2_apply _ _ i j
  · exact transpose_ix2_apply _ _ j q

/-- The second stored value at (r, q), from the [3000,32] features and the [128,32] weight. -/
theorem pay3_apply (v2 : Vec Ideal S3000x32 .f32) (v8 : Vec Ideal S128x32 .f32) (v10 : Vec Ideal S128x128 .f32)
    (v22 : Vec Ideal S3000x128 .f32) (r : Fin 3000) (q : Fin 128) :
    k1_pay3 (F := Ideal) v2 v8 v10 v22 (ix2 r q)
      = (∑ j : Fin 128, (∑ i : Fin 32, v2 (ix2 r i) * v8 (ix2 j i)) * v10 (ix2 q j)) * v22 (ix2 r q) := by
  unfold k1_pay3 k1_pay1
  dsimp only
  refine (mulf_apply _ _ _).trans ?_
  rw [shapeCast_self]
  refine congrArg (· * v22 (ix2 r q)) ?_
  refine (matmul128_apply _ _ r q).trans ?_
  refine Finset.sum_congr rfl fun j _ => congrArg₂ (· * ·) ?_ ?_
  · refine (matmul32_apply _ _ r j).trans ?_
    refine Finset.sum_congr rfl fun i _ => congrArg₂ (· * ·) rfl ?_
    exact transpose_ix2_apply _ _ i j
  · exact transpose_ix2_apply _ _ j q

/-! ## The block the body leaves, entry by entry -/

theorem hz : (![0, 0] : Fin 2 → Nat) = fun _ => 0 := funext fun a => by fin_cases a <;> rfl

/-- The left half of the stored block (columns 0..127) is the first stored value. -/
theorem out_lo (x0 : Vec Ideal S3000x128 .f32) (x1 : Vec Ideal S3000x32 .f32) (x2 : Vec Ideal S3000x128 .f32)
    (x3 x4 : Vec Ideal S128x128 .f32) (x5 : Vec Ideal S128x32 .f32) (x6 : Vec Ideal S128x128 .f32)
    (r : Fin 3000) (q : Fin 128) :
    out1_7 (F := Ideal) x0 x1 x2 x3 x4 x5 x6 (ix2 r (⟨q.val, by omega⟩ : Fin 256))
      = (∑ j : Fin 128, (∑ i : Fin 128, x0 (ix2 r i) * x3 (ix2 j i)) * x4 (ix2 q j)) * x2 (ix2 r q) := by
  unfold out1_7
  simp only [View.ld_unit_zero (S := S3000x128) hz, View.ld_unit_zero (S := S3000x32) hz,
    View.ld_unit_zero (S := S128x128) hz, View.ld_unit_zero (S := S128x32) hz]
  have hnot : (ix2 r (⟨q.val, by omega⟩ : Fin 256) : S3000x256.Idx) ∉ (r1_5 : Rect S3000x256).set := by
    intro hm
    have h1 := (Rect.mem_set_unit.mp hm) 1
    have h2 : 128 ≤ q.val := h1.1
    omega
  refine (View.canon_cons_of_not_mem _ _ ?_).trans ?_
  · exact hnot
  have e : (ix2 r (⟨q.val, by omega⟩ : Fin 256) : S3000x256.Idx) = (r1_4 : Rect S3000x256).emb (ix2 r q) :=
    funext fun a => Fin.ext (by
      match a with
      | ⟨0, _⟩ => show r.val = 0 + 1 * r.val; omega
      | ⟨1, _⟩ => show q.val = 0 + 1 * q.val; omega)
  rw [e]
  exact (View.canon_cons_emb (r1_4 : Rect S3000x256) _ [] (ix2 r q)).trans (pay2_apply x0 x3 x4 x2 r q)

/-- The right half (columns 128..255) is the second stored value. -/
theorem out_hi (x0 : Vec Ideal S3000x128 .f32) (x1 : Vec Ideal S3000x32 .f32) (x2 : Vec Ideal S3000x128 .f32)
    (x3 x4 : Vec Ideal S128x128 .f32) (x5 : Vec Ideal S128x32 .f32) (x6 : Vec Ideal S128x128 .f32)
    (r : Fin 3000) (q : Fin 128) :
    out1_7 (F := Ideal) x0 x1 x2 x3 x4 x5 x6 (ix2 r (⟨q.val + 128, by omega⟩ : Fin 256))
      = (∑ j : Fin 128, (∑ i : Fin 32, x1 (ix2 r i) * x5 (ix2 j i)) * x6 (ix2 q j)) * x2 (ix2 r q) := by
  unfold out1_7
  simp only [View.ld_unit_zero (S := S3000x128) hz, View.ld_unit_zero (S := S3000x32) hz,
    View.ld_unit_zero (S := S128x128) hz, View.ld_unit_zero (S := S128x32) hz]
  have e : (ix2 r (⟨q.val + 128, by omega⟩ : Fin 256) : S3000x256.Idx) = (r1_5 : Rect S3000x256).emb (ix2 r q) :=
    funext fun a => Fin.ext (by
      match a with
      | ⟨0, _⟩ => show r.val = 0 + 1 * r.val; omega
      | ⟨1, _⟩ => show q.val + 128 = 128 + 1 * q.val; omega)
  rw [e]
  exact (View.canon_cons_emb (r1_5 : Rect S3000x256) _ _ (ix2 r q)).trans (pay3_apply x1 x5 x6 x2 r q)

/-! ## The whole message array -/

/-- Entry (a, q') of the message array: for q' below 128 the first message at column q', otherwise the second at
    column q' − 128. -/
def msg2 (a1 : S600000x128.Idx → EReal) (a2 : S600000x32.Idx → EReal) (xs : S600000x128.Idx → EReal)
    (w11 w12 : S128x128.Idx → EReal) (w21 : S128x32.Idx → EReal) (w22 : S128x128.Idx → EReal)
    (a : Fin 600000) (q' : Fin 256) : EReal :=
  if h : q'.val < 128 then msg (mat a1) (mat w11) (mat w12) (mat xs) a ⟨q'.val, h⟩
  else msg (mat a2) (mat w21) (mat w22) (mat xs) a ⟨q'.val - 128, by omega⟩

/-- The message array as a function of its index. -/
def G1 (a1 : S600000x128.Idx → EReal) (a2 : S600000x32.Idx → EReal) (xs : S600000x128.Idx → EReal)
    (w11 w12 : S128x128.Idx → EReal) (w21 : S128x32.Idx → EReal) (w22 : S128x128.Idx → EReal) :
    S600000x256.Idx → EReal :=
  fun i => msg2 a1 a2 xs w11 w12 w21 w22 (i 0) (i 1)

/-- The stored block of a point whose input blocks are rows T·3000 .. T·3000+2999 of the arrays (and the whole weights)
    is those rows of the message array. -/
theorem out_eq_msg2 (x0 : Vec Ideal S3000x128 .f32) (x1 : Vec Ideal S3000x32 .f32) (x2 : Vec Ideal S3000x128 .f32)
    (x3 x4 : Vec Ideal S128x128 .f32) (x5 : Vec Ideal S128x32 .f32) (x6 : Vec Ideal S128x128 .f32)
    (a1 : S600000x128.Idx → EReal) (a2 : S600000x32.Idx → EReal) (xs : S600000x128.Idx → EReal)
    (w11 w12 : S128x128.Idx → EReal) (w21 : S128x32.Idx → EReal) (w22 : S128x128.Idx → EReal)
    (T : ℕ) (hT : T < 200)
    (h0 : ∀ (r : Fin 3000) (i : Fin 128), x0 (ix2 r i) = a1 (ix2 (⟨T * 3000 + r.val, by omega⟩ : Fin 600000) i))
    (h1 : ∀ (r : Fin 3000) (i : Fin 32), x1 (ix2 r i) = a2 (ix2 (⟨T * 3000 + r.val, by omega⟩ : Fin 600000) i))
    (h2 : ∀ (r : Fin 3000) (i : Fin 128), x2 (ix2 r i) = xs (ix2 (⟨T * 3000 + r.val, by omega⟩ : Fin 600000) i))
    (h3 : ∀ (j i : Fin 128), x3 (ix2 j i) = w11 (ix2 j i)) (h4 : ∀ (j i : Fin 128), x4 (ix2 j i) = w12 (ix2 j i))
    (h5 : ∀ (j : Fin 128) (i : Fin 32), x5 (ix2 j i) = w21 (ix2 j i)) (h6 : ∀ (j i : Fin 128), x6 (ix2 j i) = w22 (ix2 j i))
    (r : Fin 3000) (q' : Fin 256) :
    out1_7 (F := Ideal) x0 x1 x2 x3 x4 x5 x6 (ix2 r q')
      = msg2 a1 a2 xs w11 w12 w21 w22 (⟨T * 3000 + r.val, by omega⟩ : Fin 600000) q' := by
  unfold msg2
  by_cases h : q'.val < 128
  · rw [dif_pos h]
    refine (out_lo x0 x1 x2 x3 x4 x5 x6 r ⟨q'.val, h⟩).trans ?_
    show _ = (∑ j : Fin 128, (∑ i : Fin 128, a1 (ix2 _ i) * w11 (ix2 j i)) * w12 (ix2 _ j)) * xs (ix2 _ _)
    rw [h2]
    refine congrArg (· * _) (Finset.sum_congr rfl fun j _ => ?_)
    rw [h4]
    refine congrArg (· * _) (Finset.sum_congr rfl fun i _ => ?_)
    rw [h0, h3]
  · rw [dif_neg h]
    have hq : q'.val < 256 := q'.isLt
    have e : q' = (⟨(⟨q'.val - 128, by omega⟩ : Fin 128).val + 128, by show q'.val - 128 + 128 < 256; omega⟩ : Fin 256) :=
      Fin.ext (by show q'.val = q'.val - 128 + 128; omega)
    refine (congrArg (fun z => out1_7 (F := Ideal) x0 x1 x2 x3 x4 x5 x6 (ix2 r z)) e).trans ?_
    refine (out_hi x0 x1 x2 x3 x4 x5 x6 r ⟨q'.val - 128, by omega⟩).trans ?_
    show _ = (∑ j : Fin 128, (∑ i : Fin 32, a2 (ix2 _ i) * w21 (ix2 j i)) * w22 (ix2 _ j)) * xs (ix2 _ _)
    rw [h2]
    refine congrArg (· * _) (Finset.sum_congr rfl fun j _ => ?_)
    rw [h6]
    refine congrArg (· * _) (Finset.sum_congr rfl fun i _ => ?_)
    rw [h1, h5]

/-- The same at any index of the block. -/
theorem out_eq_msg2' (x0 : Vec Ideal S3000x128 .f32) (x1 : Vec Ideal S3000x32 .f32) (x2 : Vec Ideal S3000x128 .f32)
    (x3 x4 : Vec Ideal S128x128 .f32) (x5 : Vec Ideal S128x32 .f32) (x6 : Vec Ideal S128x128 .f32)
    (a1 : S600000x128.Idx → EReal) (a2 : S600000x32.Idx → EReal) (xs : S600000x128.Idx → EReal)
    (w11 w12 : S128x128.Idx → EReal) (w21 : S128x32.Idx → EReal) (w22 : S128x128.Idx → EReal)
    (T : ℕ) (hT : T < 200)
    (h0 : ∀ (r : Fin 3000) (i : Fin 128), x0 (ix2 r i) = a1 (ix2 (⟨T * 3000 + r.val, by omega⟩ : Fin 600000) i))
    (h1 : ∀ (r : Fin 3000) (i : Fin 32), x1 (ix2 r i) = a2 (ix2 (⟨T * 3000 + r.val, by omega⟩ : Fin 600000) i))
    (h2 : ∀ (r : Fin 3000) (i : Fin 128), x2 (ix2 r i) = xs (ix2 (⟨T * 3000 + r.val, by omega⟩ : Fin 600000) i))
    (h3 : ∀ (j i : Fin 128), x3 (ix2 j i) = w11 (ix2 j i)) (h4 : ∀ (j i : Fin 128), x4 (ix2 j i) = w12 (ix2 j i))
    (h5 : ∀ (j : Fin 128) (i : Fin 32), x5 (ix2 j i) = w21 (ix2 j i)) (h6 : ∀ (j i : Fin 128), x6 (ix2 j i) = w22 (ix2 j i))
    (j : S3000x256.Idx) :
    out1_7 (F := Ideal) x0 x1 x2 x3 x4 x5 x6 j
      = msg2 a1 a2 xs w11 w12 w21 w22 (⟨T * 3000 + (j 0).val, by have := idx2_lt0 j; omega⟩ : Fin 600000) (j 1) := by
  obtain ⟨r, q', rfl⟩ : ∃ (r : Fin 3000) (q' : Fin 256), j = ix2 r q' := ⟨j 0, j 1, eq_ix2 j⟩
  exact out_eq_msg2 x0 x1 x2 x3 x4 x5 x6 a1 a2 xs w11 w12 w21 w22 T hT h0 h1 h2 h3 h4 h5 h6 r q'

/-! ## From blocks to the array -/

/-- The printed index maps, decided over the grid: the row-blocked windows sit at block row t, the weights at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point t writes back is block t of the message array of the region's entry contents. -/
theorem flushed_eq (c : Dev nD) (t : Fin cfg1.N) :
    (dat1 (F := Ideal) V c).flushed 7 t
      = ((cfg1.win 7).blk t).view.read (Elt Ideal)
          (G1 (V c main_arg1) (V c main_arg2) (V c main_v11) (V c main_arg6) (V c main_arg7) (V c main_arg8) (V c main_arg9)) := by
  show (cfg1.win 7).cut (grid1.coords t) ((dat1 V c).after 7 t) = _
  rw [after1_7]
  obtain ⟨e00, e01, e10, e11, e20, e21, e30, e31, e40, e41, e50, e51, e60, e61, e70, e71⟩ := idx_facts t
  have ht : t.val < 200 := lt_of_lt_of_eq t.isLt N_1
  funext j
  refine (out_eq_msg2' (iblk1 V c 0 t) (iblk1 V c 1 t) (iblk1 V c 2 t) (iblk1 V c 3 t) (iblk1 V c 4 t) (iblk1 V c 5 t)
    (iblk1 V c 6 t) (V c main_arg1) (V c main_arg2) (V c main_v11) (V c main_arg6) (V c main_arg7) (V c main_arg8)
    (V c main_arg9) t.val ht ?_ ?_ ?_ ?_ ?_ ?_ ?_ j).trans ?_
  · intro r i
    show V c main_arg1 (((cfg1.win 0).blk t).view.emb (ix2 r i)) = V c main_arg1 _
    refine congrArg (V c main_arg1) (funext fun a => Fin.ext ?_)
    match a with
    | ⟨0, _⟩ => show win1_0.index t (0 : Fin 2) * 3000 + 1 * r.val = t.val * 3000 + r.val; omega
    | ⟨1, _⟩ => show win1_0.index t (1 : Fin 2) * 128 + 1 * i.val = i.val; omega
  · intro r i
    show V c main_arg2 (((cfg1.win 1).blk t).view.emb (ix2 r i)) = V c main_arg2 _
    refine congrArg (V c main_arg2) (funext fun a => Fin.ext ?_)
    match a with
    | ⟨0, _⟩ => show win1_1.index t (0 : Fin 2) * 3000 + 1 * r.val = t.val * 3000 + r.val; omega
    | ⟨1, _⟩ => show win1_1.index t (1 : Fin 2) * 32 + 1 * i.val = i.val; omega
  · intro r i
    show V c main_v11 (((cfg1.win 2).blk t).view.emb (ix2 r i)) = V c main_v11 _
    refine congrArg (V c main_v11) (funext fun a => Fin.ext ?_)
    match a with
    | ⟨0, _⟩ => show win1_2.index t (0 : Fin 2) * 3000 + 1 * r.val = t.val * 3000 + r.val; omega
    | ⟨1, _⟩ => show win1_2.index t (1 : Fin 2) * 128 + 1 * i.val = i.val; omega
  · intro p i
    show V c main_arg6 (((cfg1.win 3).blk t).view.emb (ix2 p i)) = V c main_arg6 _
    refine congrArg (V c main_arg6) (funext fun a => Fin.ext ?_)
    match a with
    | ⟨0, _⟩ => show win1_3.index t (0 : Fin 2) * 128 + 1 * p.val = p.val; omega
    | ⟨1, _⟩ => show win1_3.index t (1 : Fin 2) * 128 + 1 * i.val = i.val; omega
  · intro p i
    show V c main_arg7 (((cfg1.win 4).blk t).view.emb (ix2 p i)) = V c main_arg7 _
    refine congrArg (V c main_arg7) (funext fun a => Fin.ext ?_)
    match a with
    | ⟨0, _⟩ => show win1_4.index t (0 : Fin 2) * 128 + 1 * p.val = p.val; omega
    | ⟨1, _⟩ => show win1_4.index t (1 : Fin 2) * 128 + 1 * i.val = i.val; omega
  · intro p i
    show V c main_arg8 (((cfg1.win 5).blk t).view.emb (ix2 p i)) = V c main_arg8 _
    refine congrArg (V c main_arg8) (funext fun a => Fin.ext ?_)
    match a with
    | ⟨0, _⟩ => show win1_5.index t (0 : Fin 2) * 128 + 1 * p.val = p.val; omega
    | ⟨1, _⟩ => show win1_5.index t (1 : Fin 2) * 32 + 1 * i.val = i.val; omega
  · intro p i
    show V c main_arg9 (((cfg1.win 6).blk t).view.emb (ix2 p i)) = V c main_arg9 _
    refine congrArg (V c main_arg9) (funext fun a => Fin.ext ?_)
    match a with
    | ⟨0, _⟩ => show win1_6.index t (0 : Fin 2) * 128 + 1 * p.val = p.val; omega
    | ⟨1, _⟩ => show win1_6.index t (1 : Fin 2) * 128 + 1 * i.val = i.val; omega
  · show msg2 _ _ _ _ _ _ _ _ _ = msg2 _ _ _ _ _ _ _ ((((cfg1.win 7).blk t).view.emb j) 0) ((((cfg1.win 7).blk t).view.emb j) 1)
    refine congrArg₂ (msg2 _ _ _ _ _ _ _) (Fin.ext ?_) (Fin.ext ?_)
    · show t.val * 3000 + (j 0).val = win1_7.index t (0 : Fin 2) * 3000 + 1 * (j 0).val; omega
    · show (j 1).val = win1_7.index t (1 : Fin 2) * 256 + 1 * (j 1).val; omega

/-- An index of the array is in point t's block iff each coordinate is in the block's range on its axis. -/
theorem mem_blk (t : Fin cfg1.N) (i : S600000x256.Idx) :
    i ∈ ((cfg1.win 7).blk t).view.set ↔ ∀ a : Fin 2, win1_7.index t a * S3000x256.size a ≤ (i a).val
      ∧ (i a).val < win1_7.index t a * S3000x256.size a + S3000x256.size a := by
  show i ∈ ((View.whole main_v12).slice (win1_7.rect t)).set ↔ _
  rw [View.set_slice_whole, Rect.mem_set_unit]
  exact Iff.rfl

/-- Every index is in some point's block: row a is in the block of point a / 3000. -/
theorem cover (i : S600000x256.Idx) :
    ∃ t : Fin cfg1.N, (cfg1.win 7).flush t = true ∧ i ∈ ((cfg1.win 7).blk t).view.set := by
  have hi0 : (i 0).val < 600000 := idx2_lt0 i
  have hi1 : (i 1).val < 256 := idx2_lt1 i
  have hN : cfg1.N = 200 := N_1
  have hlt : (i 0).val / 3000 < cfg1.N := by rw [hN]; omega
  obtain ⟨-, -, -, -, -, -, -, -, -, -, -, -, -, -, e70, e71⟩ := idx_facts ⟨(i 0).val / 3000, hlt⟩
  refine ⟨⟨(i 0).val / 3000, hlt⟩, flush1_7 _, ?_⟩
  rw [mem_blk]
  intro a
  match a with
  | ⟨0, _⟩ =>
    show win1_7.index ⟨(i 0).val / 3000, hlt⟩ (0 : Fin 2) * 3000 ≤ (i 0).val
      ∧ (i 0).val < win1_7.index ⟨(i 0).val / 3000, hlt⟩ (0 : Fin 2) * 3000 + 3000
    have e : win1_7.index ⟨(i 0).val / 3000, hlt⟩ (0 : Fin 2) = (i 0).val / 3000 := e70
    omega
  | ⟨1, _⟩ =>
    show win1_7.index ⟨(i 0).val / 3000, hlt⟩ (1 : Fin 2) * 256 ≤ (i 1).val
      ∧ (i 1).val < win1_7.index ⟨(i 0).val / 3000, hlt⟩ (1 : Fin 2) * 256 + 256
    omega

/-- The message array after the region: the message function of the region's entry contents. -/
theorem final (c : Dev nD) :
    (dat1 (F := Ideal) V c).arrAt 7 cfg1.N
      = G1 (V c main_arg1) (V c main_arg2) (V c main_v11) (V c main_arg6) (V c main_arg7) (V c main_arg8) (V c main_arg9) :=
  (dat1 (F := Ideal) V c).arrAt_eq_of_cover 7 _ (fun t _ => flushed_eq V c t) cover

/-- After the second region the message array's left half holds the first edge message … -/
theorem arr1_lo (c : Dev nD) (a : Fin 600000) (q : Fin 128) :
    (dat1 (F := Ideal) V c).arrAt 7 cfg1.N (ix2 a (⟨q.val, by omega⟩ : Fin 256))
      = msg (mat (V c main_arg1)) (mat (V c main_arg6)) (mat (V c main_arg7)) (mat (V c main_v11)) a q := by
  refine (congrFun (final V c) _).trans ?_
  show msg2 _ _ _ _ _ _ _ a (⟨q.val, by omega⟩ : Fin 256) = _
  unfold msg2
  exact dif_pos q.isLt

/-- … and its right half the second. -/
theorem arr1_hi (c : Dev nD) (a : Fin 600000) (q : Fin 128) :
    (dat1 (F := Ideal) V c).arrAt 7 cfg1.N (ix2 a (⟨q.val + 128, by omega⟩ : Fin 256))
      = msg (mat (V c main_arg2)) (mat (V c main_arg8)) (mat (V c main_arg9)) (mat (V c main_v11)) a q := by
  refine (congrFun (final V c) _).trans ?_
  show msg2 _ _ _ _ _ _ _ a (⟨q.val + 128, by omega⟩ : Fin 256) = _
  unfold msg2
  refine (dif_neg (show ¬ (q.val + 128 < 128) by omega)).trans ?_
  exact congrArg (msg _ _ _ _ a) (Fin.ext (by show q.val + 128 - 128 = q.val; omega))

end Cert.KernelIdeal.Region1

end
-- ==== Proof.LibColSum.lean ====
/-
  Three readings at an index, beside the keep-dims ones.

  A sum over the FIRST axis of an `[a, b]` array (the sublanes) into the zero accumulator is, at column `c`, the
  sum of that column's entries; a `[1, 1, 1]` scalar broadcast over `b` lanes reads the scalar everywhere; and a
  sum over the index set of a rank-1 shape is the sum over its one coordinate.
-/
import Idealize.ShloMosaic.Lib.Pipeline.Value
import Idealize.ShloMosaic.Lib.ValueIdx
import Idealize.ShloMosaic.PureOps.Ideal.Laws

noncomputable section

namespace Idealize.ShloMosaic.ColSum

open Idealize.ShloMosaic Idealize.ShloMosaic.ValueIdx

variable {α : Type}

/-- The sum over the rows of an `[a, b]` array into the zero accumulator, at column `c`, is the sum of the
    column's entries. -/
theorem colSum_apply {a b : ℕ} (v : FVec Ideal ⟨2, ![a, b]⟩ .f32) (h : (⟨2, ![a, b]⟩ : Shape).Reduces [0] ⟨1, ![b]⟩)
    (hacc : (0x00000000#32 : BitVec 32) = 0x00000000#32) (c : Fin b) :
    multiReduction .add [0] ⟨1, ![b]⟩ v 0x00000000#32 h (.inl rfl) hacc (ix1 c) = ∑ k : Fin a, v (ix2 k c) :=
  (Ideal.multiReduction_add_single v 0x00000000#32 h (.inl rfl) hacc (ix1 c)).trans
    (Finset.sum_congr rfl fun k _ => congrArg v (funext fun ax => Fin.ext (by
      match ax with
      | ⟨0, _⟩ => rfl
      | ⟨1, _⟩ => rfl)))

/-- A `[1, 1, 1]` scalar broadcast over `b` lanes reads, at every index, the scalar. -/
theorem broadcastTo_111_11b_apply {b : ℕ} (v : (⟨3, ![1, 1, 1]⟩ : Shape).Idx → α)
    (h : (⟨3, ![1, 1, 1]⟩ : Shape).Broadcasts ⟨3, ![1, 1, b]⟩) (y : (⟨3, ![1, 1, b]⟩ : Shape).Idx) :
    broadcastTo ⟨3, ![1, 1, b]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

/-- A rank-1 index set is its one coordinate's range … -/
def idxEquiv1 {n : ℕ} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ t : Fin n, f (ix1 t) :=
  ((idxEquiv1 (n := n)).symm.sum_comp f).symm

end Idealize.ShloMosaic.ColSum

end
-- ==== Proof.Region2Body.lean ====
import proofs.«108244_j21019569947168_2_alg».proof.Proof.Gen.KernelIdeal.Frame
import proofs.«108244_j21019569947168_2_alg».proof.Proof.Spec
import proofs.«108244_j21019569947168_2_alg».proof.Proof.LibPlainDot
import proofs.«108244_j21019569947168_2_alg».proof.Proof.LibRealMatmul
import proofs.«108244_j21019569947168_2_alg».proof.Proof.LibColSum
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Region2

open Idealize.ShloMosaic Idealize.ShloMosaic.TcCoe Idealize.ShloMosaic.ValueIdx
open Cert.KernelIdeal Cert.KernelIdeal.Gen Cert.Spec

variable {n : ℕ}

/-! ## One product with a transposed weight, and one bias row, at an entry

A tile `y` of 2000 rows holds the rows `ρ r` of an array `Z`; `wT` holds a weight `W` transposed.  The matrix
unit into the zero accumulator then gives, at `(r, q)`, entry `(ρ r, q)` of `Z·Wᵀ`. -/

theorem dense_tile {φ₁ φ₂ : FTy} (y : FVec Ideal S2000x128 φ₁) (wT : FVec Ideal S128x128 φ₂)
    (Z : Fin n → Fin 128 → EReal) (ρ : Fin 2000 → Fin n) (W : Fin 128 → Fin 128 → EReal)
    (hy : ∀ r j, y (ix2 r j) = Z (ρ r) j) (hw : ∀ j q, wT (ix2 j q) = W q j) (r : Fin 2000) (q : Fin 128) :
    matmul dot_S2000x128_S128x128_S2000x128_1_0_0_1_n_n none y wT
        (constant (F := Ideal) S2000x128 .f32 0x00000000#32) (ix2 r q) = dense Z W (ρ r) q := by
  refine (PlainDot.matmul_zero_apply dot_S2000x128_S128x128_S2000x128_1_0_0_1_n_n none rfl rfl
    (left_row_of% dot_S2000x128_S128x128_S2000x128_1_0_0_1_n_n)
    (fun i k => dot_S2000x128_S128x128_S2000x128_1_0_0_1_n_n.lhsIdx_val_of_single rfl i k)
    (fun i k => dot_S2000x128_S128x128_S2000x128_1_0_0_1_n_n.rhsIdx_val_of_single rfl i k)
    (right_col_of% dot_S2000x128_S128x128_S2000x128_1_0_0_1_n_n) y wT r q).trans ?_
  unfold dense
  exact Finset.sum_congr rfl fun j _ => by rw [hy, hw]

/-- A flat bias laid as a row and broadcast down the tile reads, at `(r, q)`, the bias at `q`. -/
theorem bias_flat (b : FVec Ideal S128 .f32) (r : Fin 2000) (q : Fin 128) :
    broadcastTo S2000x128 (shapeCast S1x128 b shapeCasts_S128_S1x128) broadcasts_S1x128_S2000x128 (ix2 r q) = b (ix1 q) :=
  (broadcastTo_1b_ab_apply _ broadcasts_S1x128_S2000x128 r q).trans (shapeCast_a_1a_apply b shapeCasts_S128_S1x128 0 q)

/-- A bias row flattened, laid as a row again and broadcast down the tile reads, at `(r, q)`, the row at `q`. -/
theorem bias_row (b : FVec Ideal S1x128 .f32) (r : Fin 2000) (q : Fin 128) :
    broadcastTo S2000x128 (shapeCast S1x128 (shapeCast S128 b shapeCasts_S1x128_S128) shapeCasts_S128_S1x128)
      broadcasts_S1x128_S2000x128 (ix2 r q) = b (ix2 (0 : Fin 1) q) :=
  (bias_flat _ r q).trans (shapeCast_1a_a_apply b shapeCasts_S1x128_S128 q)

/-- A product plus a bias tile: the rows `ρ r` of `Z·Wᵀ + β`. -/
theorem lin_tile {φ₁ φ₂ : FTy} (y : FVec Ideal S2000x128 φ₁) (wT : FVec Ideal S128x128 φ₂) (bc : FVec Ideal S2000x128 .f32)
    (Z : Fin n → Fin 128 → EReal) (ρ : Fin 2000 → Fin n) (W : Fin 128 → Fin 128 → EReal) (β : Fin 128 → EReal)
    (hy : ∀ r j, y (ix2 r j) = Z (ρ r) j) (hw : ∀ j q, wT (ix2 j q) = W q j) (hb : ∀ r q, bc (ix2 r q) = β q)
    (r : Fin 2000) (q : Fin 128) :
    addf (matmul dot_S2000x128_S128x128_S2000x128_1_0_0_1_n_n none y wT
        (constant (F := Ideal) S2000x128 .f32 0x00000000#32)) bc (ix2 r q) = lin Z W β (ρ r) q :=
  congrArg₂ (· + ·) (dense_tile y wT Z ρ W hy hw r q) (hb r q)

/-- `v · σ(v)` entrywise on a tile holding the rows `ρ r` of `Y`. -/
theorem sw_tile (v : FVec Ideal S2000x128 .f32) (Y : Fin n → Fin 128 → EReal) (ρ : Fin 2000 → Fin n)
    (hv : ∀ r q, v (ix2 r q) = Y (ρ r) q) (r : Fin 2000) (q : Fin 128) :
    mulf v (logistic v) (ix2 r q) = act Y (ρ r) q := by
  show v (ix2 r q) * Ideal.logistic (v (ix2 r q)) = Y (ρ r) q * Ideal.logistic (Y (ρ r) q)
  rw [hv]

/-- One residual layer on a tile. -/
theorem resid_tile (v z : FVec Ideal S2000x128 .f32) (Z : Fin n → Fin 128 → EReal) (ρ : Fin 2000 → Fin n)
    (W : Fin 128 → Fin 128 → EReal) (β : Fin 128 → EReal)
    (hv : ∀ r q, v (ix2 r q) = lin Z W β (ρ r) q) (hz : ∀ r q, z (ix2 r q) = Z (ρ r) q) (r : Fin 2000) (q : Fin 128) :
    addf (mulf v (logistic v)) z (ix2 r q) = resid Z W β (ρ r) q := by
  show v (ix2 r q) * Ideal.logistic (v (ix2 r q)) + z (ix2 r q) = lin Z W β (ρ r) q * Ideal.logistic (lin Z W β (ρ r) q) + Z (ρ r) q
  rw [hv, hz]

/-- A weight, rounded and transposed, reads at `(j, q)` the weight at `(q, j)`. -/
theorem wT_apply {φ : FTy} (w : FVec Ideal S128x128 φ) (W : Fin 128 → Fin 128 → EReal) (hw : ∀ q j, w (ix2 q j) = W q j)
    (j q : Fin 128) : transpose S128x128 [1, 0] w transposes_S128x128_p1_0_S128x128 (ix2 j q) = W q j :=
  (transpose_ix2_apply w transposes_S128x128_p1_0_S128x128 j q).trans (hw q j)

/-! ## The first convolution branch -/

theorem pay5_tile (v0 v6 : Vec Ideal S2000x128 .f32) (v9 v11 : Vec Ideal S128x128 .f32) (v15 : Vec Ideal S128 .f32)
    (v22 : Vec Ideal S128x128 .f32) (v27 : Vec Ideal S128 .f32)
    (A X : Fin n → Fin 128 → EReal) (ρ : Fin 2000 → Fin n) (Rel Root L : Fin 128 → Fin 128 → EReal) (relb lb : Fin 128 → EReal)
    (h0 : ∀ r j, v0 (ix2 r j) = A (ρ r) j) (h6 : ∀ r j, v6 (ix2 r j) = X (ρ r) j)
    (h9 : ∀ q j, v9 (ix2 q j) = Rel q j) (h11 : ∀ q j, v11 (ix2 q j) = Root q j) (h15 : ∀ q, v15 (ix1 q) = relb q)
    (h22 : ∀ q j, v22 (ix2 q j) = L q j) (h27 : ∀ q, v27 (ix1 q) = lb q) (r : Fin 2000) (q : Fin 128) :
    k2_pay5 v0 v6 v9 v11 v15 v22 v27 (ix2 r q) = branch A X Rel relb Root L lb (ρ r) q := by
  unfold k2_pay5 k2_pay4 k2_pay3
  refine sw_tile _ (lin (fun p q => (dense A Rel p q + relb q) + dense X Root p q) L lb) ρ (fun r q => ?_) r q
  refine lin_tile _ _ _ _ ρ L lb (fun r j => ?_) (wT_apply _ L h22) (fun r q => (bias_flat v27 r q).trans (h27 q)) r q
  refine congrArg₂ (· + ·) (lin_tile _ _ _ A ρ Rel relb (fun r j => ?_) (wT_apply _ Rel h9) (fun r q => (bias_flat v15 r q).trans (h15 q)) r j)
    (dense_tile _ _ X ρ Root (fun r j => ?_) (wT_apply _ Root h11) r j)
  · exact (congrFun (shapeCast_self v0 shapeCasts_S2000x128_S2000x128) (ix2 r j)).trans (h0 r j)
  · exact (congrFun (shapeCast_self v6 shapeCasts_S2000x128_S2000x128) (ix2 r j)).trans (h6 r j)

/-! ## The second branch and the combination -/

theorem pay8_tile (v5 : FVec Ideal S2000x128 .bf16) (v7 : FVec Ideal S2000x128 .f32) (v8 : FVec Ideal S2000x128 .bf16)
    (v32 : FVec Ideal S2000x128 .f32) (v36 v37 : FVec Ideal S128x128 .bf16) (v39 : Vec Ideal S128 .f32)
    (v46 : Vec Ideal S128x128 .f32) (v51 : Vec Ideal S128 .f32) (v57 v60 : Vec Ideal S128x128 .f32) (v70 : Vec Ideal S128 .f32)
    (A2 X H1 : Fin n → Fin 128 → EReal) (ρ : Fin 2000 → Fin n) (Rel2 Root2 L2 Wa Wb : Fin 128 → Fin 128 → EReal)
    (rel2b l2b cb : Fin 128 → EReal)
    (h5 : ∀ r j, v5 (ix2 r j) = A2 (ρ r) j) (h7 : ∀ r j, v7 (ix2 r j) = X (ρ r) j) (h8 : ∀ r j, v8 (ix2 r j) = X (ρ r) j)
    (h32 : ∀ r j, v32 (ix2 r j) = H1 (ρ r) j) (h36 : ∀ q j, v36 (ix2 q j) = Root2 q j) (h37 : ∀ j q, v37 (ix2 j q) = Rel2 q j)
    (h39 : ∀ q, v39 (ix1 q) = rel2b q) (h46 : ∀ q j, v46 (ix2 q j) = L2 q j) (h51 : ∀ q, v51 (ix1 q) = l2b q)
    (h57 : ∀ q j, v57 (ix2 q j) = Wa q j) (h60 : ∀ q j, v60 (ix2 q j) = Wb q j) (h70 : ∀ q, v70 (ix1 q) = cb q)
    (r : Fin 2000) (q : Fin 128) :
    k2_pay8 v5 v7 v8 v32 v36 v37 v39 v46 v51 v57 v60 v70 (ix2 r q)
      = comb H1 (branch A2 X Rel2 rel2b Root2 L2 l2b) X Wa Wb cb (ρ r) q := by
  unfold k2_pay8
  refine congrArg₂ (· + ·) (congrArg₂ (· + ·) (congrArg₂ (· + ·) ?_ ?_) ((bias_flat v70 r q).trans (h70 q))) (h7 r q)
  · exact dense_tile _ _ H1 ρ Wa h32 (wT_apply _ Wa fun q j =>
      (congrFun (shapeCast_self v57 shapeCasts_S128x128_S128x128) (ix2 q j)).trans (h57 q j)) r q
  · refine dense_tile _ _ (branch A2 X Rel2 rel2b Root2 L2 l2b) ρ Wb (fun r j => ?_) (wT_apply _ Wb fun q j =>
      (congrFun (shapeCast_self v60 shapeCasts_S128x128_S128x128) (ix2 q j)).trans (h60 q j)) r q
    refine sw_tile _ (lin (fun p q => (dense A2 Rel2 p q + rel2b q) + dense X Root2 p q) L2 l2b) ρ (fun r q => ?_) r j
    refine lin_tile _ _ _ _ ρ L2 l2b (fun r j => ?_) (wT_apply _ L2 h46) (fun r q => (bias_flat v51 r q).trans (h51 q)) r q
    exact congrArg₂ (· + ·) (lin_tile _ _ _ A2 ρ Rel2 rel2b h5 h37 (fun r q => (bias_flat v39 r q).trans (h39 q)) r j)
      (dense_tile _ _ X ρ Root2 h8 (wT_apply _ Root2 h36) r j)

/-! ## The residual layers -/

/-- One residual layer as the body spells it: the tile rounded, times the transposed weight, plus the bias, through
    `y ↦ y·σ(y)`, plus the tile. -/
theorem layer_tile {φ : FTy} (z : FVec Ideal S2000x128 .f32) (wT : FVec Ideal S128x128 φ) (bc : FVec Ideal S2000x128 .f32)
    (Z : Fin n → Fin 128 → EReal) (ρ : Fin 2000 → Fin n) (W : Fin 128 → Fin 128 → EReal) (β : Fin 128 → EReal)
    (hz : ∀ r j, z (ix2 r j) = Z (ρ r) j) (hw : ∀ j q, wT (ix2 j q) = W q j) (hb : ∀ r q, bc (ix2 r q) = β q)
    (r : Fin 2000) (q : Fin 128) :
    addf (mulf
        (addf (matmul dot_S2000x128_S128x128_S2000x128_1_0_0_1_n_n none (truncf .bf16 z bitsLt_bf16_f32) wT
          (constant (F := Ideal) S2000x128 .f32 0x00000000#32)) bc)
        (logistic (addf (matmul dot_S2000x128_S128x128_S2000x128_1_0_0_1_n_n none (truncf .bf16 z bitsLt_bf16_f32) wT
          (constant (F := Ideal) S2000x128 .f32 0x00000000#32)) bc))) z (ix2 r q)
      = resid Z W β (ρ r) q :=
  resid_tile _ z Z ρ W β (fun r q => lin_tile _ wT bc Z ρ W β hz hw hb r q) hz r q

theorem pay10_tile (v74 : FVec Ideal S2000x128 .f32) (v77 : FVec Ideal S128x128 .bf16) (v78 : Vec Ideal S1x128 .f32)
    (v89 : Vec Ideal S1x128x128 .f32) (v92 : Vec Ideal S1x128 .f32) (v103 : Vec Ideal S1x128x128 .f32) (v106 : Vec Ideal S1x128 .f32)
    (Z : Fin n → Fin 128 → EReal) (ρ : Fin 2000 → Fin n) (W0 W1 W2 : Fin 128 → Fin 128 → EReal) (β0 β1 β2 : Fin 128 → EReal)
    (h74 : ∀ r j, v74 (ix2 r j) = Z (ρ r) j) (h77 : ∀ q j, v77 (ix2 q j) = W0 q j) (h78 : ∀ q, v78 (ix2 (0 : Fin 1) q) = β0 q)
    (h89 : ∀ q j, v89 (ix3 (0 : Fin 1) q j) = W1 q j) (h92 : ∀ q, v92 (ix2 (0 : Fin 1) q) = β1 q)
    (h103 : ∀ q j, v103 (ix3 (0 : Fin 1) q j) = W2 q j) (h106 : ∀ q, v106 (ix2 (0 : Fin 1) q) = β2 q)
    (r : Fin 2000) (q : Fin 128) :
    k2_pay10 v74 v77 v78 v89 v92 v103 v106 (ix2 r q) = resid (resid (resid Z W0 β0) W1 β1) W2 β2 (ρ r) q := by
  unfold k2_pay10
  exact layer_tile _ _ _ (resid (resid Z W0 β0) W1 β1) ρ W2 β2
    (fun r j => layer_tile _ _ _ (resid Z W0 β0) ρ W1 β1
      (fun r j => layer_tile _ _ _ Z ρ W0 β0 h74 (wT_apply v77 W0 h77) (fun r q => (bias_row v78 r q).trans (h78 q)) r j)
      (wT_apply _ W1 fun q j => (shapeCast_1ab_ab_apply v89 shapeCasts_S1x128x128_S128x128 q j).trans (h89 q j))
      (fun r q => (bias_row v92 r q).trans (h92 q)) r j)
    (wT_apply _ W2 fun q j => (shapeCast_1ab_ab_apply v103 shapeCasts_S1x128x128_S128x128 q j).trans (h103 q j))
    (fun r q => (bias_row v106 r q).trans (h106 q)) r q

/-! ## The stacked weights' slices -/

theorem ld_W0 (x16 : Vec Ideal S3x128x128 .f32) (q j : Fin 128) :
    View.ld x16 r2_3 (ix3 (0 : Fin 1) q j) = x16 (ix3 (0 : Fin 3) q j) :=
  congrArg x16 (funext fun a => Fin.ext (by
    match a with
    | ⟨0, _⟩ => rfl
    | ⟨1, _⟩ => show 0 + 1 * q.val = q.val; omega
    | ⟨2, _⟩ => show 0 + 1 * j.val = j.val; omega))

theorem ld_W1 (x16 : Vec Ideal S3x128x128 .f32) (q j : Fin 128) :
    View.ld x16 r2_5 (ix3 (0 : Fin 1) q j) = x16 (ix3 (1 : Fin 3) q j) :=
  congrArg x16 (funext fun a => Fin.ext (by
    match a with
    | ⟨0, _⟩ => rfl
    | ⟨1, _⟩ => show 0 + 1 * q.val = q.val; omega
    | ⟨2, _⟩ => show 0 + 1 * j.val = j.val; omega))

theorem ld_W2 (x16 : Vec Ideal S3x128x128 .f32) (q j : Fin 128) :
    View.ld x16 r2_7 (ix3 (0 : Fin 1) q j) = x16 (ix3 (2 : Fin 3) q j) :=
  congrArg x16 (funext fun a => Fin.ext (by
    match a with
    | ⟨0, _⟩ => rfl
    | ⟨1, _⟩ => show 0 + 1 * q.val = q.val; omega
    | ⟨2, _⟩ => show 0 + 1 * j.val = j.val; omega))

theorem ld_B0 (x17 : Vec Ideal S3x128 .f32) (q : Fin 128) :
    View.ld x17 r2_4 (ix2 (0 : Fin 1) q) = x17 (ix2 (0 : Fin 3) q) :=
  congrArg x17 (funext fun a => Fin.ext (by
    match a with
    | ⟨0, _⟩ => rfl
    | ⟨1, _⟩ => show 0 + 1 * q.val = q.val; omega))

theorem ld_B1 (x17 : Vec Ideal S3x128 .f32) (q : Fin 128) :
    View.ld x17 r2_6 (ix2 (0 : Fin 1) q) = x17 (ix2 (1 : Fin 3) q) :=
  congrArg x17 (funext fun a => Fin.ext (by
    match a with
    | ⟨0, _⟩ => rfl
    | ⟨1, _⟩ => show 0 + 1 * q.val = q.val; omega))

theorem ld_B2 (x17 : Vec Ideal S3x128 .f32) (q : Fin 128) :
    View.ld x17 r2_8 (ix2 (0 : Fin 1) q) = x17 (ix2 (2 : Fin 3) q) :=
  congrArg x17 (funext fun a => Fin.ext (by
    match a with
    | ⟨0, _⟩ => rfl
    | ⟨1, _⟩ => show 0 + 1 * q.val = q.val; omega))

/-! ## The whole chain on a tile -/

/-- The value the body stores into the node tile: at `(r, q)`, entry `(ρ r, q)` of the chain of the arrays whose rows
    `ρ r` the three input tiles hold. -/
theorem node_tile (x0 x1 x2 : Vec Ideal S2000x128 .f32) (x3 : Vec Ideal S128x128 .f32) (x4 : Vec Ideal S128 .f32)
    (x5 x6 : Vec Ideal S128x128 .f32) (x7 : Vec Ideal S128 .f32) (x8 x9 : Vec Ideal S128x128 .f32) (x10 : Vec Ideal S128 .f32)
    (x11 : Vec Ideal S128x128 .f32) (x12 : Vec Ideal S128 .f32) (x13 x14 : Vec Ideal S128x128 .f32) (x15 : Vec Ideal S128 .f32)
    (x16 : Vec Ideal S3x128x128 .f32) (x17 : Vec Ideal S3x128 .f32)
    (A1 A2 X : Fin n → Fin 128 → EReal) (ρ : Fin 2000 → Fin n)
    (Rel1 Root1 Rel2 Root2 L1 L2 Wa Wb : Fin 128 → Fin 128 → EReal) (rel1b rel2b l1b l2b cb : Fin 128 → EReal)
    (W : Fin 3 → Fin 128 → Fin 128 → EReal) (β : Fin 3 → Fin 128 → EReal)
    (h0 : ∀ r j, x0 (ix2 r j) = A1 (ρ r) j) (h1 : ∀ r j, x1 (ix2 r j) = A2 (ρ r) j) (h2 : ∀ r j, x2 (ix2 r j) = X (ρ r) j)
    (h3 : ∀ q j, x3 (ix2 q j) = Rel1 q j) (h4 : ∀ q, x4 (ix1 q) = rel1b q) (h5 : ∀ q j, x5 (ix2 q j) = Root1 q j)
    (h6 : ∀ q j, x6 (ix2 q j) = Rel2 q j) (h7 : ∀ q, x7 (ix1 q) = rel2b q) (h8 : ∀ q j, x8 (ix2 q j) = Root2 q j)
    (h9 : ∀ q j, x9 (ix2 q j) = L1 q j) (h10 : ∀ q, x10 (ix1 q) = l1b q) (h11 : ∀ q j, x11 (ix2 q j) = L2 q j)
    (h12 : ∀ q, x12 (ix1 q) = l2b q) (h13 : ∀ q j, x13 (ix2 q j) = Wa q j) (h14 : ∀ q j, x14 (ix2 q j) = Wb q j)
    (h15 : ∀ q, x15 (ix1 q) = cb q) (h16 : ∀ i q j, x16 (ix3 i q j) = W i q j) (h17 : ∀ i q, x17 (ix2 i q) = β i q)
    (r : Fin 2000) (q : Fin 128) :
    k2_pay10 (k2_pay8 (k2_pay2 x1) (k2_pay3 x2) (k2_pay4 x2) (k2_pay5 x0 x2 x3 x5 x4 x9 x10) (k2_pay6 x8) (k2_pay7 x6)
        x7 x11 x12 x13 x14 x15) (k2_pay9 (View.ld x16 r2_3)) (View.ld x17 r2_4) (View.ld x16 r2_5) (View.ld x17 r2_6)
        (View.ld x16 r2_7) (View.ld x17 r2_8) (ix2 r q)
      = nodeH A1 A2 X Rel1 rel1b Root1 Rel2 rel2b Root2 L1 l1b L2 l2b Wa Wb cb W β (ρ r) q := by
  have e2 : ∀ r j, k2_pay3 x2 (ix2 r j) = X (ρ r) j := fun r j =>
    (congrFun (shapeCast_self x2 shapeCasts_S2000x128_S2000x128) (ix2 r j)).trans (h2 r j)
  refine pay10_tile _ _ _ _ _ _ _ (comb (branch A1 X Rel1 rel1b Root1 L1 l1b) (branch A2 X Rel2 rel2b Root2 L2 l2b) X Wa Wb cb)
    ρ (W 0) (W 1) (W 2) (β 0) (β 1) (β 2) (fun r j => ?_) (fun q j => ?_) (fun q => (ld_B0 x17 q).trans (h17 0 q))
    (fun q j => (ld_W1 x16 q j).trans (h16 1 q j)) (fun q => (ld_B1 x17 q).trans (h17 1 q))
    (fun q j => (ld_W2 x16 q j).trans (h16 2 q j)) (fun q => (ld_B2 x17 q).trans (h17 2 q)) r q
  · exact pay8_tile _ _ _ _ _ _ x7 x11 x12 x13 x14 x15 A2 X (branch A1 X Rel1 rel1b Root1 L1 l1b) ρ Rel2 Root2 L2 Wa Wb
      rel2b l2b cb
      (fun r j => (congrFun (shapeCast_self x1 shapeCasts_S2000x128_S2000x128) (ix2 r j)).trans (h1 r j))
      e2 e2 (fun r j => pay5_tile x0 x2 x3 x5 x4 x9 x10 A1 X ρ Rel1 Root1 L1 rel1b l1b h0 h2 h3 h5 h4 h9 h10 r j)
      h8 (wT_apply _ Rel2 h6) h7 h11 h12 h13 h14 h15 r j
  · exact (shapeCast_1ab_ab_apply _ shapeCasts_S1x128x128_S128x128 q j).trans ((ld_W0 x16 q j).trans (h16 0 q j))

/-! ## The statistics tile -/

/-- Row 0 of the statistics tile is the first piece's row. -/
theorem pay1_row0 (v119 : FVec Ideal S1x128 .f32) (v120 : FVec Ideal S2000x128 .f32) (q : Fin 128) :
    k2_pay1 v119 v120 (ix2 (0 : Fin 8) q) = v119 (ix2 (0 : Fin 1) q) := by
  unfold k2_pay1
  exact concatenate_apply_piece (0 : Fin S8x128.rank) _ _ (ix2 (0 : Fin 8) q) 0 (by show 0 < 3; decide) S1x128 v119 rfl rfl 0 rfl
    (ix2 (0 : Fin 1) q) (fun b hb => by
      match b with
      | ⟨0, _⟩ => exact absurd rfl hb
      | ⟨1, _⟩ => rfl) rfl

/-- Row 1 of the statistics tile is the column sums of the second operand. -/
theorem pay1_row1 (v119 : FVec Ideal S1x128 .f32) (v120 : FVec Ideal S2000x128 .f32) (q : Fin 128) :
    k2_pay1 v119 v120 (ix2 (1 : Fin 8) q) = ∑ k : Fin 2000, v120 (ix2 k q) := by
  unfold k2_pay1
  refine (concatenate_apply_piece (0 : Fin S8x128.rank) _ _ (ix2 (1 : Fin 8) q) 1 (by show 1 < 3; decide) S1x128 _ rfl rfl 1 rfl
    (ix2 (0 : Fin 1) q) (fun b hb => by
      match b with
      | ⟨0, _⟩ => exact absurd rfl hb
      | ⟨1, _⟩ => rfl) rfl).trans ?_
  exact (shapeCast_a_1a_apply _ shapeCasts_S128_S1x128 0 q).trans (ColSum.colSum_apply v120 reduces_S2000x128_S128 rfl q)

/-- The first piece: the column sums of the node tile. -/
theorem pay11_row (v74 : FVec Ideal S2000x128 .f32) (v77 : FVec Ideal S128x128 .bf16) (v78 : Vec Ideal S1x128 .f32)
    (v89 : Vec Ideal S1x128x128 .f32) (v92 : Vec Ideal S1x128 .f32) (v103 : Vec Ideal S1x128x128 .f32) (v106 : Vec Ideal S1x128 .f32)
    (q : Fin 128) :
    k2_pay11 v74 v77 v78 v89 v92 v103 v106 (ix2 (0 : Fin 1) q) = ∑ k : Fin 2000, k2_pay10 v74 v77 v78 v89 v92 v103 v106 (ix2 k q) := by
  unfold k2_pay11
  exact (shapeCast_a_1a_apply _ shapeCasts_S128_S1x128 0 q).trans (ColSum.colSum_apply _ reduces_S2000x128_S128 rfl q)

/-- The second operand of the statistics tile: the squares of the node tile. -/
theorem pay12_apply (v74 : FVec Ideal S2000x128 .f32) (v77 : FVec Ideal S128x128 .bf16) (v78 : Vec Ideal S1x128 .f32)
    (v89 : Vec Ideal S1x128x128 .f32) (v92 : Vec Ideal S1x128 .f32) (v103 : Vec Ideal S1x128x128 .f32) (v106 : Vec Ideal S1x128 .f32)
    (i : S2000x128.Idx) :
    k2_pay12 v74 v77 v78 v89 v92 v103 v106 i
      = k2_pay10 v74 v77 v78 v89 v92 v103 v106 i * k2_pay10 v74 v77 v78 v89 v92 v103 v106 i := rfl

end Cert.KernelIdeal.Region2

end
-- ==== Proof.Region2.lean ====
import proofs.«108244_j21019569947168_2_alg».proof.Proof.Gen.KernelIdeal.Frame
import proofs.«108244_j21019569947168_2_alg».proof.Proof.Spec
import proofs.«108244_j21019569947168_2_alg».proof.Proof.Region2Body
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Region2

open Idealize.ShloMosaic Idealize.ShloMosaic.TcCoe Idealize.SL.Sem Idealize.ShloMosaic.ValueIdx
open Cert.KernelIdeal Cert.KernelIdeal.Gen Cert.Spec

variable (V : (c : Dev nD) → (b : Ref sig .tc) → Buf (Elt Ideal) ((c : Thread nD τ).loc b))

/-- `nodeH` of the region's input arrays as the region finds them. -/
abbrev nodeHV (c : Dev nD) : Fin 100000 → Fin 128 → EReal :=
  nodeH (mat (V c main_v21)) (mat (V c main_v22)) (mat (V c main_v4))
    (mat (V c main_arg10)) (vec (V c main_arg11)) (mat (V c main_arg12))
    (mat (V c main_arg13)) (vec (V c main_arg14)) (mat (V c main_arg15))
    (mat (V c main_arg16)) (vec (V c main_arg17)) (mat (V c main_arg18)) (vec (V c main_arg19))
    (mat (V c main_v23)) (mat (V c main_v24)) (vec (V c main_arg21))
    (layerW (V c main_arg22)) (layerB (V c main_arg23))

/-! ## The index maps over the grid -/

theorem zero2 : (![0, 0] : Fin 2 → Nat) = fun _ => 0 := funext fun a => by fin_cases a <;> rfl
theorem zero1 : (![0] : Fin 1 → Nat) = fun _ => 0 := funext fun a => by fin_cases a <;> rfl

theorem pt_lt (t : Fin cfg2.N) : t.val < 50 := lt_of_lt_of_eq t.isLt N_2

/-- The row-blocked windows (the three input tiles, the node tile, the statistics tile) sit at block row `t`,
    block column 0. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_18.index t (0 : Fin 2) = t.val ∧ win2_18.index t (1 : Fin 2) = 0
    ∧ win2_19.index t (0 : Fin 2) = t.val ∧ win2_19.index t (1 : Fin 2) = 0 :=
  (by decide +kernel : ∀ t : Fin grid2.N, _)

/-- The weight windows are whole arrays: block index 0 on every axis. -/
theorem idx_w3 : ∀ (t : Fin cfg2.N) (a : Fin 2), win2_3.index t a = 0 := (by decide +kernel : ∀ (t : Fin grid2.N) (a : Fin 2), _)
theorem idx_w4 : ∀ (t : Fin cfg2.N) (a : Fin 1), win2_4.index t a = 0 := (by decide +kernel : ∀ (t : Fin grid2.N) (a : Fin 1), _)
theorem idx_w5 : ∀ (t : Fin cfg2.N) (a : Fin 2), win2_5.index t a = 0 := (by decide +kernel : ∀ (t : Fin grid2.N) (a : Fin 2), _)
theorem idx_w6 : ∀ (t : Fin cfg2.N) (a : Fin 2), win2_6.index t a = 0 := (by decide +kernel : ∀ (t : Fin grid2.N) (a : Fin 2), _)
theorem idx_w7 : ∀ (t : Fin cfg2.N) (a : Fin 1), win2_7.index t a = 0 := (by decide +kernel : ∀ (t : Fin grid2.N) (a : Fin 1), _)
theorem idx_w8 : ∀ (t : Fin cfg2.N) (a : Fin 2), win2_8.index t a = 0 := (by decide +kernel : ∀ (t : Fin grid2.N) (a : Fin 2), _)
theorem idx_w9 : ∀ (t : Fin cfg2.N) (a : Fin 2), win2_9.index t a = 0 := (by decide +kernel : ∀ (t : Fin grid2.N) (a : Fin 2), _)
theorem idx_w10 : ∀ (t : Fin cfg2.N) (a : Fin 1), win2_10.index t a = 0 := (by decide +kernel : ∀ (t : Fin grid2.N) (a : Fin 1), _)
theorem idx_w11 : ∀ (t : Fin cfg2.N) (a : Fin 2), win2_11.index t a = 0 := (by decide +kernel : ∀ (t : Fin grid2.N) (a : Fin 2), _)
theorem idx_w12 : ∀ (t : Fin cfg2.N) (a : Fin 1), win2_12.index t a = 0 := (by decide +kernel : ∀ (t : Fin grid2.N) (a : Fin 1), _)
theorem idx_w13 : ∀ (t : Fin cfg2.N) (a : Fin 2), win2_13.index t a = 0 := (by decide +kernel : ∀ (t : Fin grid2.N) (a : Fin 2), _)
theorem idx_w14 : ∀ (t : Fin cfg2.N) (a : Fin 2), win2_14.index t a = 0 := (by decide +kernel : ∀ (t : Fin grid2.N) (a : Fin 2), _)
theorem idx_w15 : ∀ (t : Fin cfg2.N) (a : Fin 1), win2_15.index t a = 0 := (by decide +kernel : ∀ (t : Fin grid2.N) (a : Fin 1), _)
theorem idx_w16 : ∀ (t : Fin cfg2.N) (a : Fin 3), win2_16.index t a = 0 := (by decide +kernel : ∀ (t : Fin grid2.N) (a : Fin 3), _)
theorem idx_w17 : ∀ (t : Fin cfg2.N) (a : Fin 2), win2_17.index t a = 0 := (by decide +kernel : ∀ (t : Fin grid2.N) (a : Fin 2), _)

/-! ## Each input block, read where the grid point says -/

/-- Row `r` of the tile at point `t` is row `2000·t + r` of the array. -/
def tileRow (t : Fin 50) (r : Fin 2000) : Fin 100000 := ⟨t.val * 2000 + r.val, by omega⟩

theorem blk0 (c : Dev nD) (t : Fin cfg2.N) (r : Fin 2000) (j : Fin 128) :
    iblk2 (F := Ideal) V c 0 t (ix2 r j : S2000x128.Idx) = V c main_v21 (ix2 (tileRow ⟨t.val, pt_lt t⟩ r) j) := by
  obtain ⟨e0, e1, -⟩ := idx_rows t
  show V c main_v21 (((cfg2.win 0).blk t).view.emb (ix2 r j : S2000x128.Idx)) = _
  refine congrArg _ (funext fun a => Fin.ext ?_)
  match a with
  | ⟨0, _⟩ => show win2_0.index t (0 : Fin 2) * 2000 + 1 * r.val = t.val * 2000 + r.val; rw [e0]; omega
  | ⟨1, _⟩ => show win2_0.index t (1 : Fin 2) * 128 + 1 * j.val = j.val; rw [e1]; omega

theorem blk1 (c : Dev nD) (t : Fin cfg2.N) (r : Fin 2000) (j : Fin 128) :
    iblk2 (F := Ideal) V c 1 t (ix2 r j : S2000x128.Idx) = V c main_v22 (ix2 (tileRow ⟨t.val, pt_lt t⟩ r) j) := by
  obtain ⟨-, -, e0, e1, -⟩ := idx_rows t
  show V c main_v22 (((cfg2.win 1).blk t).view.emb (ix2 r j : S2000x128.Idx)) = _
  refine congrArg _ (funext fun a => Fin.ext ?_)
  match a with
  | ⟨0, _⟩ => show win2_1.index t (0 : Fin 2) * 2000 + 1 * r.val = t.val * 2000 + r.val; rw [e0]; omega
  | ⟨1, _⟩ => show win2_1.index t (1 : Fin 2) * 128 + 1 * j.val = j.val; rw [e1]; omega

theorem blk2 (c : Dev nD) (t : Fin cfg2.N) (r : Fin 2000) (j : Fin 128) :
    iblk2 (F := Ideal) V c 2 t (ix2 r j : S2000x128.Idx) = V c main_v4 (ix2 (tileRow ⟨t.val, pt_lt t⟩ r) j) := by
  obtain ⟨-, -, -, -, e0, e1, -⟩ := idx_rows t
  show V c main_v4 (((cfg2.win 2).blk t).view.emb (ix2 r j : S2000x128.Idx)) = _
  refine congrArg _ (funext fun a => Fin.ext ?_)
  match a with
  | ⟨0, _⟩ => show win2_2.index t (0 : Fin 2) * 2000 + 1 * r.val = t.val * 2000 + r.val; rw [e0]; omega
  | ⟨1, _⟩ => show win2_2.index t (1 : Fin 2) * 128 + 1 * j.val = j.val; rw [e1]; omega

/-! Each weight window's block is the whole array. -/

theorem blk3 (c : Dev nD) (t : Fin cfg2.N) (y : S128x128.Idx) : iblk2 (F := Ideal) V c 3 t y = V c main_arg10 y := by
  show V c main_arg10 (((cfg2.win 3).blk t).view.emb y) = V c main_arg10 y
  exact congrArg _ (funext fun a => Fin.ext (Pipeline.Window.rect_emb_val_of_index_zero win2_3 t a (idx_w3 t a) y))

theorem blk4 (c : Dev nD) (t : Fin cfg2.N) (y : S128.Idx) : iblk2 (F := Ideal) V c 4 t y = V c main_arg11 y := by
  show V c main_arg11 (((cfg2.win 4).blk t).view.emb y) = V c main_arg11 y
  exact congrArg _ (funext fun a => Fin.ext (Pipeline.Window.rect_emb_val_of_index_zero win2_4 t a (idx_w4 t a) y))

theorem blk5 (c : Dev nD) (t : Fin cfg2.N) (y : S128x128.Idx) : iblk2 (F := Ideal) V c 5 t y = V c main_arg12 y := by
  show V c main_arg12 (((cfg2.win 5).blk t).view.emb y) = V c main_arg12 y
  exact congrArg _ (funext fun a => Fin.ext (Pipeline.Window.rect_emb_val_of_index_zero win2_5 t a (idx_w5 t a) y))

theorem blk6 (c : Dev nD) (t : Fin cfg2.N) (y : S128x128.Idx) : iblk2 (F := Ideal) V c 6 t y = V c main_arg13 y := by
  show V c main_arg13 (((cfg2.win 6).blk t).view.emb y) = V c main_arg13 y
  exact congrArg _ (funext fun a => Fin.ext (Pipeline.Window.rect_emb_val_of_index_zero win2_6 t a (idx_w6 t a) y))

theorem blk7 (c : Dev nD) (t : Fin cfg2.N) (y : S128.Idx) : iblk2 (F := Ideal) V c 7 t y = V c main_arg14 y := by
  show V c main_arg14 (((cfg2.win 7).blk t).view.emb y) = V c main_arg14 y
  exact congrArg _ (funext fun a => Fin.ext (Pipeline.Window.rect_emb_val_of_index_zero win2_7 t a (idx_w7 t a) y))

theorem blk8 (c : Dev nD) (t : Fin cfg2.N) (y : S128x128.Idx) : iblk2 (F := Ideal) V c 8 t y = V c main_arg15 y := by
  show V c main_arg15 (((cfg2.win 8).blk t).view.emb y) = V c main_arg15 y
  exact congrArg _ (funext fun a => Fin.ext (Pipeline.Window.rect_emb_val_of_index_zero win2_8 t a (idx_w8 t a) y))

theorem blk9 (c : Dev nD) (t : Fin cfg2.N) (y : S128x128.Idx) : iblk2 (F := Ideal) V c 9 t y = V c main_arg16 y := by
  show V c main_arg16 (((cfg2.win 9).blk t).view.emb y) = V c main_arg16 y
  exact congrArg _ (funext fun a => Fin.ext (Pipeline.Window.rect_emb_val_of_index_zero win2_9 t a (idx_w9 t a) y))

theorem blk10 (c : Dev nD) (t : Fin cfg2.N) (y : S128.Idx) : iblk2 (F := Ideal) V c 10 t y = V c main_arg17 y := by
  show V c main_arg17 (((cfg2.win 10).blk t).view.emb y) = V c main_arg17 y
  exact congrArg _ (funext fun a => Fin.ext (Pipeline.Window.rect_emb_val_of_index_zero win2_10 t a (idx_w10 t a) y))

theorem blk11 (c : Dev nD) (t : Fin cfg2.N) (y : S128x128.Idx) : iblk2 (F := Ideal) V c 11 t y = V c main_arg18 y := by
  show V c main_arg18 (((cfg2.win 11).blk t).view.emb y) = V c main_arg18 y
  exact congrArg _ (funext fun a => Fin.ext (Pipeline.Window.rect_emb_val_of_index_zero win2_11 t a (idx_w11 t a) y))

theorem blk12 (c : Dev nD) (t : Fin cfg2.N) (y : S128.Idx) : iblk2 (F := Ideal) V c 12 t y = V c main_arg19 y := by
  show V c main_arg19 (((cfg2.win 12).blk t).view.emb y) = V c main_arg19 y
  exact congrArg _ (funext fun a => Fin.ext (Pipeline.Window.rect_emb_val_of_index_zero win2_12 t a (idx_w12 t a) y))

theorem blk13 (c : Dev nD) (t : Fin cfg2.N) (y : S128x128.Idx) : iblk2 (F := Ideal) V c 13 t y = V c main_v23 y := by
  show V c main_v23 (((cfg2.win 13).blk t).view.emb y) = V c main_v23 y
  exact congrArg _ (funext fun a => Fin.ext (Pipeline.Window.rect_emb_val_of_index_zero win2_13 t a (idx_w13 t a) y))

theorem blk14 (c : Dev nD) (t : Fin cfg2.N) (y : S128x128.Idx) : iblk2 (F := Ideal) V c 14 t y = V c main_v24 y := by
  show V c main_v24 (((cfg2.win 14).blk t).view.emb y) = V c main_v24 y
  exact congrArg _ (funext fun a => Fin.ext (Pipeline.Window.rect_emb_val_of_index_zero win2_14 t a (idx_w14 t a) y))

theorem blk15 (c : Dev nD) (t : Fin cfg2.N) (y : S128.Idx) : iblk2 (F := Ideal) V c 15 t y = V c main_arg21 y := by
  show V c main_arg21 (((cfg2.win 15).blk t).view.emb y) = V c main_arg21 y
  exact congrArg _ (funext fun a => Fin.ext (Pipeline.Window.rect_emb_val_of_index_zero win2_15 t a (idx_w15 t a) y))

theorem blk16 (c : Dev nD) (t : Fin cfg2.N) (y : S3x128x128.Idx) : iblk2 (F := Ideal) V c 16 t y = V c main_arg22 y := by
  show V c main_arg22 (((cfg2.win 16).blk t).view.emb y) = V c main_arg22 y
  exact congrArg _ (funext fun a => Fin.ext (Pipeline.Window.rect_emb_val_of_index_zero win2_16 t a (idx_w16 t a) y))

theorem blk17 (c : Dev nD) (t : Fin cfg2.N) (y : S3x128.Idx) : iblk2 (F := Ideal) V c 17 t y = V c main_arg23 y := by
  show V c main_arg23 (((cfg2.win 17).blk t).view.emb y) = V c main_arg23 y
  exact congrArg _ (funext fun a => Fin.ext (Pipeline.Window.rect_emb_val_of_index_zero win2_17 t a (idx_w17 t a) y))

/-! ## What a point leaves in its tiles -/

/-- The node tile at point `t`, entry `(r, q)`: the chain at row `2000·t + r`. -/
theorem tile_eq (c : Dev nD) (t : Fin cfg2.N) (r : Fin 2000) (q : Fin 128) :
    k2_pay10 (k2_pay8 (k2_pay2 (iblk2 V c 1 t)) (k2_pay3 (iblk2 V c 2 t)) (k2_pay4 (iblk2 V c 2 t))
        (k2_pay5 (iblk2 V c 0 t) (iblk2 V c 2 t) (iblk2 V c 3 t) (iblk2 V c 5 t) (iblk2 V c 4 t) (iblk2 V c 9 t) (iblk2 V c 10 t))
        (k2_pay6 (iblk2 V c 8 t)) (k2_pay7 (iblk2 V c 6 t)) (iblk2 V c 7 t) (iblk2 V c 11 t) (iblk2 V c 12 t) (iblk2 V c 13 t)
        (iblk2 V c 14 t) (iblk2 V c 15 t))
        (k2_pay9 (View.ld (iblk2 V c 16 t) r2_3)) (View.ld (iblk2 V c 17 t) r2_4) (View.ld (iblk2 V c 16 t) r2_5)
        (View.ld (iblk2 V c 17 t) r2_6) (View.ld (iblk2 V c 16 t) r2_7) (View.ld (iblk2 V c 17 t) r2_8) (ix2 r q)
      = nodeHV V c (tileRow ⟨t.val, pt_lt t⟩ r) q :=
  node_tile (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) (iblk2 V c 16 t) (iblk2 V c 17 t)
    (mat (V c main_v21)) (mat (V c main_v22)) (mat (V c main_v4)) (tileRow ⟨t.val, pt_lt t⟩)
    (mat (V c main_arg10)) (mat (V c main_arg12)) (mat (V c main_arg13)) (mat (V c main_arg15))
    (mat (V c main_arg16)) (mat (V c main_arg18)) (mat (V c main_v23)) (mat (V c main_v24))
    (vec (V c main_arg11)) (vec (V c main_arg14)) (vec (V c main_arg17)) (vec (V c main_arg19)) (vec (V c main_arg21))
    (layerW (V c main_arg22)) (layerB (V c main_arg23))
    (blk0 V c t) (blk1 V c t) (blk2 V c t)
    (fun q j => blk3 V c t (ix2 q j)) (fun q => blk4 V c t (ix1 q)) (fun q j => blk5 V c t (ix2 q j))
    (fun q j => blk6 V c t (ix2 q j)) (fun q => blk7 V c t (ix1 q)) (fun q j => blk8 V c t (ix2 q j))
    (fun q j => blk9 V c t (ix2 q j)) (fun q => blk10 V c t (ix1 q)) (fun q j => blk11 V c t (ix2 q j))
    (fun q => blk12 V c t (ix1 q)) (fun q j => blk13 V c t (ix2 q j)) (fun q j => blk14 V c t (ix2 q j))
    (fun q => blk15 V c t (ix1 q)) (fun i q j => blk16 V c t (ix3 i q j)) (fun i q => blk17 V c t (ix2 i q)) r q

/-! ## The node array -/

/-- WHAT POINT `t` WRITES BACK to the node array is block `t` of the chain of the arrays as the region finds them. -/
theorem flushed18_eq (c : Dev nD) (t : Fin cfg2.N) :
    (dat2 (F := Ideal) V c).flushed 18 t
      = ((cfg2.win 18).blk t).view.read (Elt Ideal) (fun i : S100000x128.Idx => nodeHV V c (i 0) (i 1)) := by
  show (cfg2.win 18).cut (grid2.coords t) ((dat2 V c).after 18 t) = _
  rw [after2_18]
  unfold out2_18
  rw [View.canon_unit_zero zero2]
  simp only [View.ld_unit_zero (S := S2000x128) zero2, View.ld_unit_zero (S := S128x128) zero2,
    View.ld_unit_zero (S := S128) zero1]
  funext j
  obtain ⟨r, q, rfl⟩ : ∃ (r : Fin 2000) (q : Fin 128), j = ix2 r q := ⟨j 0, j 1, eq_ix2 j⟩
  refine (tile_eq V c t r q).trans ?_
  obtain ⟨-, -, -, -, -, -, e0, e1, -⟩ := idx_rows t
  show nodeHV V c (tileRow ⟨t.val, pt_lt t⟩ r) q
    = nodeHV V c (((cfg2.win 18).blk t).view.emb (ix2 r q : S2000x128.Idx) 0) (((cfg2.win 18).blk t).view.emb (ix2 r q : S2000x128.Idx) 1)
  have h0 : tileRow ⟨t.val, pt_lt t⟩ r = ((cfg2.win 18).blk t).view.emb (ix2 r q : S2000x128.Idx) 0 := Fin.ext (by
    show t.val * 2000 + r.val = win2_18.index t (0 : Fin 2) * 2000 + 1 * r.val
    rw [e0]; omega)
  have h1 : q = ((cfg2.win 18).blk t).view.emb (ix2 r q : S2000x128.Idx) 1 := Fin.ext (by
    show q.val = win2_18.index t (1 : Fin 2) * 128 + 1 * q.val
    rw [e1]; omega)
  rw [← h0, ← h1]

/-- An index of the node array is in point `t`'s block iff each coordinate is in the block's range on its axis. -/
theorem mem_blk18 (t : Fin cfg2.N) (i : S100000x128.Idx) :
    i ∈ ((cfg2.win 18).blk t).view.set ↔ ∀ a : Fin 2, win2_18.index t a * S2000x128.size a ≤ (i a).val
      ∧ (i a).val < win2_18.index t a * S2000x128.size a + S2000x128.size a := by
  show i ∈ ((View.whole main_v25_0).slice (win2_18.rect t)).set ↔ _
  rw [View.set_slice_whole, Rect.mem_set_unit]
  exact Iff.rfl

/-- Every index of the node array is in the block of the point its row falls in. -/
theorem cover18 (i : S100000x128.Idx) :
    ∃ t : Fin cfg2.N, (cfg2.win 18).flush t = true ∧ i ∈ ((cfg2.win 18).blk t).view.set := by
  have hi0 : (i 0).val < 100000 := idx2_lt0 i
  have hi1 : (i 1).val < 128 := idx2_lt1 i
  have hN : cfg2.N = 50 := N_2
  let t : Fin cfg2.N := ⟨(i 0).val / 2000, by rw [hN]; omega⟩
  obtain ⟨-, -, -, -, -, -, e0, e1, -⟩ := idx_rows t
  have e0' : win2_18.index t (0 : Fin 2) = (i 0).val / 2000 := e0
  refine ⟨t, flush2_18 t, ?_⟩
  rw [mem_blk18]
  intro a
  match a with
  | ⟨0, _⟩ =>
    show win2_18.index t (0 : Fin 2) * 2000 ≤ (i 0).val ∧ (i 0).val < win2_18.index t (0 : Fin 2) * 2000 + 2000
    rw [e0']; omega
  | ⟨1, _⟩ =>
    show win2_18.index t (1 : Fin 2) * 128 ≤ (i 1).val ∧ (i 1).val < win2_18.index t (1 : Fin 2) * 128 + 128
    rw [e1]; omega

/-- THE NODE ARRAY after the region. -/
theorem arr18 (c : Dev nD) :
    (dat2 (F := Ideal) V c).arrAt 18 cfg2.N = fun i : S100000x128.Idx => nodeHV V c (i 0) (i 1) :=
  (dat2 V c).arrAt_eq_of_cover 18 _ (fun t _ => flushed18_eq V c t) cover18

/-- After the third region the node array holds the chain's value … -/
theorem arr2_h (c : Dev nD) (p : Fin 100000) (q : Fin 128) :
    (dat2 (F := Ideal) V c).arrAt 18 cfg2.N (ix2 p q) = nodeHV V c p q := by
  exact congrFun (arr18 V c) (ix2 p q)

/-! ## The statistics array -/

/-- The statistics tile of point `t` as the body lays it out — a row, the column sums of an array, six zero rows —
    over the chain's rows of that tile: the row is the chain's column sums, the array the chain's squares. -/
def statTile (c : Dev nD) (t : Fin 50) : S8x128.Idx → EReal :=
  k2_pay1 (F := Ideal) (fun y : S1x128.Idx => ∑ k : Fin 2000, nodeHV V c (tileRow t k) (y 1))
    (fun y : S2000x128.Idx => nodeHV V c (tileRow t (y 0)) (y 1) * nodeHV V c (tileRow t (y 0)) (y 1))

/-- The statistics array: at row `i₀`, row `i₀ % 8` of tile `i₀ / 8`. -/
def statG (c : Dev nD) : S400x128.Idx → EReal := fun i =>
  statTile V c ⟨(i 0).val / 8, by have := idx2_lt0 i; omega⟩ (ix2 (⟨(i 0).val % 8, Nat.mod_lt _ (by decide)⟩ : Fin 8) (i 1))

theorem statG_at (c : Dev nD) (t : Fin 50) (u : Fin 8) (q : Fin 128) (i : S400x128.Idx)
    (h0 : (i 0).val = t.val * 8 + u.val) (h1 : (i 1).val = q.val) : statG V c i = statTile V c t (ix2 u q) := by
  have e1 : (⟨(i 0).val / 8, by have := idx2_lt0 i; omega⟩ : Fin 50) = t := Fin.ext (by show (i 0).val / 8 = t.val; omega)
  have e2 : (⟨(i 0).val % 8, Nat.mod_lt _ (by decide)⟩ : Fin 8) = u := Fin.ext (by show (i 0).val % 8 = u.val; omega)
  have e3 : (i 1 : Fin 128) = q := Fin.ext h1
  show statTile V c ⟨(i 0).val / 8, _⟩ (ix2 (⟨(i 0).val % 8, _⟩ : Fin 8) (i 1)) = _
  rw [e1, e2, e3]

/-- WHAT POINT `t` WRITES BACK to the statistics array is block `t` of `statG`. -/
theorem flushed19_eq (c : Dev nD) (t : Fin cfg2.N) :
    (dat2 (F := Ideal) V c).flushed 19 t = ((cfg2.win 19).blk t).view.read (Elt Ideal) (statG V c) := by
  show (cfg2.win 19).cut (grid2.coords t) ((dat2 V c).after 19 t) = _
  rw [after2_19]
  unfold out2_19
  rw [View.canon_unit_zero zero2]
  simp only [View.ld_unit_zero (S := S2000x128) zero2, View.ld_unit_zero (S := S128x128) zero2,
    View.ld_unit_zero (S := S128) zero1]
  funext j
  obtain ⟨u, q, rfl⟩ : ∃ (u : Fin 8) (q : Fin 128), j = ix2 u q := ⟨j 0, j 1, eq_ix2 j⟩
  obtain ⟨-, -, -, -, -, -, -, -, e0, e1⟩ := idx_rows t
  have hG : statG V c (((cfg2.win 19).blk t).view.emb (ix2 u q : S8x128.Idx)) = statTile V c ⟨t.val, pt_lt t⟩ (ix2 u q) :=
    statG_at V c ⟨t.val, pt_lt t⟩ u q _
      (by show win2_19.index t (0 : Fin 2) * 8 + 1 * u.val = t.val * 8 + u.val; rw [e0]; omega)
      (by show win2_19.index t (1 : Fin 2) * 128 + 1 * q.val = q.val; rw [e1]; omega)
  refine Eq.trans ?_ hG.symm
  unfold statTile
  refine congrArg₂ (fun a b => k2_pay1 (F := Ideal) a b (ix2 u q)) (funext fun y => ?_) (funext fun y => ?_)
  · obtain ⟨z, q', rfl⟩ : ∃ (z : Fin 1) (q' : Fin 128), y = ix2 z q' := ⟨y 0, y 1, eq_ix2 y⟩
    have hz : z = 0 := Fin.ext (by omega)
    subst hz
    exact (pay11_row _ _ _ _ _ _ _ q').trans (Finset.sum_congr rfl fun k _ => tile_eq V c t k q')
  · obtain ⟨r, q', rfl⟩ : ∃ (r : Fin 2000) (q' : Fin 128), y = ix2 r q' := ⟨y 0, y 1, eq_ix2 y⟩
    exact (pay12_apply _ _ _ _ _ _ _ _).trans (congrArg₂ (· * ·) (tile_eq V c t r q') (tile_eq V c t r q'))

/-- An index of the statistics array is in point `t`'s block iff each coordinate is in the block's range on its axis. -/
theorem mem_blk19 (t : Fin cfg2.N) (i : S400x128.Idx) :
    i ∈ ((cfg2.win 19).blk t).view.set ↔ ∀ a : Fin 2, win2_19.index t a * S8x128.size a ≤ (i a).val
      ∧ (i a).val < win2_19.index t a * S8x128.size a + S8x128.size a := by
  show i ∈ ((View.whole main_v25_1).slice (win2_19.rect t)).set ↔ _
  rw [View.set_slice_whole, Rect.mem_set_unit]
  exact Iff.rfl

/-- Every index of the statistics array is in the block of the point its row falls in. -/
theorem cover19 (i : S400x128.Idx) :
    ∃ t : Fin cfg2.N, (cfg2.win 19).flush t = true ∧ i ∈ ((cfg2.win 19).blk t).view.set := by
  have hi0 : (i 0).val < 400 := idx2_lt0 i
  have hi1 : (i 1).val < 128 := idx2_lt1 i
  have hN : cfg2.N = 50 := N_2
  let t : Fin cfg2.N := ⟨(i 0).val / 8, by rw [hN]; omega⟩
  obtain ⟨-, -, -, -, -, -, -, -, e0, e1⟩ := idx_rows t
  have e0' : win2_19.index t (0 : Fin 2) = (i 0).val / 8 := e0
  refine ⟨t, flush2_19 t, ?_⟩
  rw [mem_blk19]
  intro a
  match a with
  | ⟨0, _⟩ =>
    show win2_19.index t (0 : Fin 2) * 8 ≤ (i 0).val ∧ (i 0).val < win2_19.index t (0 : Fin 2) * 8 + 8
    rw [e0']; omega
  | ⟨1, _⟩ =>
    show win2_19.index t (1 : Fin 2) * 128 ≤ (i 1).val ∧ (i 1).val < win2_19.index t (1 : Fin 2) * 128 + 128
    rw [e1]; omega

/-- THE STATISTICS ARRAY after the region. -/
theorem arr19 (c : Dev nD) : (dat2 (F := Ideal) V c).arrAt 19 cfg2.N = statG V c :=
  (dat2 V c).arrAt_eq_of_cover 19 _ (fun t _ => flushed19_eq V c t) cover19

/-- … row 0 of tile t of the statistics array the tile's column sums … -/
theorem arr2_sum (c : Dev nD) (t : Fin 50) (q : Fin 128) :
    (dat2 (F := Ideal) V c).arrAt 19 cfg2.N (ix2 (⟨t.val * 8, by omega⟩ : Fin 400) q)
      = ∑ i : Fin 2000, nodeHV V c ⟨t.val * 2000 + i.val, by omega⟩ q := by
  refine (congrFun (arr19 V c) _).trans ?_
  refine (statG_at V c t 0 q _ (by show t.val * 8 = t.val * 8 + 0; rfl) rfl).trans ?_
  unfold statTile
  exact pay1_row0 _ _ q

/-- … and row 1 the tile's column sums of squares. -/
theorem arr2_sumsq (c : Dev nD) (t : Fin 50) (q : Fin 128) :
    (dat2 (F := Ideal) V c).arrAt 19 cfg2.N (ix2 (⟨t.val * 8 + 1, by omega⟩ : Fin 400) q)
      = ∑ i : Fin 2000, nodeHV V c ⟨t.val * 2000 + i.val, by omega⟩ q * nodeHV V c ⟨t.val * 2000 + i.val, by omega⟩ q := by
  refine (congrFun (arr19 V c) _).trans ?_
  refine (statG_at V c t 1 q _ (by show t.val * 8 + 1 = t.val * 8 + 1; rfl) rfl).trans ?_
  unfold statTile
  exact pay1_row1 _ _ q

end Cert.KernelIdeal.Region2

end
-- ==== Proof.Region3.lean ====
import proofs.«108244_j21019569947168_2_alg».proof.Proof.Gen.KernelIdeal.Frame
import proofs.«108244_j21019569947168_2_alg».proof.Proof.Spec
import proofs.«108244_j21019569947168_2_alg».proof.Proof.LibPlainDot
import proofs.«108244_j21019569947168_2_alg».proof.Proof.LibRealMatmul
import proofs.«108244_j21019569947168_2_alg».proof.Proof.LibRowBroadcast
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.Region3

open Idealize.ShloMosaic Idealize.ShloMosaic.TcCoe Idealize.SL.Sem Idealize.ShloMosaic.ValueIdx
open Cert.KernelIdeal Cert.KernelIdeal.Gen Cert.Spec

/-! ## The body's payload at an entry -/

/-- The matrix unit's dimension record contracts the left operand's second axis with the right operand's first. -/
theorem matmul_apply (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ j : Fin 128, l (ix2 r j) * w (ix2 j q) :=
  PlainDot.matmul_zero_apply dot_S5000x128_S128x128_S5000x128_1_0_0_1_n_n none rfl rfl
    (left_row_of% dot_S5000x128_S128x128_S5000x128_1_0_0_1_n_n)
    (fun i q => by
      unfold DotDims.lhsIdx
      rw [dif_neg (show ¬(1 : Fin _) ∈ (dot_S5000x128_S128x128_S5000x128_1_0_0_1_n_n).lhsBatch by decide),
        dif_neg (show ¬(1 : Fin _) ∈ (dot_S5000x128_S128x128_S5000x128_1_0_0_1_n_n).lhsNonContracting by decide)]
      rfl)
    (fun i q => by
      unfold DotDims.rhsIdx
      rw [dif_neg (show ¬(0 : Fin _) ∈ (dot_S5000x128_S128x128_S5000x128_1_0_0_1_n_n).rhsBatch by decide),
        dif_neg (show ¬(0 : Fin _) ∈ (dot_S5000x128_S128x128_S5000x128_1_0_0_1_n_n).rhsNonContracting by decide)]
      rfl)
    (right_col_of% dot_S5000x128_S128x128_S5000x128_1_0_0_1_n_n) l w r q

/-- The transposed weight reads, at (j,q), the weight at (q,j). -/
theorem transposed_apply {α : Type} (w : S128x128.Idx → α) (j q : Fin 128) :
    transpose S128x128 [1, 0] w transposes_S128x128_p1_0_S128x128 (ix2 j q) = w (ix2 q j) :=
  transpose_ix2_apply w transposes_S128x128_p1_0_S128x128 j q

/-- The reciprocal square root acts entry by entry. -/
theorem rsqrt_apply {s : Shape} {φ : FTy} (x : FVec Ideal s φ) (i : s.Idx) : rsqrt x i = Ideal.rsqrt (x i) := rfl

/-- Entry (r,q) of the body's stored block: the normalised row r against row q of the last weight, plus its bias. -/
theorem pay_apply (x0 : Vec Ideal S5000x128 .f32) (x1 x2 x3 x4 x5 : Vec Ideal S128 .f32)
    (x6 : Vec Ideal S128x128 .f32) (x7 : Vec Ideal S128 .f32) (r : Fin 5000) (q : Fin 128) :
    k3_pay1 x0 x1 x2 x3 x4 x5 x6 x7 (ix2 r q)
      = (∑ j : Fin 128, ((x4 (ix1 j) * (x0 (ix2 r j) - x1 (ix1 j) * x3 (ix1 j)))
            * Ideal.rsqrt (x2 (ix1 j) + Ideal.ofBits .f32 0x3727C5AC#32) + x5 (ix1 j)) * x6 (ix2 q j))
          + x7 (ix1 q) := by
  unfold k3_pay1
  simp only [addf_apply, mulf_apply, subf_apply, rsqrt_apply, matmul_apply, RowBroadcast.broadcastTo_row_apply,
    RowBroadcast.shapeCast_flat_apply, truncf_apply, shapeCast_self, broadcast_apply]
  have e : ∀ j : Fin 128, (transpose S128x128 [1, 0] (truncf (F := Ideal) FTy.bf16 x6 bitsLt_bf16_f32) transposes_S128x128_p1_0_S128x128 (ix2 j q) : EReal) = x6 (ix2 q j) :=
    fun j => transposed_apply (truncf (F := Ideal) FTy.bf16 x6 bitsLt_bf16_f32) j q
  simp only [e]
  rfl

variable (V : (c : Dev nD) → (b : Ref sig .tc) → Buf (Elt Ideal) ((c : Thread nD τ).loc b))

/-! ## From blocks to the array -/

theorem zero2 : (![0, 0] : Fin 2 → Nat) = fun _ => 0 := funext fun a => by fin_cases a <;> rfl
theorem zero1 : (![0] : Fin 1 → Nat) = fun _ => 0 := funext fun a => by fin_cases a <;> rfl

/-- The result array as one function of the eight arrays the region reads, entry by entry. -/
def G (z : S100000x128.Idx → EReal) (μ v s w β : S128.Idx → EReal) (fw : S128x128.Idx → EReal)
    (fb : S128.Idx → EReal) : S100000x128.Idx → EReal :=
  fun i => lin (normK (mat z) (vec μ) (vec v) (vec s) (vec w) (vec β) (Ideal.ofBits .f32 0x3727C5AC#32))
    (mat fw) (vec fb) (i 0) (i 1)

/-- A block whose entries are the arrays' entries has, as its payload, the entry of G. -/
theorem pay_eq_G (x0 : Vec Ideal S5000x128 .f32) (x1 x2 x3 x4 x5 : Vec Ideal S128 .f32)
    (x6 : Vec Ideal S128x128 .f32) (x7 : Vec Ideal S128 .f32)
    (z : S100000x128.Idx → EReal) (μ v s w β : S128.Idx → EReal) (fw : S128x128.Idx → EReal)
    (fb : S128.Idx → EReal) (r : Fin 5000) (q : Fin 128) (ρ : Fin 100000)
    (h0 : ∀ j : Fin 128, x0 (ix2 r j) = z (ix2 ρ j)) (h1 : ∀ j : Fin 128, x1 (ix1 j) = μ (ix1 j))
    (h2 : ∀ j : Fin 128, x2 (ix1 j) = v (ix1 j)) (h3 : ∀ j : Fin 128, x3 (ix1 j) = s (ix1 j))
    (h4 : ∀ j : Fin 128, x4 (ix1 j) = w (ix1 j)) (h5 : ∀ j : Fin 128, x5 (ix1 j) = β (ix1 j))
    (h6 : ∀ j : Fin 128, x6 (ix2 q j) = fw (ix2 q j)) (h7 : x7 (ix1 q) = fb (ix1 q)) :
    k3_pay1 x0 x1 x2 x3 x4 x5 x6 x7 (ix2 r q) = G z μ v s w β fw fb (ix2 ρ q) := by
  rw [pay_apply]
  simp only [h0, h1, h2, h3, h4, h5, h6, h7]
  rfl

/-- The index maps over the grid: point t reads rows 5000·t … of the first array and writes the same rows of the
    output; every other array is one block. -/
theorem idx_facts : ∀ t : Fin cfg3.N,
      win3_0.index t (0 : Fin 2) = t.val ∧ win3_0.index t (1 : Fin 2) = 0
    ∧ win3_1.index t (0 : Fin 1) = 0 ∧ win3_2.index t (0 : Fin 1) = 0 ∧ win3_3.index t (0 : Fin 1) = 0
    ∧ win3_4.index t (0 : Fin 1) = 0 ∧ win3_5.index t (0 : Fin 1) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0 :=
  (by decide +kernel : ∀ t : Fin grid3.N, _)

/-- The first array's block of point t at (r,j) is the array's entry (5000·t + r, j). -/
theorem read_z (c : Dev nD) (t : Fin cfg3.N) (r : Fin 5000) (j : Fin 128) (ρ : Fin 100000)
    (hρ : ρ.val = t.val * 5000 + r.val) :
    iblk3 V c 0 t (ix2 r j) = V c main_v25_0 (ix2 ρ j) := by
  obtain ⟨e0, e1, -⟩ := idx_facts t
  show V c main_v25_0 (((cfg3.win 0).blk t).view.emb (ix2 r j)) = V c main_v25_0 (ix2 ρ j)
  refine congrArg _ (funext fun a => Fin.ext ?_)
  match a with
  | ⟨0, _⟩ => show win3_0.index t (0 : Fin 2) * 5000 + 1 * r.val = ρ.val; omega
  | ⟨1, _⟩ => show win3_0.index t (1 : Fin 2) * 128 + 1 * j.val = j.val; omega

/-- The mean's block of any point is the whole row. -/
theorem read_μ (c : Dev nD) (t : Fin cfg3.N) (j : Fin 128) :
    iblk3 V c 1 t (ix1 j) = V c main_v34 (ix1 j) := by
  have e : win3_1.index t (0 : Fin 1) = 0 := (idx_facts t).2.2.1
  show V c main_v34 (((cfg3.win 1).blk t).view.emb (ix1 j)) = V c main_v34 (ix1 j)
  refine congrArg _ (funext fun a => Fin.ext ?_)
  match a with
  | ⟨0, _⟩ => show win3_1.index t (0 : Fin 1) * 128 + 1 * j.val = j.val; omega

/-- The variance's block of any point is the whole row. -/
theorem read_v (c : Dev nD) (t : Fin cfg3.N) (j : Fin 128) :
    iblk3 V c 2 t (ix1 j) = V c main_v42 (ix1 j) := by
  have e : win3_2.index t (0 : Fin 1) = 0 := (idx_facts t).2.2.2.1
  show V c main_v42 (((cfg3.win 2).blk t).view.emb (ix1 j)) = V c main_v42 (ix1 j)
  refine congrArg _ (funext fun a => Fin.ext ?_)
  match a with
  | ⟨0, _⟩ => show win3_2.index t (0 : Fin 1) * 128 + 1 * j.val = j.val; omega

/-- The mean scale's block of any point is the whole row. -/
theorem read_s (c : Dev nD) (t : Fin cfg3.N) (j : Fin 128) :
    iblk3 V c 3 t (ix1 j) = V c main_arg26 (ix1 j) := by
  have e : win3_3.index t (0 : Fin 1) = 0 := (idx_facts t).2.2.2.2.1
  show V c main_arg26 (((cfg3.win 3).blk t).view.emb (ix1 j)) = V c main_arg26 (ix1 j)
  refine congrArg _ (funext fun a => Fin.ext ?_)
  match a with
  | ⟨0, _⟩ => show win3_3.index t (0 : Fin 1) * 128 + 1 * j.val = j.val; omega

/-- The norm weight's block of any point is the whole row. -/
theorem read_w (c : Dev nD) (t : Fin cfg3.N) (j : Fin 128) :
    iblk3 V c 4 t (ix1 j) = V c main_arg24 (ix1 j) := by
  have e : win3_4.index t (0 : Fin 1) = 0 := (idx_facts t).2.2.2.2.2.1
  show V c main_arg24 (((cfg3.win 4).blk t).view.emb (ix1 j)) = V c main_arg24 (ix1 j)
  refine congrArg _ (funext fun a => Fin.ext ?_)
  match a with
  | ⟨0, _⟩ => show win3_4.index t (0 : Fin 1) * 128 + 1 * j.val = j.val; omega

/-- The norm bias's block of any point is the whole row. -/
theorem read_β (c : Dev nD) (t : Fin cfg3.N) (j : Fin 128) :
    iblk3 V c 5 t (ix1 j) = V c main_arg25 (ix1 j) := by
  have e : win3_5.index t (0 : Fin 1) = 0 := (idx_facts t).2.2.2.2.2.2.1
  show V c main_arg25 (((cfg3.win 5).blk t).view.emb (ix1 j)) = V c main_arg25 (ix1 j)
  refine congrArg _ (funext fun a => Fin.ext ?_)
  match a with
  | ⟨0, _⟩ => show win3_5.index t (0 : Fin 1) * 128 + 1 * j.val = j.val; omega

/-- The last weight's block of any point is the whole weight. -/
theorem read_fw (c : Dev nD) (t : Fin cfg3.N) (q j : Fin 128) :
    iblk3 V c 6 t (ix2 q j) = V c main_arg27 (ix2 q j) := by
  have e0 : win3_6.index t (0 : Fin 2) = 0 := (idx_facts t).2.2.2.2.2.2.2.1
  have e1 : win3_6.index t (1 : Fin 2) = 0 := (idx_facts t).2.2.2.2.2.2.2.2.1
  show V c main_arg27 (((cfg3.win 6).blk t).view.emb (ix2 q j)) = V c main_arg27 (ix2 q j)
  refine congrArg _ (funext fun a => Fin.ext ?_)
  match a with
  | ⟨0, _⟩ => show win3_6.index t (0 : Fin 2) * 128 + 1 * q.val = q.val; omega
  | ⟨1, _⟩ => show win3_6.index t (1 : Fin 2) * 128 + 1 * j.val = j.val; omega

/-- The last bias's block of any point is the whole row. -/
theorem read_fb (c : Dev nD) (t : Fin cfg3.N) (j : Fin 128) :
    iblk3 V c 7 t (ix1 j) = V c main_arg28 (ix1 j) := by
  have e : win3_7.index t (0 : Fin 1) = 0 := (idx_facts t).2.2.2.2.2.2.2.2.2.1
  show V c main_arg28 (((cfg3.win 7).blk t).view.emb (ix1 j)) = V c main_arg28 (ix1 j)
  refine congrArg _ (funext fun a => Fin.ext ?_)
  match a with
  | ⟨0, _⟩ => show win3_7.index t (0 : Fin 1) * 128 + 1 * j.val = j.val; omega

/-- What point t writes back is block t of G of the arrays as the region finds them. -/
theorem flushed_eq (c : Dev nD) (t : Fin cfg3.N) :
    (dat3 V c).flushed 8 t
      = ((cfg3.win 8).blk t).view.read (Elt Ideal) (G (V c main_v25_0) (V c main_v34) (V c main_v42)
          (V c main_arg26) (V c main_arg24) (V c main_arg25) (V c main_arg27) (V c main_arg28)) := by
  show (cfg3.win 8).cut (grid3.coords t) ((dat3 V c).after 8 t) = _
  rw [after3_8]
  unfold out3_8
  rw [View.canon_unit_zero zero2]
  simp only [View.ld_unit_zero (S := S5000x128) zero2, View.ld_unit_zero (S := S128x128) zero2,
    View.ld_unit_zero (S := S128) zero1]
  funext y
  obtain ⟨r, q, rfl⟩ : ∃ (r : Fin 5000) (q : Fin 128), y = ix2 r q :=
    ⟨y 0, y 1, eq_ix2 (n0 := 5000) (n1 := 128) y⟩
  have ht : t.val < 20 := lt_of_lt_of_eq t.isLt N_3
  have e10 : win3_8.index t (0 : Fin 2) = t.val := (idx_facts t).2.2.2.2.2.2.2.2.2.2.1
  have e11 : win3_8.index t (1 : Fin 2) = 0 := (idx_facts t).2.2.2.2.2.2.2.2.2.2.2
  have hemb : ((cfg3.win 8).blk t).view.emb (ix2 r q)
      = (ix2 (⟨t.val * 5000 + r.val, by omega⟩ : Fin 100000) q : S100000x128.Idx) := by
    funext a; apply Fin.ext
    match a with
    | ⟨0, _⟩ => show win3_8.index t (0 : Fin 2) * 5000 + 1 * r.val = t.val * 5000 + r.val; omega
    | ⟨1, _⟩ => show win3_8.index t (1 : Fin 2) * 128 + 1 * q.val = q.val; omega
  show k3_pay1 (iblk3 V c 0 t) (iblk3 V c 1 t) (iblk3 V c 2 t) (iblk3 V c 3 t) (iblk3 V c 4 t) (iblk3 V c 5 t)
      (iblk3 V c 6 t) (iblk3 V c 7 t) (ix2 r q)
    = G (V c main_v25_0) (V c main_v34) (V c main_v42) (V c main_arg26) (V c main_arg24) (V c main_arg25)
        (V c main_arg27) (V c main_arg28) (((cfg3.win 8).blk t).view.emb (ix2 r q))
  rw [hemb]
  exact pay_eq_G (iblk3 V c 0 t) (iblk3 V c 1 t) (iblk3 V c 2 t) (iblk3 V c 3 t) (iblk3 V c 4 t) (iblk3 V c 5 t)
    (iblk3 V c 6 t) (iblk3 V c 7 t) (V c main_v25_0) (V c main_v34) (V c main_v42) (V c main_arg26)
    (V c main_arg24) (V c main_arg25) (V c main_arg27) (V c main_arg28) r q
    ⟨t.val * 5000 + r.val, by omega⟩ (fun j => read_z V c t r j ⟨t.val * 5000 + r.val, by omega⟩ rfl)
    (fun j => read_μ V c t j) (fun j => read_v V c t j) (fun j => read_s V c t j) (fun j => read_w V c t j)
    (fun j => read_β V c t j) (fun j => read_fw V c t q j) (read_fb V c t q)

/-- An index of the array is in point t's block iff each coordinate is in the block's range on its axis. -/
theorem mem_blk (t : Fin cfg3.N) (i : S100000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v43).slice (win3_8.rect t)).set ↔ _
  rw [View.set_slice_whole, Rect.mem_set_unit]
  exact Iff.rfl

/-- Every entry of the output is in some point's block: row p is in the block of point p / 5000. -/
theorem cover (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  have e10 : win3_8.index t (0 : Fin 2) = t.val := (idx_facts t).2.2.2.2.2.2.2.2.2.2.1
  have e11 : win3_8.index t (1 : Fin 2) = 0 := (idx_facts t).2.2.2.2.2.2.2.2.2.2.2
  refine ⟨t, flush3_8 t, ?_⟩
  rw [mem_blk]
  intro a
  match a with
  | ⟨0, _⟩ =>
    show win3_8.index t (0 : Fin 2) * 5000 ≤ (i 0).val ∧ (i 0).val < win3_8.index t (0 : Fin 2) * 5000 + 5000
    omega
  | ⟨1, _⟩ =>
    show win3_8.index t (1 : Fin 2) * 128 ≤ (i 1).val ∧ (i 1).val < win3_8.index t (1 : Fin 2) * 128 + 128
    omega

/-- After the last region the result array holds, at (p,q), the normalised row p (first arrangement) times the
    last weight, plus its bias. -/
theorem arr3 (c : Dev nD) (p : Fin 100000) (q : Fin 128) :
    (dat3 (F := Ideal) V c).arrAt 8 cfg3.N (ix2 p q)
      = lin (normK (mat (V c main_v25_0)) (vec (V c main_v34)) (vec (V c main_v42)) (vec (V c main_arg26))
              (vec (V c main_arg24)) (vec (V c main_arg25)) (Ideal.ofBits .f32 0x3727C5AC#32))
            (mat (V c main_arg27)) (vec (V c main_arg28)) p q := by
  rw [(dat3 (F := Ideal) V c).arrAt_eq_of_cover 8 (G (V c main_v25_0) (V c main_v34) (V c main_v42)
    (V c main_arg26) (V c main_arg24) (V c main_arg25) (V c main_arg27) (V c main_arg28))
    (fun t _ => flushed_eq V c t) cover]
  rfl

end Cert.KernelIdeal.Region3

end
-- ==== Proof.Flow.lean ====
/-
  The contents of the kernel program's buffers at the boundaries between its host stretches and its regions: an argument
  array is never written, so it holds its launch contents at every boundary; a buffer a host stretch computes holds the
  stretch's operations applied to the contents at the stretch's start.
-/
import proofs.«108244_j21019569947168_2_alg».proof.Proof.Gen.KernelIdeal.Frame
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- No operation of a host stretch writes the buffer. -/
macro "no_write " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

abbrev NW (ops : List (HloOp τ sig (Elt Ideal))) (b : Ref sig .tc) : Prop :=
  ∀ op ∈ ops, (Proc.devRef .tc b : DevRef τ sig) ∉ op.writes

theorem W1_arg (c : Dev nD) (b : Ref sig .tc) (h0 : NW hostOps0 b) :
    W1 m ρ c (Proc.devRef .tc b) = m ((c : Thread nD τ).loc b) :=
  StableHlo.after_of_forall_not_mem _ _ h0

theorem W2_arg (c : Dev nD) (b : Ref sig .tc) (h0 : NW hostOps0 b) (n0 : ∀ w, Pipeline.arrRef spec0 w ≠ b) :
    W2 m ρ c (Proc.devRef .tc b) = m ((c : Thread nD τ).loc b) :=
  (W2_of_ne m ρ c b n0).trans (W1_arg m ρ c b h0)

theorem W3_arg (c : Dev nD) (b : Ref sig .tc) (h0 : NW hostOps0 b) (n0 : ∀ w, Pipeline.arrRef spec0 w ≠ b)
    (h1 : NW hostOps1 b) : W3 m ρ c (Proc.devRef .tc b) = m ((c : Thread nD τ).loc b) :=
  (StableHlo.after_of_forall_not_mem _ _ h1).trans (W2_arg m ρ c b h0 n0)

theorem W4_arg (c : Dev nD) (b : Ref sig .tc) (h0 : NW hostOps0 b) (n0 : ∀ w, Pipeline.arrRef spec0 w ≠ b)
    (h1 : NW hostOps1 b) (n1 : ∀ w, Pipeline.arrRef spec1 w ≠ b) :
    W4 m ρ c (Proc.devRef .tc b) = m ((c : Thread nD τ).loc b) :=
  (W4_of_ne m ρ c b n1).trans (W3_arg m ρ c b h0 n0 h1)

theorem W5_arg (c : Dev nD) (b : Ref sig .tc) (h0 : NW hostOps0 b) (n0 : ∀ w, Pipeline.arrRef spec0 w ≠ b)
    (h1 : NW hostOps1 b) (n1 : ∀ w, Pipeline.arrRef spec1 w ≠ b) (h2 : NW hostOps2 b) :
    W5 m ρ c (Proc.devRef .tc b) = m ((c : Thread nD τ).loc b) :=
  (StableHlo.after_of_forall_not_mem _ _ h2).trans (W4_arg m ρ c b h0 n0 h1 n1)

theorem W6_arg (c : Dev nD) (b : Ref sig .tc) (h0 : NW hostOps0 b) (n0 : ∀ w, Pipeline.arrRef spec0 w ≠ b)
    (h1 : NW hostOps1 b) (n1 : ∀ w, Pipeline.arrRef spec1 w ≠ b) (h2 : NW hostOps2 b)
    (n2 : ∀ w, Pipeline.arrRef spec2 w ≠ b) :
    W6 m ρ c (Proc.devRef .tc b) = m ((c : Thread nD τ).loc b) :=
  (W6_of_ne m ρ c b n2).trans (W5_arg m ρ c b h0 n0 h1 n1 h2)

theorem W7_arg (c : Dev nD) (b : Ref sig .tc) (h0 : NW hostOps0 b) (n0 : ∀ w, Pipeline.arrRef spec0 w ≠ b)
    (h1 : NW hostOps1 b) (n1 : ∀ w, Pipeline.arrRef spec1 w ≠ b) (h2 : NW hostOps2 b)
    (n2 : ∀ w, Pipeline.arrRef spec2 w ≠ b) (h3 : NW hostOps3 b) :
    W7 m ρ c (Proc.devRef .tc b) = m ((c : Thread nD τ).loc b) :=
  (StableHlo.after_of_forall_not_mem _ _ h3).trans (W6_arg m ρ c b h0 n0 h1 n1 h2 n2)

/-! ## The index arrays -/

/-- Row r of the [2, E] index array as a flat array. -/
abbrev srcRow (a3 : IVec S2x600000 32) : IVec S600000 32 :=
  shapeCast S600000 (extractStridedSlice S1x600000 ![0, 0] a3 slices_S2x600000_S1x600000_0_0) shapeCasts_S1x600000_S600000
abbrev dstRow (a3 : IVec S2x600000 32) : IVec S600000 32 :=
  shapeCast S600000 (extractStridedSlice S1x600000 ![1, 0] a3 slices_S2x600000_S1x600000_1_0) shapeCasts_S1x600000_S600000
/-- A flat index array with negative entries wrapped once, as an [E, 1] column. -/
abbrev idxCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

theorem W1_v1 (c : Dev nD) : W1 m ρ c (Proc.devRef .tc main_v1) = srcRow (m ((c : Thread nD τ).loc main_arg3)) := by
  show StableHlo.after hostOps0 (W0 m ρ c) (Proc.devRef .tc main_v1) = _
  after_results
  all_goals rfl

theorem W1_v3 (c : Dev nD) : W1 m ρ c (Proc.devRef .tc main_v3) = dstRow (m ((c : Thread nD τ).loc main_arg3)) := by
  show StableHlo.after hostOps0 (W0 m ρ c) (Proc.devRef .tc main_v3) = _
  after_results
  all_goals rfl

theorem W2_v1 (c : Dev nD) : W2 m ρ c (Proc.devRef .tc main_v1) = srcRow (m ((c : Thread nD τ).loc main_arg3)) :=
  (W2_of_ne m ρ c main_v1 (by decide)).trans (W1_v1 m ρ c)

theorem W4_v3 (c : Dev nD) : W4 m ρ c (Proc.devRef .tc main_v3) = dstRow (m ((c : Thread nD τ).loc main_arg3)) :=
  (W4_of_ne m ρ c main_v3 (by decide)).trans
    ((StableHlo.after_of_forall_not_mem _ _ (by no_write hostOps1)).trans
      ((W2_of_ne m ρ c main_v3 (by decide)).trans (W1_v3 m ρ c)))

/-! ## What the host stretches compute -/

/-- The gathered source rows at the second region's entry. -/
theorem W3_v11 (c : Dev nD) : W3 m ρ c (Proc.devRef .tc main_v11)
    = Host.gather gather_S100000x128_S600000x1_S600000x128_1_0_n_n_0_1_1128 (W2 m ρ c (Proc.devRef .tc main_v4))
        (idxCol (srcRow (m ((c : Thread nD τ).loc main_arg3)))) := by
  rw [← W2_v1 m ρ c]
  show StableHlo.after hostOps1 (W2 m ρ c) (Proc.devRef .tc main_v11) = _
  after_results
  all_goals rfl

/-- The scattered messages, both halves in one [N, 256] array. -/
abbrev aggK (c : Dev nD) : FVec Ideal S100000x256 .f32 :=
  Host.scatterAdd scatter_S100000x256_S600000x1_S600000x256_1_0_0_1
    (broadcastInDim S100000x256 ![] bcast_S_S100000x256 (constant S_ .f32 0x00000000#32))
    (idxCol (dstRow (m ((c : Thread nD τ).loc main_arg3)))) (W4 m ρ c (Proc.devRef .tc main_v12))

theorem W5_v21 (c : Dev nD) : W5 m ρ c (Proc.devRef .tc main_v21)
    = extractStridedSlice S100000x128 ![0, 0] (aggK m ρ c) slices_S100000x256_S100000x128_0_0 := by
  unfold aggK
  rw [← W4_v3 m ρ c]
  show StableHlo.after hostOps2 (W4 m ρ c) (Proc.devRef .tc main_v21) = _
  after_results
  all_goals rfl

theorem W5_v22 (c : Dev nD) : W5 m ρ c (Proc.devRef .tc main_v22)
    = extractStridedSlice S100000x128 ![0, 128] (aggK m ρ c) slices_S100000x256_S100000x128_0_128 := by
  unfold aggK
  rw [← W4_v3 m ρ c]
  show StableHlo.after hostOps2 (W4 m ρ c) (Proc.devRef .tc main_v22) = _
  after_results
  all_goals rfl

theorem W5_v23 (c : Dev nD) : W5 m ρ c (Proc.devRef .tc main_v23)
    = extractStridedSlice S128x128 ![0, 0] (m ((c : Thread nD τ).loc main_arg20)) slices_S128x256_S128x128_0_0 := by
  rw [← W4_arg m ρ c main_arg20 (by no_write hostOps0) (by decide) (by no_write hostOps1) (by decide)]
  show StableHlo.after hostOps2 (W4 m ρ c) (Proc.devRef .tc main_v23) = _
  after_results
  all_goals rfl

theorem W5_v24 (c : Dev nD) : W5 m ρ c (Proc.devRef .tc main_v24)
    = extractStridedSlice S128x128 ![0, 128] (m ((c : Thread nD τ).loc main_arg20)) slices_S128x256_S128x128_0_128 := by
  rw [← W4_arg m ρ c main_arg20 (by no_write hostOps0) (by decide) (by no_write hostOps1) (by decide)]
  show StableHlo.after hostOps2 (W4 m ρ c) (Proc.devRef .tc main_v24) = _
  after_results
  all_goals rfl

/-- The projected node array passes unchanged from the first region's exit to the third region's entry. -/
theorem W5_v4 (c : Dev nD) : W5 m ρ c (Proc.devRef .tc main_v4) = W2 m ρ c (Proc.devRef .tc main_v4) :=
  (StableHlo.after_of_forall_not_mem _ _ (by no_write hostOps2)).trans
    ((W4_of_ne m ρ c main_v4 (by decide)).trans (StableHlo.after_of_forall_not_mem _ _ (by no_write hostOps1)))

/-- Row s of each tile of the statistics array, as a [50, 128] array. -/
abbrev tileRow0 (st : FVec Ideal S400x128 .f32) : FVec Ideal S50x128 .f32 :=
  shapeCast S50x128 (extractStridedSlice S50x1x128 ![0, 0, 0] (shapeCast S50x8x128 st shapeCasts_S400x128_S50x8x128)
    slices_S50x8x128_S50x1x128_0_0_0) shapeCasts_S50x1x128_S50x128
abbrev tileRow1 (st : FVec Ideal S400x128 .f32) : FVec Ideal S50x128 .f32 :=
  shapeCast S50x128 (extractStridedSlice S50x1x128 ![0, 1, 0] (shapeCast S50x8x128 st shapeCasts_S400x128_S50x8x128)
    slices_S50x8x128_S50x1x128_0_1_0) shapeCasts_S50x1x128_S50x128
/-- A [50, 128] array summed down its columns and divided by the row count 100000. -/
abbrev meanOf (x : FVec Ideal S50x128 .f32) : FVec Ideal S128 .f32 :=
  Host.divf (Host.reduceAdd x (constant S_ .f32 0x00000000#32) reducesTo_S50x128_S128_d0 h_S_)
    (broadcastInDim S128 ![] bcast_S_S128 (constant S_ .f32 0x47C35000#32))

theorem W7_v34 (c : Dev nD) : W7 m ρ c (Proc.devRef .tc main_v34) = meanOf (tileRow0 (W6 m ρ c (Proc.devRef .tc main_v25_1))) := by
  show StableHlo.after hostOps3 (W6 m ρ c) (Proc.devRef .tc main_v34) = _
  after_results
  all_goals rfl

theorem W7_v42 (c : Dev nD) : W7 m ρ c (Proc.devRef .tc main_v42)
    = subf (meanOf (tileRow1 (W6 m ρ c (Proc.devRef .tc main_v25_1))))
        (mulf (mulf (mulf (meanOf (tileRow0 (W6 m ρ c (Proc.devRef .tc main_v25_1))))
                      (meanOf (tileRow0 (W6 m ρ c (Proc.devRef .tc main_v25_1)))))
                (m ((c : Thread nD τ).loc main_arg26)))
          (subf (broadcastInDim S128 ![] bcast_S_S128 (constant S_ .f32 0x40000000#32)) (m ((c : Thread nD τ).loc main_arg26)))) := by
  rw [← W6_arg m ρ c main_arg26 (by no_write hostOps0) (by decide) (by no_write hostOps1) (by decide) (by no_write hostOps2) (by decide)]
  show StableHlo.after hostOps3 (W6 m ρ c) (Proc.devRef .tc main_v42) = _
  after_results
  all_goals rfl

theorem W7_v25_0 (c : Dev nD) : W7 m ρ c (Proc.devRef .tc main_v25_0) = W6 m ρ c (Proc.devRef .tc main_v25_0) :=
  StableHlo.after_of_forall_not_mem _ _ (by no_write hostOps3)

end Cert.KernelIdeal.Flow

end
-- ==== Proof.Spec2.lean ====
/-
  Two more pieces of the specification: the scattered sums (row n of the result collects the update rows whose index
  entry is n) and the two halves of a [128, 256] weight.
-/
import proofs.«108244_j21019569947168_2_alg».proof.Proof.Spec

open scoped BigOperators

noncomputable section

namespace Cert.Spec

open Idealize.ShloMosaic Idealize.ShloMosaic.ValueIdx Idealize.ShloMosaic.RealEntries

variable {E N h : ℕ}

/-- The scattered sums from zero: entry (n,q) is 0 plus the sum of u(e,q) over the updates e whose index is n. -/
def scat (idx : Fin E → Int) (u : Fin E → Fin h → EReal) : Fin N → Fin h → EReal :=
  fun n q => 0 + ∑ e ∈ Finset.univ.filter (fun e : Fin E => idx e = (n.val : Int)), u e q

theorem allReal_scat {idx : Fin E → Int} {u : Fin E → Fin h → EReal} (hu : AllReal u) :
    AllReal (scat (N := N) idx u) :=
  fun n q => isReal_zero.add (isReal_sum _ _ fun e _ => hu e q)

/-- Column j of the left half, and of the right half, of 256 columns. -/
abbrev lo256 (j : Fin 128) : Fin 256 := ⟨j.val, by omega⟩
abbrev hi256 (j : Fin 128) : Fin 256 := ⟨j.val + 128, by omega⟩
/-- The left and right halves of a [128, 256] weight. -/
abbrev waF (w : (⟨2, ![128, 256]⟩ : Shape).Idx → EReal) : Fin 128 → Fin 128 → EReal := fun q j => w (ix2 q (lo256 j))
abbrev wbF (w : (⟨2, ![128, 256]⟩ : Shape).Idx → EReal) : Fin 128 → Fin 128 → EReal := fun q j => w (ix2 q (hi256 j))

end Cert.Spec

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.LibRowScatter.lean ====
/-
  Rows accumulated into a table and rows looked up in a table, with one integer index per row, as sums and reads
  by coordinates; and a block of columns of a matrix read by coordinates.

  For a table `x : [N, C]`, an index column `idx : [R, 1]` and rows `u : [R, C]`:
  • an update element `(e, c)` lands on table element `(n, c')` exactly when the column's entry `e`, read signed,
    is `n` and `c = c'` (`rowScatter_some_iff`; the closed form of where it lands is `rowScatter_resultIdx`);
  • so the accumulation `x.at[idx].add(u)` is, at `(n, c)`, `x (n, c)` plus the sum of `u (e, c)` over the rows `e`
    whose entry is `n` (`rowScatterAdd_apply`): a row whose entry is outside `[0, N)` contributes to no element;
  • the lookup `x[idx]` is, at `(e, c)`, `x` at the row "entry `e` clamped into `[0, N − 1]`", lane `c`
    (`rowGather_apply`);
  • the columns `[o, o + b)` of an `[a, b']` matrix read, at `(p, q)`, the matrix at `(p, o + q)` (`colSlice_apply`).
-/
import Idealize.ShloMosaic.Lib.ValueIdx
import Idealize.ShloMosaic.Lib.Pipeline.Value
import Idealize.ShloMosaic.PureOps.Ideal.Laws
import proofs.«108244_j21019569947168_2_alg».proof.Proof.LibRowTake

open scoped BigOperators

noncomputable section

namespace Idealize.ShloMosaic.RowScatter

open Idealize.ShloMosaic Idealize.ShloMosaic.ValueIdx Idealize.ShloMosaic.RowTake

/-! ## Where an update element lands -/

section Land
variable {N C R w : Nat} (wf : ScatterDims.WF ⟨2, ![N, C]⟩ ⟨2, ![R, 1]⟩ ⟨2, ![R, C]⟩ [1] [0] [0] 1)
  (idx : IVec ⟨2, ![R, 1]⟩ w) (e : Fin R) (c : Fin C)

/-- On the row axis the window starts at the column's entry `e`, read signed. -/
theorem start_row :
    (rowScatterDims N C R wf).start (ix2 e c) idx (0 : Fin 2) = (idx (ix2 e (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 e c) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the lane axis the window starts at `0`: the start index has no component for it. -/
theorem start_lane : (rowScatterDims N C R wf).start (ix2 e c) idx (1 : Fin 2) = 0 := by
  unfold ScatterDims.start
  rw [dif_neg (show (1 : Fin 2) ∉ (rowScatterDims N C R wf).scatterDimsToOperandDims from
    (by decide : (1 : Fin 2) ∉ ([0] : List (Fin 2))))]

/-- The row axis is an inserted one: the window coordinate on it is `0`. -/
theorem window_row : (rowScatterDims N C R wf).window (ix2 e c) (0 : Fin 2) = 0 := by
  unfold ScatterDims.window
  rw [dif_neg (show (0 : Fin 2) ∉ (rowScatterDims N C R wf).sKept from
    (by decide : (0 : Fin 2) ∉ (List.finRange 2).filter (fun a => a ∉ ([0] : List (Fin 2)))))]

/-- On the lane axis the window coordinate is the update's lane. -/
theorem window_lane : (rowScatterDims N C R wf).window (ix2 e c) (1 : Fin 2) = c.val := by
  unfold ScatterDims.window
  rw [dif_pos (show (1 : Fin 2) ∈ (rowScatterDims N C R wf).sKept from
    (by decide : (1 : Fin 2) ∈ (List.finRange 2).filter (fun a => a ∉ ([0] : List (Fin 2)))))]
  rfl

/-- Where update element `(e, c)` lands: on row "the column's entry `e`, read signed", lane `c`, when that entry is a
    row of the table; nowhere when it is not. -/
theorem rowScatter_resultIdx :
    (rowScatterDims N C R wf).resultIdx? (ix2 e c) idx
      = if h : 0 ≤ (idx (ix2 e (0 : Fin 1))).toInt ∧ (idx (ix2 e (0 : Fin 1))).toInt < (N : Int)
        then some (ix2 (⟨(idx (ix2 e (0 : Fin 1))).toInt.toNat, by omega⟩ : Fin N) c) else none := by
  have hN : ((⟨2, ![N, C]⟩ : Shape).size (0 : Fin 2)) = N := rfl
  have hC : ((⟨2, ![N, C]⟩ : Shape).size (1 : Fin 2)) = C := rfl
  unfold ScatterDims.resultIdx?
  split
  · rename_i hall
    have h0 := hall (0 : Fin 2)
    rw [start_row, window_row, hN] at h0
    rw [dif_pos (by omega)]
    congr 1
    funext a
    refine Fin.ext ?_
    match a with
    | ⟨0, _⟩ =>
      show ((rowScatterDims N C R wf).start (ix2 e c) idx (0 : Fin 2)
        + ((rowScatterDims N C R wf).window (ix2 e c) (0 : Fin 2) : Nat)).toNat = (idx (ix2 e (0 : Fin 1))).toInt.toNat
      rw [start_row, window_row]; omega
    | ⟨1, _⟩ =>
      show ((rowScatterDims N C R wf).start (ix2 e c) idx (1 : Fin 2)
        + ((rowScatterDims N C R wf).window (ix2 e c) (1 : Fin 2) : Nat)).toNat = c.val
      rw [start_lane, window_lane]; omega
  · rename_i hall
    rw [dif_neg]
    intro hv
    refine hall fun a => ?_
    match a with
    | ⟨0, _⟩ =>
      show 0 ≤ (rowScatterDims N C R wf).start (ix2 e c) idx (0 : Fin 2)
          + ((rowScatterDims N C R wf).window (ix2 e c) (0 : Fin 2) : Nat)
        ∧ (rowScatterDims N C R wf).start (ix2 e c) idx (0 : Fin 2)
          + ((rowScatterDims N C R wf).window (ix2 e c) (0 : Fin 2) : Nat) < (((⟨2, ![N, C]⟩ : Shape).size (0 : Fin 2) : Nat) : Int)
      rw [start_row, window_row, hN]; omega
    | ⟨1, _⟩ =>
      show 0 ≤ (rowScatterDims N C R wf).start (ix2 e c) idx (1 : Fin 2)
          + ((rowScatterDims N C R wf).window (ix2 e c) (1 : Fin 2) : Nat)
        ∧ (rowScatterDims N C R wf).start (ix2 e c) idx (1 : Fin 2)
          + ((rowScatterDims N C R wf).window (ix2 e c) (1 : Fin 2) : Nat) < (((⟨2, ![N, C]⟩ : Shape).size (1 : Fin 2) : Nat) : Int)
      rw [start_lane, window_lane, hC]; have := c.isLt; omega

end Land

/-- An update element `(e, c)` lands on table element `(n, c')` exactly when the column's entry `e`, read signed, is
    the row `n` and the lanes agree. -/
theorem rowScatter_some_iff {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (n : Fin N) (c' : Fin C) :
    (rowScatterDims N C R wf).resultIdx? (ix2 e c) idx = some (ix2 n c')
      ↔ (idx (ix2 e (0 : Fin 1))).toInt = (n.val : Int) ∧ c = c' := by
  rw [rowScatter_resultIdx]
  constructor
  · intro h
    split at h
    · have h' := Option.some.inj h
      have hr := congrArg (fun f : (⟨2, ![N, C]⟩ : Shape).Idx => (f (0 : Fin 2)).val) h'
      have hl := congrArg (fun f : (⟨2, ![N, C]⟩ : Shape).Idx => f (1 : Fin 2)) h'
      have hr' : (idx (ix2 e (0 : Fin 1))).toInt.toNat = n.val := hr
      have hl' : c = c' := hl
      exact ⟨by omega, hl'⟩
    · exact absurd h (by simp)
  · rintro ⟨hv, rfl⟩
    have hn := n.isLt
    rw [dif_pos (by omega)]
    congr 2
    refine Fin.ext ?_
    show (idx (ix2 e (0 : Fin 1))).toInt.toNat = n.val
    omega

/-! ## The accumulation read at an element -/

/-- `x.at[idx].add(u)` at `(n, c)`: `x (n, c)` plus the sum, over the rows `e` whose index entry (read signed) is `n`,
    of `u (e, c)`.  The sum over the update elements that land on `(n, c)` is re-indexed by the row: in row `e` the one
    lane that can land there is `c`. -/
theorem rowScatterAdd_apply {N C R w : Nat}
    (wf : ScatterDims.WF ⟨2, ![N, C]⟩ ⟨2, ![R, 1]⟩ ⟨2, ![R, C]⟩ [1] [0] [0] 1)
    (idx : IVec ⟨2, ![R, 1]⟩ w) (x : FVec Ideal ⟨2, ![N, C]⟩ .f32) (u : FVec Ideal ⟨2, ![R, C]⟩ .f32)
    (n : Fin N) (c : Fin C) :
    Host.scatterAdd (rowScatterDims N C R wf) x idx u (ix2 n c)
      = x (ix2 n c) + ∑ e ∈ Finset.univ.filter (fun e : Fin R => (idx (ix2 e (0 : Fin 1))).toInt = (n.val : Int)),
          u (ix2 e c) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [rowScatter_some_iff]
  by_cases hv : (idx (ix2 e (0 : Fin 1))).toInt = (n.val : Int)
  · simp [hv]
  · simp [hv]

/-! ## The lookup read at an element -/

/-- `x[idx]` at `(e, c)` for a table of any values: the table's row at the clamp of the column's entry `e`, lane `c`. -/
theorem gatherRow_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowDims N C R wf) x idx (ix2 e c) = x (ix2 (clampRow N hN (idx (ix2 e (0 : Fin 1))).toInt) c) := by
  unfold Host.gather
  rw [row_operandIdx hN wf idx e c]

/-- `x[idx]` at `(e, c)` on the extended reals. -/
theorem rowGather_apply {N C R w : Nat} (hN : 0 < N)
    (wf : GatherDims.WF ⟨2, ![N, C]⟩ ⟨2, ![R, 1]⟩ ⟨2, ![R, C]⟩ [1] [0] [] [0] [] 1 ![1, C])
    (x : FVec Ideal ⟨2, ![N, C]⟩ .f32) (idx : IVec ⟨2, ![R, 1]⟩ w) (e : Fin R) (c : Fin C) :
    Host.gather (rowDims N C R wf) x idx (ix2 e c) = x (ix2 (clampRow N hN (idx (ix2 e (0 : Fin 1))).toInt) c) :=
  gatherRow_apply hN wf x idx e c

/-! ## A block of columns read at an element -/

/-- The `b` columns from `o` of an `[a, b']` matrix read, at `(p, q)`, the matrix at `(p, o + q)`. -/
theorem colSlice_apply {α : Type} {a b b' : Nat} (o : Nat) (x : (⟨2, ![a, b']⟩ : Shape).Idx → α)
    (h : (⟨2, ![a, b']⟩ : Shape).Slices ![0, o] ⟨2, ![a, b]⟩) (p : Fin a) (q : Fin b) :
    extractStridedSlice ⟨2, ![a, b]⟩ ![0, o] x h (ix2 p q)
      = x (ix2 p ⟨o + q.val, Nat.lt_of_lt_of_le (Nat.add_lt_add_left q.isLt o) (h.2 1)⟩) :=
  extractStridedSlice_apply _ _ _ _ _ (fun ax => by
    match ax with
    | ⟨0, _⟩ => exact (Nat.zero_add _).symm
    | ⟨1, _⟩ => rfl)

end Idealize.ShloMosaic.RowScatter

end
-- ==== Proof.LibHostColSum.lean ====
/-
  Host-side reads at an index: a column sum, one layer of a stack of matrices or of rows, and one row of every tile
  of a matrix cut into tiles of consecutive rows.

  • The host's sum over the FIRST axis of an `[a, b]` array, started from the zero scalar, is at column `c` the sum of
    the column's entries (`hostColSum_apply`; `hostColSum_eq` builds the second shape fact itself; `hostColSum_init_apply` starts from any scalar).
  • Layer `i` of a stack `[m, a, b]`, cut out as `[1, a, b]` and cast to `[a, b]`, reads at `(q, j)` the stack at
    `(i, q, j)` (`stackMat_apply`); likewise row `i` of `[m, b]` cut out as `[1, b]` and cast to `[b]`
    (`stackRow_apply`).  The cut's offset is a literal `o` with `i.val = o`.
  • An `[N, n]` matrix with `N = B·K` viewed as `B` tiles of `K` rows (`[B, K, n]`), row `s` of every tile cut out
    (`[B, 1, n]`) and cast to `[B, n]`, reads at `(t, q)` the matrix at row `t·K + s`, column `q` (`tileRow_apply`).
-/
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Idealize.ShloMosaic.HostColSum

open Idealize.ShloMosaic Idealize.ShloMosaic.ValueIdx

variable {α : Type}

/-! ## A column sum -/

/-- A reduction into a shape of positive rank: the host's shape fact is also the kernel's. -/
theorem reduces_of_reducesTo {s t : Shape} {axes : List (Fin s.rank)} (h' : s.ReducesTo axes t) (ht : 0 < t.rank) :
    s.Reduces axes t :=
  ⟨h'.1, ht, h'.2⟩

/-- The host's sum over the first axis of an `[a, b]` array, started from the zero scalar, at column `c`, is the sum of
    the column's entries. -/
theorem hostColSum_apply {a b : ℕ} (v : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (c : Fin b) :
    Host.reduceAdd v (constant (F := Ideal) ⟨0, ![]⟩ .f32 0x00000000#32) h' hu (ix1 c) = ∑ k : Fin a, v (ix2 k c) := by
  show Ideal.hostReduceAdd h' v (Ideal.ofBits .f32 0x00000000#32) (ix1 c) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- The same from any initial scalar `z`: the scalar plus the column's sum. -/
theorem hostColSum_init_apply {a b : ℕ} (v : FVec Ideal ⟨2, ![a, b]⟩ .f32) (z : FVec Ideal ⟨0, ![]⟩ .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (c : Fin b) :
    Host.reduceAdd v z h' hu (ix1 c) = z (Shape.Idx.first hu) + ∑ k : Fin a, v (ix2 k c) := by
  show Ideal.hostReduceAdd h' v (z (Shape.Idx.first hu)) (ix1 c) = _
  rw [Ideal.hostReduceAdd_single h' h]
  exact congrArg _ (Finset.sum_congr rfl fun k _ => congrArg v (funext fun ax => Fin.ext (by
    match ax with
    | ⟨0, _⟩ => rfl
    | ⟨1, _⟩ => rfl)))

/-- `hostColSum_apply` with the second shape fact made from the first. -/
theorem hostColSum_eq {a b : ℕ} (v : FVec Ideal ⟨2, ![a, b]⟩ .f32)
    (h' : (⟨2, ![a, b]⟩ : Shape).ReducesTo [0] ⟨1, ![b]⟩) (hu : 0 < (⟨0, ![]⟩ : Shape).numel) (c : Fin b) :
    Host.reduceAdd v (constant (F := Ideal) ⟨0, ![]⟩ .f32 0x00000000#32) h' hu (ix1 c) = ∑ k : Fin a, v (ix2 k c) :=
  hostColSum_apply v h' (reduces_of_reducesTo h' Nat.one_pos) hu c

/-! ## One layer of a stack -/

/-- Layer `i` of a stack of `m` matrices, cut out at the literal offset `o = i` and cast to a matrix, reads at `(q, j)`
    the stack at `(i, q, j)`. -/
theorem stackMat_apply {m a b : ℕ} (o : ℕ) (i : Fin m) (hi : i.val = o) (w : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (q : Fin a) (j : Fin b) :
    shapeCast ⟨2, ![a, b]⟩ (extractStridedSlice ⟨3, ![1, a, b]⟩ ![o, 0, 0] w hs) hc (ix2 q j) = w (ix3 i q j) :=
  (shapeCast_1ab_ab_apply _ hc q j).trans
    (extractStridedSlice_apply _ _ _ _ _ (fun ax => by
      match ax with
      | ⟨0, _⟩ => exact hi.trans (Nat.add_zero o).symm
      | ⟨1, _⟩ => exact (Nat.zero_add _).symm
      | ⟨2, _⟩ => exact (Nat.zero_add _).symm))

/-- Row `i` of a stack of `m` rows, cut out at the literal offset `o = i` and cast to a flat array, reads at `q` the
    stack at `(i, q)`. -/
theorem stackRow_apply {m b : ℕ} (o : ℕ) (i : Fin m) (hi : i.val = o) (w : (⟨2, ![m, b]⟩ : Shape).Idx → α)
    (hs : (⟨2, ![m, b]⟩ : Shape).Slices ![o, 0] ⟨2, ![1, b]⟩)
    (hc : (⟨2, ![1, b]⟩ : Shape).ShapeCasts ⟨1, ![b]⟩) (q : Fin b) :
    shapeCast ⟨1, ![b]⟩ (extractStridedSlice ⟨2, ![1, b]⟩ ![o, 0] w hs) hc (ix1 q) = w (ix2 i q) :=
  (shapeCast_1a_a_apply _ hc q).trans
    (slice2_axis0_apply o w hs (0 : Fin 1) q i (hi.trans (Nat.add_zero o).symm))

/-! ## One row of every tile -/

/-- Row `s` of tile `t`, of `B` tiles of `K` rows each, is a row of the whole matrix. -/
theorem tile_lt {B K N t s : ℕ} (ht : t < B) (hs : s < K) (hBK : B * K = N) : t * K + s < N := by
  subst hBK
  calc t * K + s < t * K + K := Nat.add_lt_add_left hs _
    _ = (t + 1) * K := (Nat.succ_mul t K).symm
    _ ≤ B * K := Nat.mul_le_mul_right K ht

/-- An `[N, n]` matrix, `N = B·K`, viewed as `[B, K, n]`, cut at row `s` of every tile and cast to `[B, n]`, reads at
    `(t, q)` the matrix at `(t·K + s, q)`: the three row-major positions agree. -/
theorem tileRow_apply {B K n N : ℕ} (s : ℕ) (hsK : s < K) (hBK : B * K = N) (st : (⟨2, ![N, n]⟩ : Shape).Idx → α)
    (h1 : (⟨2, ![N, n]⟩ : Shape).ShapeCasts ⟨3, ![B, K, n]⟩)
    (h2 : (⟨3, ![B, K, n]⟩ : Shape).Slices ![0, s, 0] ⟨3, ![B, 1, n]⟩)
    (h3 : (⟨3, ![B, 1, n]⟩ : Shape).ShapeCasts ⟨2, ![B, n]⟩) (t : Fin B) (q : Fin n) :
    shapeCast ⟨2, ![B, n]⟩ (extractStridedSlice ⟨3, ![B, 1, n]⟩ ![0, s, 0] (shapeCast ⟨3, ![B, K, n]⟩ st h1) h2) h3
        (ix2 t q)
      = st (ix2 (⟨t.val * K + s, tile_lt t.isLt hsK hBK⟩ : Fin N) q) := by
  refine (shapeCast_apply _ h3 (ix2 t q) (ix3 t (0 : Fin 1) q) ?_).trans ?_
  · rw [Shape.rowMajor_val_three, Shape.rowMajor_val_two]
    show (t.val * 1 + 0) * n + q.val = t.val * n + q.val
    rw [Nat.mul_one, Nat.add_zero]
  refine (extractStridedSlice_apply _ _ h2 (ix3 t (0 : Fin 1) q) (ix3 t (⟨s, hsK⟩ : Fin K) q) (fun ax => ?_)).trans ?_
  · match ax with
    | ⟨0, _⟩ => exact (Nat.zero_add _).symm
    | ⟨1, _⟩ => exact (Nat.add_zero s).symm
    | ⟨2, _⟩ => exact (Nat.zero_add _).symm
  refine shapeCast_apply st h1 (ix3 t (⟨s, hsK⟩ : Fin K) q) _ ?_
  rw [Shape.rowMajor_val_three, Shape.rowMajor_val_two]
  rfl

end Idealize.ShloMosaic.HostColSum

end
-- ==== Proof.LibHostKeepdims.lean ====
/-
  Reading the host's "keep the reduced axis as a unit axis" operations at an index.

  A host sum over the last axis of an `[a, b]` array kept as an `[a, 1]` column is met as: the sum to `[a]` from a
  zero scalar, a `broadcast_in_dim` of `[a]` to the column `[a, 1]`, and later a `broadcast_in_dim` of the column
  over `b` lanes; a scalar constant reaches a shape by `broadcast_in_dim` with no dimensions.  Each lemma reads one of
  them at an index built from coordinates.
-/
import Idealize.ShloMosaic.Lib.Pipeline.Value
import Idealize.ShloMosaic.Lib.ValueIdx
import Idealize.ShloMosaic.PureOps.Ideal.Laws

noncomputable section

namespace Idealize.ShloMosaic.HostKeepdims

open Idealize.ShloMosaic Idealize.ShloMosaic.ValueIdx

variable {α : Type}

/-- The host's sum over the last axis of an `[a, b]` array, started from the zero scalar, at row `r`, is the sum of
    the row's entries (the reduction's two shape facts are the caller's, decided at its literal shapes). -/
theorem hostRowSum_apply {a b : ℕ} (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd v (constant (F := Ideal) ⟨0, ![]⟩ .f32 0x00000000#32) h' hu (ix1 r) = ∑ k : Fin b, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (funext fun ax => Fin.ext (by
    match ax with
    | ⟨0, _⟩ => rfl
    | ⟨1, _⟩ => rfl))

/-- An `[a]` array laid as the column `[a, 1]` by `broadcast_in_dim` along axis 0 reads, at `(r, u)`, the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) :=
  broadcastInDim_apply _ h x (ix2 r u) (ix1 r) fun ax => by
    match ax with
    | ⟨0, _⟩ =>
      show r.val = if a = 1 then 0 else r.val
      split
      · have := r.isLt; omega
      · rfl

/-- A scalar sent to any shape by `broadcast_in_dim` with no dimensions reads, everywhere, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 fun ax => ax.elim0

/-- A column `[a, 1]` sent over `b` lanes by `broadcast_in_dim` along axes 0 and 1 reads, at `(r, c)`, the column at row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) :=
  broadcastInDim_apply _ h x (ix2 r c) (ix2 r (0 : Fin 1)) fun ax => by
    match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]

end Idealize.ShloMosaic.HostKeepdims

end
-- ==== Proof.KHost.lean ====
/-
  The kernel program's host stretches read at an entry, for any arrays they are applied to: the scattered sums and
  their two column halves, the two halves of a [128, 256] weight, the column means of one row of every statistics
  tile, and the variance expression built from them.
-/
import proofs.«108244_j21019569947168_2_alg».proof.Proof.Flow
import proofs.«108244_j21019569947168_2_alg».proof.Proof.Spec
import proofs.«108244_j21019569947168_2_alg».proof.Proof.Spec2
import proofs.«108244_j21019569947168_2_alg».proof.Proof.LibRowScatter
import proofs.«108244_j21019569947168_2_alg».proof.Proof.LibHostColSum
import proofs.«108244_j21019569947168_2_alg».proof.Proof.LibHostKeepdims
import Idealize.ShloMosaic.Lib.ValueIdx
import Idealize.ShloMosaic.Lib.ValueLayout
import Idealize.ShloMosaic.PureOps.Ideal.Laws

open scoped BigOperators

noncomputable section

namespace Cert.KernelIdeal.KHost

open Idealize.ShloMosaic Idealize.ShloMosaic.ValueIdx
open Cert.KernelIdeal Cert.KernelIdeal.Gen Cert.KernelIdeal.Flow Cert.Spec

/-! ## Column halves -/

/-- The left 128 columns of a [100000, 256] array read, at (n, q), the array at (n, q). -/
theorem slice_lo {α : Type} (v : S100000x256.Idx → α) (n : Fin 100000) (q : Fin 128) :
    extractStridedSlice S100000x128 ![0, 0] v slices_S100000x256_S100000x128_0_0 (ix2 n q) = v (ix2 n (lo256 q)) :=
  slice2_axis1_apply 0 v slices_S100000x256_S100000x128_0_0 n q (lo256 q) (Nat.zero_add _).symm

/-- The right 128 columns of a [100000, 256] array read, at (n, q), the array at (n, q + 128). -/
theorem slice_hi {α : Type} (v : S100000x256.Idx → α) (n : Fin 100000) (q : Fin 128) :
    extractStridedSlice S100000x128 ![0, 128] v slices_S100000x256_S100000x128_0_128 (ix2 n q) = v (ix2 n (hi256 q)) :=
  slice2_axis1_apply 128 v slices_S100000x256_S100000x128_0_128 n q (hi256 q) (Nat.add_comm _ _)

/-- The left half of a [128, 256] weight. -/
theorem wa_mat (w : FVec Ideal S128x256 .f32) :
    mat (extractStridedSlice S128x128 ![0, 0] w slices_S128x256_S128x128_0_0) = waF w := by
  funext q j
  exact slice2_axis1_apply 0 w slices_S128x256_S128x128_0_0 q j (lo256 j) (Nat.zero_add _).symm

/-- The right half of a [128, 256] weight. -/
theorem wb_mat (w : FVec Ideal S128x256 .f32) :
    mat (extractStridedSlice S128x128 ![0, 128] w slices_S128x256_S128x128_0_128) = wbF w := by
  funext q j
  exact slice2_axis1_apply 128 w slices_S128x256_S128x128_0_128 q j (hi256 j) (Nat.add_comm _ _)

/-! ## The scattered sums -/

/-- The scatter's operand is zero everywhere. -/
theorem zeros_apply (i : S100000x256.Idx) :
    broadcastInDim S100000x256 ![] bcast_S_S100000x256 (constant (F := Ideal) S_ .f32 0x00000000#32) i = (0 : EReal) := by
  rw [HostKeepdims.bcast_scalar_apply, constant_apply, Ideal.ofBits_zero_f32]

/-- The scattered sums at (n, c): zero plus the sum of u (e, c) over the rows e whose index entry, read signed, is n. -/
theorem scatter_apply (idx : IVec S600000x1 32) (u : FVec Ideal S600000x256 .f32) (n : Fin 100000) (c : Fin 256) :
    Host.scatterAdd scatter_S100000x256_S600000x1_S600000x256_1_0_0_1
        (broadcastInDim S100000x256 ![] bcast_S_S100000x256 (constant S_ .f32 0x00000000#32)) idx u (ix2 n c)
      = 0 + ∑ e ∈ Finset.univ.filter (fun e : Fin 600000 => (idx (ix2 e (0 : Fin 1))).toInt = (n.val : Int)),
          u (ix2 e c) :=
  (RowScatter.rowScatterAdd_apply scatter_S100000x256_S600000x1_S600000x256_1_0_0_1_wf idx _ u n c).trans
    (congrArg (· + _) (zeros_apply _))

/-- The left half of the scattered sums is the scattered sums of the updates' left halves. -/
theorem scat_lo (idx : IVec S600000x1 32) (u : FVec Ideal S600000x256 .f32) :
    mat (extractStridedSlice S100000x128 ![0, 0]
        (Host.scatterAdd scatter_S100000x256_S600000x1_S600000x256_1_0_0_1
          (broadcastInDim S100000x256 ![] bcast_S_S100000x256 (constant S_ .f32 0x00000000#32)) idx u)
        slices_S100000x256_S100000x128_0_0)
      = scat (fun e : Fin 600000 => (idx (ix2 e (0 : Fin 1))).toInt) (fun e q => u (ix2 e (lo256 q))) := by
  funext n q
  exact (slice_lo _ n q).trans (scatter_apply idx u n (lo256 q))

/-- The right half of the scattered sums is the scattered sums of the updates' right halves. -/
theorem scat_hi (idx : IVec S600000x1 32) (u : FVec Ideal S600000x256 .f32) :
    mat (extractStridedSlice S100000x128 ![0, 128]
        (Host.scatterAdd scatter_S100000x256_S600000x1_S600000x256_1_0_0_1
          (broadcastInDim S100000x256 ![] bcast_S_S100000x256 (constant S_ .f32 0x00000000#32)) idx u)
        slices_S100000x256_S100000x128_0_128)
      = scat (fun e : Fin 600000 => (idx (ix2 e (0 : Fin 1))).toInt) (fun e q => u (ix2 e (hi256 q))) := by
  funext n q
  exact (slice_hi _ n q).trans (scatter_apply idx u n (hi256 q))

/-! ## The column means -/

/-- The column sum of a [50, 128] array divided by the row-count literal, at column q. -/
theorem meanOf_apply (x : FVec Ideal S50x128 .f32) (q : Fin 128) :
    meanOf x (ix1 q) = Ideal.div (∑ t : Fin 50, x (ix2 t q)) (Ideal.ofBits .f32 0x47C35000#32) := by
  show Ideal.div (Host.reduceAdd x (constant S_ .f32 0x00000000#32) reducesTo_S50x128_S128_d0 h_S_ (ix1 q))
      (broadcastInDim S128 ![] bcast_S_S128 (constant (F := Ideal) S_ .f32 0x47C35000#32) (ix1 q)) = _
  rw [HostColSum.hostColSum_eq, HostKeepdims.bcast_scalar_apply, constant_apply]

/-- Row 0 of tile t of the statistics array is its row 8·t. -/
theorem tileRow0_apply (st : FVec Ideal S400x128 .f32) (t : Fin 50) (q : Fin 128) :
    tileRow0 st (ix2 t q) = st (ix2 (⟨t.val * 8, by omega⟩ : Fin 400) q) :=
  (HostColSum.tileRow_apply 0 (by decide) (by decide) st shapeCasts_S400x128_S50x8x128 slices_S50x8x128_S50x1x128_0_0_0
    shapeCasts_S50x1x128_S50x128 t q).trans (congrArg (fun r => st (ix2 r q)) (Fin.ext (Nat.add_zero _)))

/-- Row 1 of tile t of the statistics array is its row 8·t + 1. -/
theorem tileRow1_apply (st : FVec Ideal S400x128 .f32) (t : Fin 50) (q : Fin 128) :
    tileRow1 st (ix2 t q) = st (ix2 (⟨t.val * 8 + 1, by omega⟩ : Fin 400) q) :=
  HostColSum.tileRow_apply 1 (by decide) (by decide) st shapeCasts_S400x128_S50x8x128 slices_S50x8x128_S50x1x128_0_1_0
    shapeCasts_S50x1x128_S50x128 t q

/-- The mean of row 0 of every tile, at column q. -/
theorem mean0_apply (st : FVec Ideal S400x128 .f32) (q : Fin 128) :
    meanOf (tileRow0 st) (ix1 q)
      = Ideal.div (∑ t : Fin 50, st (ix2 (⟨t.val * 8, by omega⟩ : Fin 400) q)) (Ideal.ofBits .f32 0x47C35000#32) := by
  rw [meanOf_apply]
  exact congrArg (Ideal.div · _) (Finset.sum_congr rfl fun t _ => tileRow0_apply st t q)

/-- The mean of row 1 of every tile, at column q. -/
theorem mean1_apply (st : FVec Ideal S400x128 .f32) (q : Fin 128) :
    meanOf (tileRow1 st) (ix1 q)
      = Ideal.div (∑ t : Fin 50, st (ix2 (⟨t.val * 8 + 1, by omega⟩ : Fin 400) q)) (Ideal.ofBits .f32 0x47C35000#32) := by
  rw [meanOf_apply]
  exact congrArg (Ideal.div · _) (Finset.sum_congr rfl fun t _ => tileRow1_apply st t q)

/-! ## The variance expression -/

/-- m₁ − ((m₀·m₀)·s)·(2 − s) entrywise, for any three rows; the literal two is left as its word. -/
theorem var_rows_apply (m1 m0 s : FVec Ideal S128 .f32) (q : Fin 128) :
    subf m1 (mulf (mulf (mulf m0 m0) s)
        (subf (broadcastInDim S128 ![] bcast_S_S128 (constant S_ .f32 0x40000000#32)) s)) (ix1 q)
      = m1 (ix1 q) - ((m0 (ix1 q) * m0 (ix1 q)) * s (ix1 q)) * (Ideal.ofBits .f32 0x40000000#32 - s (ix1 q)) := by
  rw [subf_apply, mulf_apply, mulf_apply, mulf_apply, subf_apply, HostKeepdims.bcast_scalar_apply, constant_apply]

/-- The variance expression of the statistics array, at column q. -/
theorem var_apply (st : FVec Ideal S400x128 .f32) (s : FVec Ideal S128 .f32) (q : Fin 128) :
    subf (meanOf (tileRow1 st)) (mulf (mulf (mulf (meanOf (tileRow0 st)) (meanOf (tileRow0 st))) s)
        (subf (broadcastInDim S128 ![] bcast_S_S128 (constant S_ .f32 0x40000000#32)) s)) (ix1 q)
      = meanOf (tileRow1 st) (ix1 q) - ((meanOf (tileRow0 st) (ix1 q) * meanOf (tileRow0 st) (ix1 q)) * s (ix1 q))
          * (Ideal.ofBits .f32 0x40000000#32 - s (ix1 q)) :=
  var_rows_apply _ _ s q

end Cert.KernelIdeal.KHost

end
-- ==== Proof.LibNestMin.lean ====
/-
  A minimum written as a left-nested chain of binary minima, and three facts about it.

  A body that keeps a running minimum over a short, fixed family of terms writes
  `min (… (min (min (f 0) (f 1)) (f 2)) …) (f n)`; a reduction over an axis is the fold of `min` from the top
  element.  The two are one value (`nest_min_eq_fold`); a monotone map may be applied before or after the
  nested minimum (`map_nest_min`), and the square root of the extended reals is monotone on the whole line
  (`sqrt_mono`: below zero it is `⊥`, the least element), so `√(min …) = min (√ …)` with no condition on the
  terms.  Last, a sum over `B · K` indices is the sum over `B` blocks of the sums over the `K` indices of each.
-/
import Idealize.ShloMosaic.PureOps.Ideal
import Mathlib.Algebra.BigOperators.Fin
import Mathlib.Data.Finset.Fold
import Mathlib.Data.Fintype.Basic

noncomputable section

namespace Idealize.ShloMosaic.NestMin

open Idealize.ShloMosaic

/-- `op (… (op (f 0) (f 1)) …) (f n)`: the `n + 1` terms of `f` combined from the left. -/
def nest {α : Type*} (op : α → α → α) : (n : ℕ) → (Fin (n + 1) → α) → α
  | 0, f => f 0
  | n + 1, f => op (nest op n fun i => f i.castSucc) (f (Fin.last (n + 1)))

theorem nest_zero {α : Type*} (op : α → α → α) (f : Fin 1 → α) : nest op 0 f = f 0 := rfl

theorem nest_succ {α : Type*} (op : α → α → α) (n : ℕ) (f : Fin (n + 2) → α) :
    nest op (n + 1) f = op (nest op n fun i => f i.castSucc) (f (Fin.last (n + 1))) := rfl

/-- Functions combined pointwise, read at a point: the values at that point combined. -/
theorem nest_apply {ι α : Type*} (op : α → α → α) (n : ℕ) (F : Fin (n + 1) → ι → α) (i : ι) :
    nest (fun a b : ι → α => fun j => op (a j) (b j)) n F i = nest op n fun k => F k i := by
  induction n with
  | zero => rfl
  | succ n ih =>
    rw [nest_succ, nest_succ]
    show op (nest (fun a b : ι → α => fun j => op (a j) (b j)) n (fun k => F k.castSucc) i) (F (Fin.last (n + 1)) i) = _
    rw [ih]

/-- A monotone map of a nested minimum is the nested minimum of the mapped terms. -/
theorem map_nest_min {α β : Type*} [LinearOrder α] [LinearOrder β] {g : α → β} (hg : Monotone g) (n : ℕ)
    (f : Fin (n + 1) → α) : g (nest min n f) = nest min n fun k => g (f k) := by
  induction n with
  | zero => rfl
  | succ n ih => rw [nest_succ, nest_succ, hg.map_min, ih]

/-- A nested minimum is the fold of `min` from the top element over all its terms. -/
theorem nest_min_eq_fold {α : Type*} [LinearOrder α] [OrderTop α] (n : ℕ) (f : Fin (n + 1) → α) :
    nest min n f = (Finset.univ : Finset (Fin (n + 1))).fold min ⊤ f := by
  induction n with
  | zero =>
    rw [nest_zero, Fin.univ_castSuccEmb, Finset.fold_cons, Finset.fold_map, Finset.univ_eq_empty,
      Finset.fold_empty, min_top_right]
    rfl
  | succ n ih =>
    rw [nest_succ, Fin.univ_castSuccEmb, Finset.fold_cons, Finset.fold_map, ih, min_comm]
    rfl

/-- The square root of the extended reals (`⊥` below zero, `√r` at a real `r ≥ 0`, `⊤` at `⊤`) is monotone. -/
theorem sqrt_mono : Monotone Ideal.sqrt := by
  intro x y hxy
  induction x using EReal.rec with
  | bot => exact bot_le
  | top =>
    have hy : y = ⊤ := top_le_iff.mp hxy
    subst hy
    exact le_rfl
  | coe r =>
    induction y using EReal.rec with
    | bot => exact absurd (le_bot_iff.mp hxy) (EReal.coe_ne_bot r)
    | top => exact le_top
    | coe s =>
      have hrs : r ≤ s := EReal.coe_le_coe_iff.mp hxy
      rw [Ideal.sqrt_coe, Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- The square root of a nested minimum is the nested minimum of the square roots. -/
theorem sqrt_nest_min (n : ℕ) (f : Fin (n + 1) → EReal) :
    Ideal.sqrt (nest min n f) = nest min n fun k => Ideal.sqrt (f k) :=
  map_nest_min sqrt_mono n f

/-- A sum over `N = B · K` indices, cut into `B` consecutive blocks of `K`. -/
theorem sum_blocks {M : Type*} [AddCommMonoid M] (B K N : ℕ) (h : B * K = N) (f : Fin N → M) :
    ∑ n : Fin N, f n = ∑ t : Fin B, ∑ q : Fin K, f ⟨t.val * K + q.val, by
      rw [← h]
      exact Nat.lt_of_lt_of_le (Nat.add_lt_add_left q.isLt _)
        (by rw [← Nat.succ_mul]; exact Nat.mul_le_mul_right _ t.isLt)⟩ := by
  subst h
  rw [← finProdFinEquiv.sum_comp f, Fintype.sum_prod_type]
  refine Finset.sum_congr rfl fun t _ => Finset.sum_congr rfl fun q _ => congrArg f (Fin.ext ?_)
  show q.val + K * t.val = t.val * K + q.val
  rw [Nat.mul_comm, Nat.add_comm]

end Idealize.ShloMosaic.NestMin

end
-- ==== Proof.KVal.lean ====
/-
  The kernel program's result as the specification's function of the argument arrays: the four regions' values
  (each at its entry contents) composed through the host stretches between them.
-/
import proofs.«108244_j21019569947168_2_alg».proof.Proof.Flow
import proofs.«108244_j21019569947168_2_alg».proof.Proof.Spec
import proofs.«108244_j21019569947168_2_alg».proof.Proof.Spec2
import proofs.«108244_j21019569947168_2_alg».proof.Proof.KHost
import proofs.«108244_j21019569947168_2_alg».proof.Proof.LibNestMin
import proofs.«108244_j21019569947168_2_alg».proof.Proof.LibRowTake
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.KernelIdeal.KVal

open Idealize.ShloMosaic Idealize.ShloMosaic.TcCoe Idealize.SL.Sem Idealize.ShloMosaic.ValueIdx
open Cert.KernelIdeal Cert.KernelIdeal.Gen Cert.KernelIdeal.Flow Cert.Spec

/-! ## The buffers each host stretch writes -/

abbrev WL0 : List (Ref sig .tc) := [main_v0, main_v1, main_v2, main_v3]
abbrev WL1 : List (Ref sig .tc) := [main_c, main_v5, main_v6, main_c_0, main_v7, main_v8, main_v9, main_v10, main_v11]
abbrev WL2 : List (Ref sig .tc) := [main_cst, main_v13, main_c_1, main_v14, main_v15, main_c_2, main_v16, main_v17,
  main_v18, main_v19, main_v20, main_v21, main_v22, main_v23, main_v24]
abbrev WL3 : List (Ref sig .tc) := [main_v26, main_v27, main_v28, main_cst_3, main_v29, main_v30, main_v31, main_cst_4,
  main_v32, main_cst_5, main_v33, main_v34, main_cst_6, main_v35, main_v36, main_v37, main_v38, main_cst_7, main_v39,
  main_v40, main_v41, main_v42]

macro "writes_sub " ops:ident : tactic => `(tactic| (
  simp only [$ops:ident, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)))

theorem hostOps0_writes : (hostOps0 : List (HloOp τ sig (Elt Ideal))).Forall fun op =>
    op.writes ⊆ (WL0.map (Proc.devRef (τ := τ) .tc)).toFinset := by writes_sub hostOps0
theorem hostOps1_writes : (hostOps1 : List (HloOp τ sig (Elt Ideal))).Forall fun op =>
    op.writes ⊆ (WL1.map (Proc.devRef (τ := τ) .tc)).toFinset := by writes_sub hostOps1
theorem hostOps2_writes : (hostOps2 : List (HloOp τ sig (Elt Ideal))).Forall fun op =>
    op.writes ⊆ (WL2.map (Proc.devRef (τ := τ) .tc)).toFinset := by writes_sub hostOps2
theorem hostOps3_writes : (hostOps3 : List (HloOp τ sig (Elt Ideal))).Forall fun op =>
    op.writes ⊆ (WL3.map (Proc.devRef (τ := τ) .tc)).toFinset := by writes_sub hostOps3

/-- A buffer outside the list a stretch writes is written by none of its operations. -/
theorem nw_of {W : List (Ref sig .tc)} {ops : List (HloOp τ sig (Elt Ideal))}
    (hW : ops.Forall fun op => op.writes ⊆ (W.map (Proc.devRef (τ := τ) .tc)).toFinset) (b : Ref sig .tc) (h : b ∉ W) :
    NW ops b := fun op hop hb => by
  obtain ⟨y, hy, he⟩ := List.mem_map.mp (List.mem_toFinset.mp ((List.forall_iff_forall_mem.mp hW) op hop hb))
  exact h (Proc.devRef_injective _ he ▸ hy)

/-- `nodeH` of the third region's input arrays as the region finds them. -/
abbrev nodeHV (V : (c : Dev nD) → (b : Ref sig .tc) → Buf (Elt Ideal) ((c : Thread nD τ).loc b)) (c : Dev nD) :
    Fin 100000 → Fin 128 → EReal :=
  nodeH (mat (V c main_v21)) (mat (V c main_v22)) (mat (V c main_v4))
    (mat (V c main_arg10)) (vec (V c main_arg11)) (mat (V c main_arg12))
    (mat (V c main_arg13)) (vec (V c main_arg14)) (mat (V c main_arg15))
    (mat (V c main_arg16)) (vec (V c main_arg17)) (mat (V c main_arg18)) (vec (V c main_arg19))
    (mat (V c main_v23)) (mat (V c main_v24)) (vec (V c main_arg21))
    (layerW (V c main_arg22)) (layerB (V c main_arg23))

/-- The four regions' values, each at a parameter `V` (the contents when the region is entered). -/
structure RegionValues : Prop where
  arr0 : ∀ (V : (c : Dev nD) → (b : Ref sig .tc) → Buf (Elt Ideal) ((c : Thread nD τ).loc b)) (c : Dev nD)
      (p : Fin 100000) (q : Fin 128),
    (dat0 (F := Ideal) V c).arrAt 3 cfg0.N (ix2 p q)
      = proj (mat (V c main_arg0)) (mat (V c main_arg4)) (vec (V c main_arg5)) p q
  arr1_lo : ∀ (V : (c : Dev nD) → (b : Ref sig .tc) → Buf (Elt Ideal) ((c : Thread nD τ).loc b)) (c : Dev nD)
      (a : Fin 600000) (q : Fin 128),
    (dat1 (F := Ideal) V c).arrAt 7 cfg1.N (ix2 a (⟨q.val, by omega⟩ : Fin 256))
      = msg (mat (V c main_arg1)) (mat (V c main_arg6)) (mat (V c main_arg7)) (mat (V c main_v11)) a q
  arr1_hi : ∀ (V : (c : Dev nD) → (b : Ref sig .tc) → Buf (Elt Ideal) ((c : Thread nD τ).loc b)) (c : Dev nD)
      (a : Fin 600000) (q : Fin 128),
    (dat1 (F := Ideal) V c).arrAt 7 cfg1.N (ix2 a (⟨q.val + 128, by omega⟩ : Fin 256))
      = msg (mat (V c main_arg2)) (mat (V c main_arg8)) (mat (V c main_arg9)) (mat (V c main_v11)) a q
  arr2_h : ∀ (V : (c : Dev nD) → (b : Ref sig .tc) → Buf (Elt Ideal) ((c : Thread nD τ).loc b)) (c : Dev nD)
      (p : Fin 100000) (q : Fin 128),
    (dat2 (F := Ideal) V c).arrAt 18 cfg2.N (ix2 p q) = nodeHV V c p q
  arr2_sum : ∀ (V : (c : Dev nD) → (b : Ref sig .tc) → Buf (Elt Ideal) ((c : Thread nD τ).loc b)) (c : Dev nD)
      (t : Fin 50) (q : Fin 128),
    (dat2 (F := Ideal) V c).arrAt 19 cfg2.N (ix2 (⟨t.val * 8, by omega⟩ : Fin 400) q)
      = ∑ i : Fin 2000, nodeHV V c ⟨t.val * 2000 + i.val, by omega⟩ q
  arr2_sumsq : ∀ (V : (c : Dev nD) → (b : Ref sig .tc) → Buf (Elt Ideal) ((c : Thread nD τ).loc b)) (c : Dev nD)
      (t : Fin 50) (q : Fin 128),
    (dat2 (F := Ideal) V c).arrAt 19 cfg2.N (ix2 (⟨t.val * 8 + 1, by omega⟩ : Fin 400) q)
      = ∑ i : Fin 2000, nodeHV V c ⟨t.val * 2000 + i.val, by omega⟩ q * nodeHV V c ⟨t.val * 2000 + i.val, by omega⟩ q
  arr3 : ∀ (V : (c : Dev nD) → (b : Ref sig .tc) → Buf (Elt Ideal) ((c : Thread nD τ).loc b)) (c : Dev nD)
      (p : Fin 100000) (q : Fin 128),
    (dat3 (F := Ideal) V c).arrAt 8 cfg3.N (ix2 p q)
      = lin (normK (mat (V c main_v25_0)) (vec (V c main_v34)) (vec (V c main_v42)) (vec (V c main_arg26))
              (vec (V c main_arg24)) (vec (V c main_arg25)) (Ideal.ofBits .f32 0x3727C5AC#32))
            (mat (V c main_arg27)) (vec (V c main_arg28)) p q

variable (RV : RegionValues)
include RV
variable (m : (ℓ : Loc nD τ sig) → Buf (Elt Ideal) ℓ) (ρ : Dev nD → PrngReg)

/-- An argument array's launch contents. -/
abbrev am (c : Dev nD) (b : Ref sig .tc) : Buf (Elt Ideal) ((c : Thread nD τ).loc b) := m ((c : Thread nD τ).loc b)

/-! ## Region 0: the projected node array -/

/-- The projected node array after the first region. -/
abbrev x1K (c : Dev nD) : FVec Ideal S100000x128 .f32 := W2 m ρ c (Proc.devRef .tc main_v4)

theorem x1K_mat (c : Dev nD) : mat (x1K m ρ c) = proj (mat (am m c main_arg0)) (mat (am m c main_arg4)) (vec (am m c main_arg5)) := by
  funext p q
  show W2 m ρ c (Proc.devRef .tc (Pipeline.arrRef spec0 3)) (ix2 p q) = _
  rw [W2_arr m ρ c 3, RV.arr0 (V1 m ρ) c p q]
  rw [show V1 m ρ c main_arg0 = am m c main_arg0 from W1_arg m ρ c main_arg0 (nw_of hostOps0_writes _ (by decide)),
      show V1 m ρ c main_arg4 = am m c main_arg4 from W1_arg m ρ c main_arg4 (nw_of hostOps0_writes _ (by decide)),
      show V1 m ρ c main_arg5 = am m c main_arg5 from W1_arg m ρ c main_arg5 (nw_of hostOps0_writes _ (by decide))]

/-! ## Region 1: the edge messages -/

/-- The source and destination index columns. -/
abbrev srcI (c : Dev nD) : IVec S600000x1 32 := idxCol (srcRow (am m c main_arg3))
abbrev dstI (c : Dev nD) : IVec S600000x1 32 := idxCol (dstRow (am m c main_arg3))
/-- The destination index of update e, read signed. -/
abbrev dstInt (c : Dev nD) : Fin 600000 → Int := fun e => (dstI m c (ix2 e (0 : Fin 1))).toInt
/-- The gathered source rows. -/
abbrev xsK (c : Dev nD) : FVec Ideal S600000x128 .f32 :=
  Host.gather gather_S100000x128_S600000x1_S600000x128_1_0_n_n_0_1_1128 (x1K m ρ c) (srcI m c)
/-- The message array after the second region. -/
abbrev MK (c : Dev nD) : FVec Ideal S600000x256 .f32 := W4 m ρ c (Proc.devRef .tc main_v12)
/-- The two edge messages. -/
abbrev msg1K (c : Dev nD) : Fin 600000 → Fin 128 → EReal :=
  msg (mat (am m c main_arg1)) (mat (am m c main_arg6)) (mat (am m c main_arg7)) (mat (xsK m ρ c))
abbrev msg2K (c : Dev nD) : Fin 600000 → Fin 128 → EReal :=
  msg (mat (am m c main_arg2)) (mat (am m c main_arg8)) (mat (am m c main_arg9)) (mat (xsK m ρ c))

theorem MK_lo (c : Dev nD) (a : Fin 600000) (q : Fin 128) : MK m ρ c (ix2 a (lo256 q)) = msg1K m ρ c a q := by
  show W4 m ρ c (Proc.devRef .tc (Pipeline.arrRef spec1 7)) _ = _
  rw [W4_arr m ρ c 7]
  refine (RV.arr1_lo (V3 m ρ) c a q).trans ?_
  rw [show V3 m ρ c main_arg1 = am m c main_arg1 from W3_arg m ρ c main_arg1 (nw_of hostOps0_writes _ (by decide)) (by decide) (nw_of hostOps1_writes _ (by decide)),
      show V3 m ρ c main_arg6 = am m c main_arg6 from W3_arg m ρ c main_arg6 (nw_of hostOps0_writes _ (by decide)) (by decide) (nw_of hostOps1_writes _ (by decide)),
      show V3 m ρ c main_arg7 = am m c main_arg7 from W3_arg m ρ c main_arg7 (nw_of hostOps0_writes _ (by decide)) (by decide) (nw_of hostOps1_writes _ (by decide)),
      show V3 m ρ c main_v11 = xsK m ρ c from W3_v11 m ρ c]

theorem MK_hi (c : Dev nD) (a : Fin 600000) (q : Fin 128) : MK m ρ c (ix2 a (hi256 q)) = msg2K m ρ c a q := by
  show W4 m ρ c (Proc.devRef .tc (Pipeline.arrRef spec1 7)) _ = _
  rw [W4_arr m ρ c 7]
  refine (RV.arr1_hi (V3 m ρ) c a q).trans ?_
  rw [show V3 m ρ c main_arg2 = am m c main_arg2 from W3_arg m ρ c main_arg2 (nw_of hostOps0_writes _ (by decide)) (by decide) (nw_of hostOps1_writes _ (by decide)),
      show V3 m ρ c main_arg8 = am m c main_arg8 from W3_arg m ρ c main_arg8 (nw_of hostOps0_writes _ (by decide)) (by decide) (nw_of hostOps1_writes _ (by decide)),
      show V3 m ρ c main_arg9 = am m c main_arg9 from W3_arg m ρ c main_arg9 (nw_of hostOps0_writes _ (by decide)) (by decide) (nw_of hostOps1_writes _ (by decide)),
      show V3 m ρ c main_v11 = xsK m ρ c from W3_v11 m ρ c]

/-! ## The scattered sums at the third region's entry -/

theorem agg1K_mat (c : Dev nD) : mat (V5 m ρ c main_v21) = scat (dstInt m c) (msg1K m ρ c) := by
  rw [show V5 m ρ c main_v21 = _ from W5_v21 m ρ c]
  unfold aggK
  rw [KHost.scat_lo]
  exact congrArg (scat (dstInt m c)) (funext fun e => funext fun q => MK_lo RV m ρ c e q)

theorem agg2K_mat (c : Dev nD) : mat (V5 m ρ c main_v22) = scat (dstInt m c) (msg2K m ρ c) := by
  rw [show V5 m ρ c main_v22 = _ from W5_v22 m ρ c]
  unfold aggK
  rw [KHost.scat_hi]
  exact congrArg (scat (dstInt m c)) (funext fun e => funext fun q => MK_hi RV m ρ c e q)

/-! ## Region 2: the node chain -/

/-- The node chain's value, as the specification's function of the argument arrays. -/
abbrev HK (c : Dev nD) : Fin 100000 → Fin 128 → EReal :=
  nodeH (scat (dstInt m c) (msg1K m ρ c)) (scat (dstInt m c) (msg2K m ρ c)) (mat (x1K m ρ c))
    (mat (am m c main_arg10)) (vec (am m c main_arg11)) (mat (am m c main_arg12))
    (mat (am m c main_arg13)) (vec (am m c main_arg14)) (mat (am m c main_arg15))
    (mat (am m c main_arg16)) (vec (am m c main_arg17)) (mat (am m c main_arg18)) (vec (am m c main_arg19))
    (waF (am m c main_arg20)) (wbF (am m c main_arg20)) (vec (am m c main_arg21))
    (layerW (am m c main_arg22)) (layerB (am m c main_arg23))

theorem nodeHV_eq (c : Dev nD) : nodeHV (V5 m ρ) c = HK m ρ c := by
  unfold nodeHV HK
  rw [agg1K_mat RV m ρ c, agg2K_mat RV m ρ c,
      show V5 m ρ c main_v4 = x1K m ρ c from W5_v4 m ρ c,
      show V5 m ρ c main_v23 = _ from W5_v23 m ρ c, show V5 m ρ c main_v24 = _ from W5_v24 m ρ c,
      KHost.wa_mat, KHost.wb_mat]
  rw [show V5 m ρ c main_arg10 = am m c main_arg10 from W5_arg m ρ c main_arg10 (nw_of hostOps0_writes _ (by decide)) (by decide) (nw_of hostOps1_writes _ (by decide)) (by decide) (nw_of hostOps2_writes _ (by decide)),
      show V5 m ρ c main_arg11 = am m c main_arg11 from W5_arg m ρ c main_arg11 (nw_of hostOps0_writes _ (by decide)) (by decide) (nw_of hostOps1_writes _ (by decide)) (by decide) (nw_of hostOps2_writes _ (by decide)),
      show V5 m ρ c main_arg12 = am m c main_arg12 from W5_arg m ρ c main_arg12 (nw_of hostOps0_writes _ (by decide)) (by decide) (nw_of hostOps1_writes _ (by decide)) (by decide) (nw_of hostOps2_writes _ (by decide)),
      show V5 m ρ c main_arg13 = am m c main_arg13 from W5_arg m ρ c main_arg13 (nw_of hostOps0_writes _ (by decide)) (by decide) (nw_of hostOps1_writes _ (by decide)) (by decide) (nw_of hostOps2_writes _ (by decide)),
      show V5 m ρ c main_arg14 = am m c main_arg14 from W5_arg m ρ c main_arg14 (nw_of hostOps0_writes _ (by decide)) (by decide) (nw_of hostOps1_writes _ (by decide)) (by decide) (nw_of hostOps2_writes _ (by decide)),
      show V5 m ρ c main_arg15 = am m c main_arg15 from W5_arg m ρ c main_arg15 (nw_of hostOps0_writes _ (by decide)) (by decide) (nw_of hostOps1_writes _ (by decide)) (by decide) (nw_of hostOps2_writes _ (by decide)),
      show V5 m ρ c main_arg16 = am m c main_arg16 from W5_arg m ρ c main_arg16 (nw_of hostOps0_writes _ (by decide)) (by decide) (nw_of hostOps1_writes _ (by decide)) (by decide) (nw_of hostOps2_writes _ (by decide)),
      show V5 m ρ c main_arg17 = am m c main_arg17 from W5_arg m ρ c main_arg17 (nw_of hostOps0_writes _ (by decide)) (by decide) (nw_of hostOps1_writes _ (by decide)) (by decide) (nw_of hostOps2_writes _ (by decide)),
      show V5 m ρ c main_arg18 = am m c main_arg18 from W5_arg m ρ c main_arg18 (nw_of hostOps0_writes _ (by decide)) (by decide) (nw_of hostOps1_writes _ (by decide)) (by decide) (nw_of hostOps2_writes _ (by decide)),
      show V5 m ρ c main_arg19 = am m c main_arg19 from W5_arg m ρ c main_arg19 (nw_of hostOps0_writes _ (by decide)) (by decide) (nw_of hostOps1_writes _ (by decide)) (by decide) (nw_of hostOps2_writes _ (by decide)),
      show V5 m ρ c main_arg21 = am m c main_arg21 from W5_arg m ρ c main_arg21 (nw_of hostOps0_writes _ (by decide)) (by decide) (nw_of hostOps1_writes _ (by decide)) (by decide) (nw_of hostOps2_writes _ (by decide)),
      show V5 m ρ c main_arg22 = am m c main_arg22 from W5_arg m ρ c main_arg22 (nw_of hostOps0_writes _ (by decide)) (by decide) (nw_of hostOps1_writes _ (by decide)) (by decide) (nw_of hostOps2_writes _ (by decide)),
      show V5 m ρ c main_arg23 = am m c main_arg23 from W5_arg m ρ c main_arg23 (nw_of hostOps0_writes _ (by decide)) (by decide) (nw_of hostOps1_writes _ (by decide)) (by decide) (nw_of hostOps2_writes _ (by decide))]

/-- The node array after the third region. -/
abbrev hK (c : Dev nD) : FVec Ideal S100000x128 .f32 := W6 m ρ c (Proc.devRef .tc main_v25_0)
theorem hK_mat (c : Dev nD) : mat (hK m ρ c) = HK m ρ c := by
  funext p q
  show W6 m ρ c (Proc.devRef .tc (Pipeline.arrRef spec2 18)) (ix2 p q) = _
  rw [W6_arr m ρ c 18, RV.arr2_h (V5 m ρ) c p q, nodeHV_eq RV m ρ c]

/-- The statistics array after the third region: rows 0 and 1 of each tile. -/
abbrev stK (c : Dev nD) : FVec Ideal S400x128 .f32 := W6 m ρ c (Proc.devRef .tc main_v25_1)
theorem stK_sum (c : Dev nD) (t : Fin 50) (q : Fin 128) :
    stK m ρ c (ix2 (⟨t.val * 8, by omega⟩ : Fin 400) q) = ∑ i : Fin 2000, HK m ρ c ⟨t.val * 2000 + i.val, by omega⟩ q := by
  show W6 m ρ c (Proc.devRef .tc (Pipeline.arrRef spec2 19)) _ = _
  rw [W6_arr m ρ c 19, RV.arr2_sum (V5 m ρ) c t q, nodeHV_eq RV m ρ c]
theorem stK_sumsq (c : Dev nD) (t : Fin 50) (q : Fin 128) :
    stK m ρ c (ix2 (⟨t.val * 8 + 1, by omega⟩ : Fin 400) q)
      = ∑ i : Fin 2000, HK m ρ c ⟨t.val * 2000 + i.val, by omega⟩ q * HK m ρ c ⟨t.val * 2000 + i.val, by omega⟩ q := by
  show W6 m ρ c (Proc.devRef .tc (Pipeline.arrRef spec2 19)) _ = _
  rw [W6_arr m ρ c 19, RV.arr2_sumsq (V5 m ρ) c t q, nodeHV_eq RV m ρ c]

/-! ## The column statistics at the last region's entry -/

/-- The column means of the node chain's value, and of its squares. -/
abbrev μK (c : Dev nD) : Fin 128 → EReal := fun q => Ideal.div (colSum (HK m ρ c) q) (Ideal.ofBits .f32 0x47C35000#32)
abbrev μ2K (c : Dev nD) : Fin 128 → EReal :=
  fun q => Ideal.div (colSum (fun p q => HK m ρ c p q * HK m ρ c p q) q) (Ideal.ofBits .f32 0x47C35000#32)

/-- A sum over the 50 tiles of the tiles' sums is the sum over all rows. -/
theorem tiles_sum (f : Fin 100000 → EReal) (g : Fin 50 → EReal)
    (hg : ∀ t : Fin 50, g t = ∑ i : Fin 2000, f ⟨t.val * 2000 + i.val, by omega⟩) : ∑ t, g t = ∑ p, f p := by
  rw [Finset.sum_congr rfl fun t _ => hg t]
  exact (NestMin.sum_blocks 50 2000 100000 (by norm_num) f).symm

theorem mean_vec (c : Dev nD) : vec (V7 m ρ c main_v34) = μK m ρ c := by
  funext q
  show V7 m ρ c main_v34 (ix1 q) = _
  rw [show V7 m ρ c main_v34 = _ from W7_v34 m ρ c]
  refine (KHost.mean0_apply (stK m ρ c) q).trans (congrArg (Ideal.div · _) ?_)
  exact tiles_sum RV (fun p => HK m ρ c p q) _ (fun t => stK_sum RV m ρ c t q)

theorem var_vec (c : Dev nD) : vec (V7 m ρ c main_v42)
    = fun q => μ2K m ρ c q - ((μK m ρ c q * μK m ρ c q) * vec (am m c main_arg26) q)
        * (Ideal.ofBits .f32 0x40000000#32 - vec (am m c main_arg26) q) := by
  funext q
  show V7 m ρ c main_v42 (ix1 q) = _
  rw [show V7 m ρ c main_v42 = _ from W7_v42 m ρ c]
  refine (KHost.var_apply (stK m ρ c) (am m c main_arg26) q).trans ?_
  have e0 : meanOf (tileRow0 (stK m ρ c)) (ix1 q) = μK m ρ c q :=
    (KHost.mean0_apply (stK m ρ c) q).trans (congrArg (Ideal.div · _)
      (tiles_sum RV (fun p => HK m ρ c p q) _ (fun t => stK_sum RV m ρ c t q)))
  have e1 : meanOf (tileRow1 (stK m ρ c)) (ix1 q) = μ2K m ρ c q :=
    (KHost.mean1_apply (stK m ρ c) q).trans (congrArg (Ideal.div · _)
      (tiles_sum RV (fun p => HK m ρ c p q * HK m ρ c p q) _ (fun t => stK_sumsq RV m ρ c t q)))
  rw [e0, e1]

/-! ## Region 3: the result -/

/-- The kernel program's result buffer at the last boundary, at an entry. -/
theorem out_apply (c : Dev nD) (p : Fin 100000) (q : Fin 128) :
    W8 m ρ c (Proc.devRef .tc main_v43) (ix2 p q)
      = lin (normK (HK m ρ c) (μK m ρ c)
            (fun q => μ2K m ρ c q - ((μK m ρ c q * μK m ρ c q) * vec (am m c main_arg26) q)
              * (Ideal.ofBits .f32 0x40000000#32 - vec (am m c main_arg26) q))
            (vec (am m c main_arg26)) (vec (am m c main_arg24)) (vec (am m c main_arg25)) (Ideal.ofBits .f32 0x3727C5AC#32))
          (mat (am m c main_arg27)) (vec (am m c main_arg28)) p q := by
  show W8 m ρ c (Proc.devRef .tc (Pipeline.arrRef spec3 8)) (ix2 p q) = _
  rw [W8_arr m ρ c 8, RV.arr3 (V7 m ρ) c p q, mean_vec RV m ρ c, var_vec RV m ρ c,
      show V7 m ρ c main_v25_0 = hK m ρ c from W7_v25_0 m ρ c, hK_mat RV m ρ c]
  rw [show V7 m ρ c main_arg24 = am m c main_arg24 from W7_arg m ρ c main_arg24 (nw_of hostOps0_writes _ (by decide)) (by decide) (nw_of hostOps1_writes _ (by decide)) (by decide) (nw_of hostOps2_writes _ (by decide)) (by decide) (nw_of hostOps3_writes _ (by decide)),
      show V7 m ρ c main_arg25 = am m c main_arg25 from W7_arg m ρ c main_arg25 (nw_of hostOps0_writes _ (by decide)) (by decide) (nw_of hostOps1_writes _ (by decide)) (by decide) (nw_of hostOps2_writes _ (by decide)) (by decide) (nw_of hostOps3_writes _ (by decide)),
      show V7 m ρ c main_arg26 = am m c main_arg26 from W7_arg m ρ c main_arg26 (nw_of hostOps0_writes _ (by decide)) (by decide) (nw_of hostOps1_writes _ (by decide)) (by decide) (nw_of hostOps2_writes _ (by decide)) (by decide) (nw_of hostOps3_writes _ (by decide)),
      show V7 m ρ c main_arg27 = am m c main_arg27 from W7_arg m ρ c main_arg27 (nw_of hostOps0_writes _ (by decide)) (by decide) (nw_of hostOps1_writes _ (by decide)) (by decide) (nw_of hostOps2_writes _ (by decide)) (by decide) (nw_of hostOps3_writes _ (by decide)),
      show V7 m ρ c main_arg28 = am m c main_arg28 from W7_arg m ρ c main_arg28 (nw_of hostOps0_writes _ (by decide)) (by decide) (nw_of hostOps1_writes _ (by decide)) (by decide) (nw_of hostOps2_writes _ (by decide)) (by decide) (nw_of hostOps3_writes _ (by decide))]

end Cert.KernelIdeal.KVal

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.FinIn.lean ====
/-
  The precondition read back: every entry of every float argument array is a real number.

  The precondition is the conjunction, over the 28 float arguments in their order (the integer index array is not
  tested), of "every entry has absolute value below +∞"; it is all ones on every device.  A conjunction of one-bit
  scalars that is 1 has both conjuncts 1, so each argument's test is 1, and a test that is 1 gives a real number at
  every entry.  The corollaries restate this per argument in the words of the specification: a matrix with real
  entries, a row with real entries, and the three stacked layers of weights and of bias rows.
-/
import proofs.«108244_j21019569947168_2_alg».proof.Defs
import proofs.«108244_j21019569947168_2_alg».proof.Proof.Gen.Pre_finite_inputs
import proofs.«108244_j21019569947168_2_alg».proof.Proof.LibFiniteEntries
import proofs.«108244_j21019569947168_2_alg».proof.Proof.LibRealEntries
import proofs.«108244_j21019569947168_2_alg».proof.Proof.Spec

open scoped BigOperators

noncomputable section

namespace Cert.KernelIdeal.FinIn

open Idealize.ShloMosaic Idealize.SL.Sem Idealize.ShloMosaic.ValueIdx
open Cert.Spec

/-- On device c, every entry of every float argument array is a real number. -/
structure ArgsReal (m : (ℓ : Loc Cert.KernelIdeal.nD Cert.KernelIdeal.τ Cert.KernelIdeal.sig) → Buf (Elt Ideal) ℓ)
    (c : Dev Cert.KernelIdeal.nD) : Prop where
  a0 : ∀ i, RealEntries.IsReal (m ((c.tc : Thread Cert.KernelIdeal.nD Cert.KernelIdeal.τ).loc Cert.KernelIdeal.main_arg0) i)
  a1 : ∀ i, RealEntries.IsReal (m ((c.tc : Thread Cert.KernelIdeal.nD Cert.KernelIdeal.τ).loc Cert.KernelIdeal.main_arg1) i)
  a2 : ∀ i, RealEntries.IsReal (m ((c.tc : Thread Cert.KernelIdeal.nD Cert.KernelIdeal.τ).loc Cert.KernelIdeal.main_arg2) i)
  a4 : ∀ i, RealEntries.IsReal (m ((c.tc : Thread Cert.KernelIdeal.nD Cert.KernelIdeal.τ).loc Cert.KernelIdeal.main_arg4) i)
  a5 : ∀ i, RealEntries.IsReal (m ((c.tc : Thread Cert.KernelIdeal.nD Cert.KernelIdeal.τ).loc Cert.KernelIdeal.main_arg5) i)
  a6 : ∀ i, RealEntries.IsReal (m ((c.tc : Thread Cert.KernelIdeal.nD Cert.KernelIdeal.τ).loc Cert.KernelIdeal.main_arg6) i)
  a7 : ∀ i, RealEntries.IsReal (m ((c.tc : Thread Cert.KernelIdeal.nD Cert.KernelIdeal.τ).loc Cert.KernelIdeal.main_arg7) i)
  a8 : ∀ i, RealEntries.IsReal (m ((c.tc : Thread Cert.KernelIdeal.nD Cert.KernelIdeal.τ).loc Cert.KernelIdeal.main_arg8) i)
  a9 : ∀ i, RealEntries.IsReal (m ((c.tc : Thread Cert.KernelIdeal.nD Cert.KernelIdeal.τ).loc Cert.KernelIdeal.main_arg9) i)
  a10 : ∀ i, RealEntries.IsReal (m ((c.tc : Thread Cert.KernelIdeal.nD Cert.KernelIdeal.τ).loc Cert.KernelIdeal.main_arg10) i)
  a11 : ∀ i, RealEntries.IsReal (m ((c.tc : Thread Cert.KernelIdeal.nD Cert.KernelIdeal.τ).loc Cert.KernelIdeal.main_arg11) i)
  a12 : ∀ i, RealEntries.IsReal (m ((c.tc : Thread Cert.KernelIdeal.nD Cert.KernelIdeal.τ).loc Cert.KernelIdeal.main_arg12) i)
  a13 : ∀ i, RealEntries.IsReal (m ((c.tc : Thread Cert.KernelIdeal.nD Cert.KernelIdeal.τ).loc Cert.KernelIdeal.main_arg13) i)
  a14 : ∀ i, RealEntries.IsReal (m ((c.tc : Thread Cert.KernelIdeal.nD Cert.KernelIdeal.τ).loc Cert.KernelIdeal.main_arg14) i)
  a15 : ∀ i, RealEntries.IsReal (m ((c.tc : Thread Cert.KernelIdeal.nD Cert.KernelIdeal.τ).loc Cert.KernelIdeal.main_arg15) i)
  a16 : ∀ i, RealEntries.IsReal (m ((c.tc : Thread Cert.KernelIdeal.nD Cert.KernelIdeal.τ).loc Cert.KernelIdeal.main_arg16) i)
  a17 : ∀ i, RealEntries.IsReal (m ((c.tc : Thread Cert.KernelIdeal.nD Cert.KernelIdeal.τ).loc Cert.KernelIdeal.main_arg17) i)
  a18 : ∀ i, RealEntries.IsReal (m ((c.tc : Thread Cert.KernelIdeal.nD Cert.KernelIdeal.τ).loc Cert.KernelIdeal.main_arg18) i)
  a19 : ∀ i, RealEntries.IsReal (m ((c.tc : Thread Cert.KernelIdeal.nD Cert.KernelIdeal.τ).loc Cert.KernelIdeal.main_arg19) i)
  a20 : ∀ i, RealEntries.IsReal (m ((c.tc : Thread Cert.KernelIdeal.nD Cert.KernelIdeal.τ).loc Cert.KernelIdeal.main_arg20) i)
  a21 : ∀ i, RealEntries.IsReal (m ((c.tc : Thread Cert.KernelIdeal.nD Cert.KernelIdeal.τ).loc Cert.KernelIdeal.main_arg21) i)
  a22 : ∀ i, RealEntries.IsReal (m ((c.tc : Thread Cert.KernelIdeal.nD Cert.KernelIdeal.τ).loc Cert.KernelIdeal.main_arg22) i)
  a23 : ∀ i, RealEntries.IsReal (m ((c.tc : Thread Cert.KernelIdeal.nD Cert.KernelIdeal.τ).loc Cert.KernelIdeal.main_arg23) i)
  a24 : ∀ i, RealEntries.IsReal (m ((c.tc : Thread Cert.KernelIdeal.nD Cert.KernelIdeal.τ).loc Cert.KernelIdeal.main_arg24) i)
  a25 : ∀ i, RealEntries.IsReal (m ((c.tc : Thread Cert.KernelIdeal.nD Cert.KernelIdeal.τ).loc Cert.KernelIdeal.main_arg25) i)
  a26 : ∀ i, RealEntries.IsReal (m ((c.tc : Thread Cert.KernelIdeal.nD Cert.KernelIdeal.τ).loc Cert.KernelIdeal.main_arg26) i)
  a27 : ∀ i, RealEntries.IsReal (m ((c.tc : Thread Cert.KernelIdeal.nD Cert.KernelIdeal.τ).loc Cert.KernelIdeal.main_arg27) i)
  a28 : ∀ i, RealEntries.IsReal (m ((c.tc : Thread Cert.KernelIdeal.nD Cert.KernelIdeal.τ).loc Cert.KernelIdeal.main_arg28) i)

/-- The precondition gives real entries: split the conjunction from its last test to its first, then read each test. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : ArgsReal m c := by
  have h := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at h
  obtain ⟨h, t28⟩ := FiniteEntries.and_split h
  obtain ⟨h, t27⟩ := FiniteEntries.and_split h
  obtain ⟨h, t26⟩ := FiniteEntries.and_split h
  obtain ⟨h, t25⟩ := FiniteEntries.and_split h
  obtain ⟨h, t24⟩ := FiniteEntries.and_split h
  obtain ⟨h, t23⟩ := FiniteEntries.and_split h
  obtain ⟨h, t22⟩ := FiniteEntries.and_split h
  obtain ⟨h, t21⟩ := FiniteEntries.and_split h
  obtain ⟨h, t20⟩ := FiniteEntries.and_split h
  obtain ⟨h, t19⟩ := FiniteEntries.and_split h
  obtain ⟨h, t18⟩ := FiniteEntries.and_split h
  obtain ⟨h, t17⟩ := FiniteEntries.and_split h
  obtain ⟨h, t16⟩ := FiniteEntries.and_split h
  obtain ⟨h, t15⟩ := FiniteEntries.and_split h
  obtain ⟨h, t14⟩ := FiniteEntries.and_split h
  obtain ⟨h, t13⟩ := FiniteEntries.and_split h
  obtain ⟨h, t12⟩ := FiniteEntries.and_split h
  obtain ⟨h, t11⟩ := FiniteEntries.and_split h
  obtain ⟨h, t10⟩ := FiniteEntries.and_split h
  obtain ⟨h, t9⟩ := FiniteEntries.and_split h
  obtain ⟨h, t8⟩ := FiniteEntries.and_split h
  obtain ⟨h, t7⟩ := FiniteEntries.and_split h
  obtain ⟨h, t6⟩ := FiniteEntries.and_split h
  obtain ⟨h, t5⟩ := FiniteEntries.and_split h
  obtain ⟨h, t4⟩ := FiniteEntries.and_split h
  obtain ⟨h, t2⟩ := FiniteEntries.and_split h
  obtain ⟨t0, t1⟩ := FiniteEntries.and_split h
  exact
    { a0 := fun i => FiniteEntries.entries_real _ _ _ _ t0 i
      a1 := fun i => FiniteEntries.entries_real _ _ _ _ t1 i
      a2 := fun i => FiniteEntries.entries_real _ _ _ _ t2 i
      a4 := fun i => FiniteEntries.entries_real _ _ _ _ t4 i
      a5 := fun i => FiniteEntries.entries_real _ _ _ _ t5 i
      a6 := fun i => FiniteEntries.entries_real _ _ _ _ t6 i
      a7 := fun i => FiniteEntries.entries_real _ _ _ _ t7 i
      a8 := fun i => FiniteEntries.entries_real _ _ _ _ t8 i
      a9 := fun i => FiniteEntries.entries_real _ _ _ _ t9 i
      a10 := fun i => FiniteEntries.entries_real _ _ _ _ t10 i
      a11 := fun i => FiniteEntries.entries_real _ _ _ _ t11 i
      a12 := fun i => FiniteEntries.entries_real _ _ _ _ t12 i
      a13 := fun i => FiniteEntries.entries_real _ _ _ _ t13 i
      a14 := fun i => FiniteEntries.entries_real _ _ _ _ t14 i
      a15 := fun i => FiniteEntries.entries_real _ _ _ _ t15 i
      a16 := fun i => FiniteEntries.entries_real _ _ _ _ t16 i
      a17 := fun i => FiniteEntries.entries_real _ _ _ _ t17 i
      a18 := fun i => FiniteEntries.entries_real _ _ _ _ t18 i
      a19 := fun i => FiniteEntries.entries_real _ _ _ _ t19 i
      a20 := fun i => FiniteEntries.entries_real _ _ _ _ t20 i
      a21 := fun i => FiniteEntries.entries_real _ _ _ _ t21 i
      a22 := fun i => FiniteEntries.entries_real _ _ _ _ t22 i
      a23 := fun i => FiniteEntries.entries_real _ _ _ _ t23 i
      a24 := fun i => FiniteEntries.entries_real _ _ _ _ t24 i
      a25 := fun i => FiniteEntries.entries_real _ _ _ _ t25 i
      a26 := fun i => FiniteEntries.entries_real _ _ _ _ t26 i
      a27 := fun i => FiniteEntries.entries_real _ _ _ _ t27 i
      a28 := fun i => FiniteEntries.entries_real _ _ _ _ t28 i }

variable {m : (ℓ : Loc Cert.KernelIdeal.nD Cert.KernelIdeal.τ Cert.KernelIdeal.sig) → Buf (Elt Ideal) ℓ}
  {c : Dev Cert.KernelIdeal.nD}

/-! ## In the specification's words -/

/-- Argument 0, a matrix, has real entries. -/
theorem ArgsReal.arg0 (h : ArgsReal m c) : AllReal (mat (m ((c.tc : Thread Cert.KernelIdeal.nD Cert.KernelIdeal.τ).loc Cert.KernelIdeal.main_arg0))) :=
  fun p q => h.a0 (ix2 p q)

/-- Argument 1, a matrix, has real entries. -/
theorem ArgsReal.arg1 (h : ArgsReal m c) : AllReal (mat (m ((c.tc : Thread Cert.KernelIdeal.nD Cert.KernelIdeal.τ).loc Cert.KernelIdeal.main_arg1))) :=
  fun p q => h.a1 (ix2 p q)

/-- Argument 2, a matrix, has real entries. -/
theorem ArgsReal.arg2 (h : ArgsReal m c) : AllReal (mat (m ((c.tc : Thread Cert.KernelIdeal.nD Cert.KernelIdeal.τ).loc Cert.KernelIdeal.main_arg2))) :=
  fun p q => h.a2 (ix2 p q)

/-- Argument 4, a matrix, has real entries. -/
theorem ArgsReal.arg4 (h : ArgsReal m c) : AllReal (mat (m ((c.tc : Thread Cert.KernelIdeal.nD Cert.KernelIdeal.τ).loc Cert.KernelIdeal.main_arg4))) :=
  fun p q => h.a4 (ix2 p q)

/-- Argument 5, a row, has real entries. -/
theorem ArgsReal.arg5 (h : ArgsReal m c) : RowReal (vec (m ((c.tc : Thread Cert.KernelIdeal.nD Cert.KernelIdeal.τ).loc Cert.KernelIdeal.main_arg5))) :=
  fun q => h.a5 (ix1 q)

/-- Argument 6, a matrix, has real entries. -/
theorem ArgsReal.arg6 (h : ArgsReal m c) : AllReal (mat (m ((c.tc : Thread Cert.KernelIdeal.nD Cert.KernelIdeal.τ).loc Cert.KernelIdeal.main_arg6))) :=
  fun p q => h.a6 (ix2 p q)

/-- Argument 7, a matrix, has real entries. -/
theorem ArgsReal.arg7 (h : ArgsReal m c) : AllReal (mat (m ((c.tc : Thread Cert.KernelIdeal.nD Cert.KernelIdeal.τ).loc Cert.KernelIdeal.main_arg7))) :=
  fun p q => h.a7 (ix2 p q)

/-- Argument 8, a matrix, has real entries. -/
theorem ArgsReal.arg8 (h : ArgsReal m c) : AllReal (mat (m ((c.tc : Thread Cert.KernelIdeal.nD Cert.KernelIdeal.τ).loc Cert.KernelIdeal.main_arg8))) :=
  fun p q => h.a8 (ix2 p q)

/-- Argument 9, a matrix, has real entries. -/
theorem ArgsReal.arg9 (h : ArgsReal m c) : AllReal (mat (m ((c.tc : Thread Cert.KernelIdeal.nD Cert.KernelIdeal.τ).loc Cert.KernelIdeal.main_arg9))) :=
  fun p q => h.a9 (ix2 p q)

/-- Argument 10, a matrix, has real entries. -/
theorem ArgsReal.arg10 (h : ArgsReal m c) : AllReal (mat (m ((c.tc : Thread Cert.KernelIdeal.nD Cert.KernelIdeal.τ).loc Cert.KernelIdeal.main_arg10))) :=
  fun p q => h.a10 (ix2 p q)

/-- Argument 11, a row, has real entries. -/
theorem ArgsReal.arg11 (h : ArgsReal m c) : RowReal (vec (m ((c.tc : Thread Cert.KernelIdeal.nD Cert.KernelIdeal.τ).loc Cert.KernelIdeal.main_arg11))) :=
  fun q => h.a11 (ix1 q)

/-- Argument 12, a matrix, has real entries. -/
theorem ArgsReal.arg12 (h : ArgsReal m c) : AllReal (mat (m ((c.tc : Thread Cert.KernelIdeal.nD Cert.KernelIdeal.τ).loc Cert.KernelIdeal.main_arg12))) :=
  fun p q => h.a12 (ix2 p q)

/-- Argument 13, a matrix, has real entries. -/
theorem ArgsReal.arg13 (h : ArgsReal m c) : AllReal (mat (m ((c.tc : Thread Cert.KernelIdeal.nD Cert.KernelIdeal.τ).loc Cert.KernelIdeal.main_arg13))) :=
  fun p q => h.a13 (ix2 p q)

/-- Argument 14, a row, has real entries. -/
theorem ArgsReal.arg14 (h : ArgsReal m c) : RowReal (vec (m ((c.tc : Thread Cert.KernelIdeal.nD Cert.KernelIdeal.τ).loc Cert.KernelIdeal.main_arg14))) :=
  fun q => h.a14 (ix1 q)

/-- Argument 15, a matrix, has real entries. -/
theorem ArgsReal.arg15 (h : ArgsReal m c) : AllReal (mat (m ((c.tc : Thread Cert.KernelIdeal.nD Cert.KernelIdeal.τ).loc Cert.KernelIdeal.main_arg15))) :=
  fun p q => h.a15 (ix2 p q)

/-- Argument 16, a matrix, has real entries. -/
theorem ArgsReal.arg16 (h : ArgsReal m c) : AllReal (mat (m ((c.tc : Thread Cert.KernelIdeal.nD Cert.KernelIdeal.τ).loc Cert.KernelIdeal.main_arg16))) :=
  fun p q => h.a16 (ix2 p q)

/-- Argument 17, a row, has real entries. -/
theorem ArgsReal.arg17 (h : ArgsReal m c) : RowReal (vec (m ((c.tc : Thread Cert.KernelIdeal.nD Cert.KernelIdeal.τ).loc Cert.KernelIdeal.main_arg17))) :=
  fun q => h.a17 (ix1 q)

/-- Argument 18, a matrix, has real entries. -/
theorem ArgsReal.arg18 (h : ArgsReal m c) : AllReal (mat (m ((c.tc : Thread Cert.KernelIdeal.nD Cert.KernelIdeal.τ).loc Cert.KernelIdeal.main_arg18))) :=
  fun p q => h.a18 (ix2 p q)

/-- Argument 19, a row, has real entries. -/
theorem ArgsReal.arg19 (h : ArgsReal m c) : RowReal (vec (m ((c.tc : Thread Cert.KernelIdeal.nD Cert.KernelIdeal.τ).loc Cert.KernelIdeal.main_arg19))) :=
  fun q => h.a19 (ix1 q)

/-- Argument 20, a matrix, has real entries. -/
theorem ArgsReal.arg20 (h : ArgsReal m c) : AllReal (mat (m ((c.tc : Thread Cert.KernelIdeal.nD Cert.KernelIdeal.τ).loc Cert.KernelIdeal.main_arg20))) :=
  fun p q => h.a20 (ix2 p q)

/-- Argument 21, a row, has real entries. -/
theorem ArgsReal.arg21 (h : ArgsReal m c) : RowReal (vec (m ((c.tc : Thread Cert.KernelIdeal.nD Cert.KernelIdeal.τ).loc Cert.KernelIdeal.main_arg21))) :=
  fun q => h.a21 (ix1 q)

/-- Each of the three stacked square weights has real entries. -/
theorem ArgsReal.arg22 (h : ArgsReal m c) : ∀ i, AllReal (layerW (m ((c.tc : Thread Cert.KernelIdeal.nD Cert.KernelIdeal.τ).loc Cert.KernelIdeal.main_arg22)) i) :=
  fun i p q => h.a22 (ix3 i p q)

/-- Each of the three stacked bias rows has real entries. -/
theorem ArgsReal.arg23 (h : ArgsReal m c) : ∀ i, RowReal (layerB (m ((c.tc : Thread Cert.KernelIdeal.nD Cert.KernelIdeal.τ).loc Cert.KernelIdeal.main_arg23)) i) :=
  fun i q => h.a23 (ix2 i q)

/-- The three stacked bias rows, as one matrix, have real entries. -/
theorem ArgsReal.arg23_mat (h : ArgsReal m c) : AllReal (mat (m ((c.tc : Thread Cert.KernelIdeal.nD Cert.KernelIdeal.τ).loc Cert.KernelIdeal.main_arg23))) :=
  fun p q => h.a23 (ix2 p q)

/-- Argument 24, a row, has real entries. -/
theorem ArgsReal.arg24 (h : ArgsReal m c) : RowReal (vec (m ((c.tc : Thread Cert.KernelIdeal.nD Cert.KernelIdeal.τ).loc Cert.KernelIdeal.main_arg24))) :=
  fun q => h.a24 (ix1 q)

/-- Argument 25, a row, has real entries. -/
theorem ArgsReal.arg25 (h : ArgsReal m c) : RowReal (vec (m ((c.tc : Thread Cert.KernelIdeal.nD Cert.KernelIdeal.τ).loc Cert.KernelIdeal.main_arg25))) :=
  fun q => h.a25 (ix1 q)

/-- Argument 26, a row, has real entries. -/
theorem ArgsReal.arg26 (h : ArgsReal m c) : RowReal (vec (m ((c.tc : Thread Cert.KernelIdeal.nD Cert.KernelIdeal.τ).loc Cert.KernelIdeal.main_arg26))) :=
  fun q => h.a26 (ix1 q)

/-- Argument 27, a matrix, has real entries. -/
theorem ArgsReal.arg27 (h : ArgsReal m c) : AllReal (mat (m ((c.tc : Thread Cert.KernelIdeal.nD Cert.KernelIdeal.τ).loc Cert.KernelIdeal.main_arg27))) :=
  fun p q => h.a27 (ix2 p q)

/-- Argument 28, a row, has real entries. -/
theorem ArgsReal.arg28 (h : ArgsReal m c) : RowReal (vec (m ((c.tc : Thread Cert.KernelIdeal.nD Cert.KernelIdeal.τ).loc Cert.KernelIdeal.main_arg28))) :=
  fun q => h.a28 (ix1 q)

end Cert.KernelIdeal.FinIn

end
-- ==== Proof.Math.lean ====
/-
  Extended-real algebra for the message-passing block: every stage of the specification maps arrays of real numbers
  to arrays of real numbers, and on real arrays the two arrangements of the column normalisation agree.
-/
import proofs.«108244_j21019569947168_2_alg».proof.Proof.Spec
import proofs.«108244_j21019569947168_2_alg».proof.Proof.LibRealEntries
import Idealize.ShloMosaic.PureOps.Ideal.Laws

open scoped BigOperators

noncomputable section

namespace Cert.Spec

open Idealize.ShloMosaic Idealize.ShloMosaic.RealEntries

variable {n k b h e f : ℕ}

/-! ## Real arrays stay real -/

theorem isReal_sw {y : EReal} (hy : IsReal y) : IsReal (sw y) := by
  obtain ⟨r, rfl⟩ := hy
  unfold sw
  rw [Ideal.logistic_coe]
  exact (isReal_coe r).mul (isReal_coe _)

theorem allReal_dense {X : Fin n → Fin k → EReal} {W : Fin b → Fin k → EReal} (hX : AllReal X) (hW : AllReal W) :
    AllReal (dense X W) := by
  intro p q
  show IsReal (∑ j, X p j * W q j)
  exact isReal_sum_univ _ fun j => (hX p j).mul (hW q j)

theorem allReal_lin {X : Fin n → Fin k → EReal} {W : Fin b → Fin k → EReal} {β : Fin b → EReal}
    (hX : AllReal X) (hW : AllReal W) (hβ : RowReal β) : AllReal (lin X W β) := by
  intro p q
  show IsReal (dense X W p q + β q)
  exact (allReal_dense hX hW p q).add (hβ q)

/-- `sw` entrywise keeps an array real. -/
theorem allReal_act {Y : Fin n → Fin b → EReal} (hY : AllReal Y) : AllReal (act Y) :=
  fun p q => isReal_sw (hY p q)

theorem allReal_proj {X : Fin n → Fin k → EReal} {W : Fin b → Fin k → EReal} {β : Fin b → EReal}
    (hX : AllReal X) (hW : AllReal W) (hβ : RowReal β) : AllReal (proj X W β) := by
  exact allReal_act (allReal_lin hX hW hβ)

theorem allReal_msg {feat : Fin e → Fin f → EReal} {W1 : Fin h → Fin f → EReal} {W2 : Fin h → Fin h → EReal}
    {xs : Fin e → Fin h → EReal} (hf : AllReal feat) (h1 : AllReal W1) (h2 : AllReal W2) (hx : AllReal xs) :
    AllReal (msg feat W1 W2 xs) := by
  intro a q
  show IsReal (dense (dense feat W1) W2 a q * xs a q)
  exact (allReal_dense (allReal_dense hf h1) h2 a q).mul (hx a q)

/-- A convolution branch of real arrays is a real array. -/
theorem allReal_branch {agg x : Fin n → Fin h → EReal} {Rel : Fin h → Fin h → EReal} {relb : Fin h → EReal}
    {Root : Fin h → Fin h → EReal} {L : Fin h → Fin h → EReal} {lb : Fin h → EReal}
    (ha : AllReal agg) (hx : AllReal x) (hR : AllReal Rel) (hrb : RowReal relb) (hQ : AllReal Root)
    (hL : AllReal L) (hlb : RowReal lb) : AllReal (branch agg x Rel relb Root L lb) := by
  refine allReal_act (allReal_lin (fun p q => ?_) hL hlb)
  exact ((allReal_dense ha hR p q).add (hrb q)).add (allReal_dense hx hQ p q)

/-- The combination of two real branches with a real skip is a real array. -/
theorem allReal_comb {h1 h2 x : Fin n → Fin h → EReal} {Wa Wb : Fin h → Fin h → EReal} {cb : Fin h → EReal}
    (hh1 : AllReal h1) (hh2 : AllReal h2) (hx : AllReal x) (hWa : AllReal Wa) (hWb : AllReal Wb)
    (hcb : RowReal cb) : AllReal (comb h1 h2 x Wa Wb cb) := by
  intro p q
  show IsReal (((dense h1 Wa p q + dense h2 Wb p q) + cb q) + x p q)
  exact (((allReal_dense hh1 hWa p q).add (allReal_dense hh2 hWb p q)).add (hcb q)).add (hx p q)

/-- A residual layer of a real array is a real array. -/
theorem allReal_resid {z : Fin n → Fin h → EReal} {W : Fin h → Fin h → EReal} {β : Fin h → EReal}
    (hz : AllReal z) (hW : AllReal W) (hβ : RowReal β) : AllReal (resid z W β) := by
  intro p q
  show IsReal (sw (lin z W β p q) + z p q)
  exact (isReal_sw (allReal_lin hz hW hβ p q)).add (hz p q)

theorem allReal_nodeH {agg1 agg2 x1 : Fin n → Fin h → EReal}
    {rel1 : Fin h → Fin h → EReal} {rel1b : Fin h → EReal} {root1 : Fin h → Fin h → EReal}
    {rel2 : Fin h → Fin h → EReal} {rel2b : Fin h → EReal} {root2 : Fin h → Fin h → EReal}
    {l1 : Fin h → Fin h → EReal} {l1b : Fin h → EReal} {l2 : Fin h → Fin h → EReal} {l2b : Fin h → EReal}
    {wa wb : Fin h → Fin h → EReal} {cb : Fin h → EReal}
    {W : Fin 3 → Fin h → Fin h → EReal} {β : Fin 3 → Fin h → EReal}
    (ha1 : AllReal agg1) (ha2 : AllReal agg2) (hx : AllReal x1)
    (hr1 : AllReal rel1) (hr1b : RowReal rel1b) (hq1 : AllReal root1)
    (hr2 : AllReal rel2) (hr2b : RowReal rel2b) (hq2 : AllReal root2)
    (hl1 : AllReal l1) (hl1b : RowReal l1b) (hl2 : AllReal l2) (hl2b : RowReal l2b)
    (hwa : AllReal wa) (hwb : AllReal wb) (hcb : RowReal cb)
    (hW : ∀ i, AllReal (W i)) (hβ : ∀ i, RowReal (β i)) :
    AllReal (nodeH agg1 agg2 x1 rel1 rel1b root1 rel2 rel2b root2 l1 l1b l2 l2b wa wb cb W β) := by
  unfold nodeH
  exact allReal_resid (allReal_resid (allReal_resid
    (allReal_comb (allReal_branch ha1 hx hr1 hr1b hq1 hl1 hl1b) (allReal_branch ha2 hx hr2 hr2b hq2 hl2 hl2b)
      hx hwa hwb hcb) (hW 0) (hβ 0)) (hW 1) (hβ 1)) (hW 2) (hβ 2)

/-! ## The literals -/

theorem ofBits_1e5 : Ideal.ofBits .f32 0x47C35000#32 = ((100000 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eps_pos : IsPosReal (Ideal.ofBits .f32 0x3727C5AC#32) := by
  have hv : Ideal.ofBits .f32 0x3727C5AC#32 = (((10995116 : ℝ) * (2 : ℝ) ^ (-40 : ℤ) : ℝ) : EReal) := by
    simp [Ideal.ofBits, Ideal.ieee, -EReal.coe_mul]
  exact ⟨_, by positivity, hv⟩

/-! ## The two arrangements of the normalisation agree on real arrays -/

/-- A quotient of a real by a nonzero real, among the extended reals, is the real quotient. -/
theorem div_real (a N : ℝ) (hN : N ≠ 0) : Ideal.div (a : EReal) (N : EReal) = ((a / N : ℝ) : EReal) := by
  rw [Ideal.div_coe hN, ← EReal.coe_mul, mul_one_div]

/-- The reciprocal square root of a positive real x is the real (√x)⁻¹. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- The square root of a nonnegative real x is the real √x. -/
theorem sqrt_nonneg_real {x : ℝ} (hx : 0 ≤ x) : Ideal.sqrt (x : EReal) = ((Real.sqrt x : ℝ) : EReal) := by
  rw [Ideal.sqrt_coe, if_neg (not_lt.mpr hx)]

/-- In ℝ, with μ = (Σ x)/n: the mean of squares minus μ²·s·(2 − s) is the mean of the squares of x − μ·s.
    Expanding the square, Σ (x − μs)² = Σ x² − 2μs·Σ x + n·(μs)², and Σ x = n·μ. -/
theorem var_real (hn : 0 < n) (x : Fin n → ℝ) (s : ℝ) :
    (∑ p, x p * x p) / ((n : ℕ) : ℝ) - (((∑ p, x p) / ((n : ℕ) : ℝ) * ((∑ p, x p) / ((n : ℕ) : ℝ))) * s) * (2 - s)
      = (∑ p, (x p - (∑ p, x p) / ((n : ℕ) : ℝ) * s) * (x p - (∑ p, x p) / ((n : ℕ) : ℝ) * s)) / ((n : ℕ) : ℝ) := by
  have hn' : ((n : ℕ) : ℝ) ≠ 0 := Nat.cast_ne_zero.mpr hn.ne'
  generalize hS : (∑ p, x p) = S
  have hexp : ∀ c : ℝ, (∑ p, (x p - c) * (x p - c)) = (∑ p, x p * x p) - 2 * c * S + (n : ℝ) * (c * c) := by
    intro c
    have hpt : ∀ p, (x p - c) * (x p - c) = x p * x p - 2 * c * x p + c * c := fun p => by ring
    simp only [hpt]
    rw [Finset.sum_add_distrib, Finset.sum_sub_distrib, ← Finset.mul_sum, hS, Finset.sum_const, Finset.card_univ,
      Fintype.card_fin, nsmul_eq_mul]
  rw [hexp]
  field_simp
  ring

/-- The mean of squares is nonnegative. -/
theorem meanSq_nonneg (x : Fin n → ℝ) : 0 ≤ (∑ p, x p * x p) / ((n : ℕ) : ℝ) :=
  div_nonneg (Finset.sum_nonneg fun p _ => mul_self_nonneg (x p)) (Nat.cast_nonneg n)

/-- With μ the column means, the variance as "mean of squares minus μ²·s·(2 − s)" equals the mean of the squares of
    the centred entries z − μ·s, and a product with the reciprocal square root of a positive real equals the quotient
    by its square root: so the two normalised arrays are equal. `Nn` is the number of rows as an extended real. -/
theorem norm_agree (hn : 0 < n) (z : Fin n → Fin h → EReal) (hz : AllReal z) (s w β : Fin h → EReal)
    (hs : RowReal s) (hw : RowReal w) (hβ : RowReal β) (ε : EReal) (hε : IsPosReal ε)
    (two : EReal) (h2 : two = ((2 : ℝ) : EReal)) (Nn : EReal) (hN : Nn = (((n : ℕ) : ℝ) : EReal)) :
    normK z (fun q => Ideal.div (colSum z q) Nn)
        (fun q => Ideal.div (colSum (fun p q => z p q * z p q) q) Nn
                    - ((Ideal.div (colSum z q) Nn * Ideal.div (colSum z q) Nn) * s q) * (two - s q))
        s w β ε
      = normR (fun p q => z p q - Ideal.div (colSum z q) Nn * s q)
          (fun q => Ideal.div (colSum (fun p q => (z p q - Ideal.div (colSum z q) Nn * s q)
                                                  * (z p q - Ideal.div (colSum z q) Nn * s q)) q) Nn)
          w β ε := by
  subst h2 hN
  obtain ⟨εr, hεr, rfl⟩ := hε
  have hz' : ∀ p q, ∃ r : ℝ, z p q = (r : EReal) := hz
  choose zr hzr using hz'
  have hn' : ((n : ℕ) : ℝ) ≠ 0 := Nat.cast_ne_zero.mpr hn.ne'
  funext p j
  obtain ⟨sj, hsj⟩ := hs j
  obtain ⟨wj, hwj⟩ := hw j
  obtain ⟨βj, hβj⟩ := hβ j
  simp only [normK, normR, colSum, hzr, hsj, hwj, hβj]
  simp only [← EReal.coe_mul, ← EReal.coe_sub, ← EReal.coe_add, ← coe_sum, div_real _ _ hn']
  rw [var_real hn (fun k => zr k j) sj]
  have hV0 : 0 ≤ (∑ k, (zr k j - (∑ k, zr k j) / ((n : ℕ) : ℝ) * sj) * (zr k j - (∑ k, zr k j) / ((n : ℕ) : ℝ) * sj))
      / ((n : ℕ) : ℝ) := meanSq_nonneg fun k => zr k j - (∑ k, zr k j) / ((n : ℕ) : ℝ) * sj
  generalize (∑ k, (zr k j - (∑ k, zr k j) / ((n : ℕ) : ℝ) * sj) * (zr k j - (∑ k, zr k j) / ((n : ℕ) : ℝ) * sj))
      / ((n : ℕ) : ℝ) = V at hV0 ⊢
  have hpos : 0 < V + εr := add_pos_of_nonneg_of_pos hV0 hεr
  rw [rsqrt_pos hpos, sqrt_nonneg_real hpos.le, div_real _ _ (Real.sqrt_pos.mpr hpos).ne', ← EReal.coe_mul,
    ← div_eq_mul_inv]

end Cert.Spec

end
-- ==== Proof.KReal.lean ====
/-
  On finite inputs the node chain's value is an array of real numbers.

  Every float argument array has real entries.  The projected node array is sw of a product of real matrices plus a
  real row, so it is real; each gathered source row is a row of it; the two edge messages are products of real
  matrices times real entries; a scattered sum of real rows is real; the two halves of a real weight, and each of the
  three stacked layers, are real; and the node chain (branches, combination, residual layers) of real arrays is real.
-/
import proofs.«108244_j21019569947168_2_alg».proof.Proof.KVal
import proofs.«108244_j21019569947168_2_alg».proof.Proof.FinIn
import proofs.«108244_j21019569947168_2_alg».proof.Proof.Math
import proofs.«108244_j21019569947168_2_alg».proof.Proof.Spec2
import proofs.«108244_j21019569947168_2_alg».proof.Proof.LibRowScatter

set_option maxRecDepth 16384

open scoped BigOperators

noncomputable section

namespace Cert.KernelIdeal.KReal

open Idealize.ShloMosaic Idealize.ShloMosaic.TcCoe Idealize.SL.Sem Idealize.ShloMosaic.ValueIdx
open Idealize.ShloMosaic.RealEntries
open Cert.KernelIdeal Cert.KernelIdeal.Gen Cert.Spec

/-- The projected node array is real: sw of a product of real matrices plus a real row. -/
theorem x1K_real (RV : KVal.RegionValues) (m : (ℓ : Loc nD τ sig) → Buf (Elt Ideal) ℓ) (ρ : Dev nD → PrngReg) (c : Dev nD)
    (h : FinIn.ArgsReal m c) : AllReal (mat (KVal.x1K m ρ c)) := by
  rw [KVal.x1K_mat RV m ρ c]
  exact allReal_proj h.arg0 h.arg4 h.arg5

/-- Each gathered source row is a row of the projected node array (the index clamped into range). -/
theorem xsK_apply (m : (ℓ : Loc nD τ sig) → Buf (Elt Ideal) ℓ) (ρ : Dev nD → PrngReg) (c : Dev nD)
    (e : Fin 600000) (q : Fin 128) :
    KVal.xsK m ρ c (ix2 e q)
      = KVal.x1K m ρ c (ix2 (RowTake.clampRow 100000 (by norm_num) (KVal.srcI m c (ix2 e (0 : Fin 1))).toInt) q) :=
  RowScatter.rowGather_apply (by norm_num) (gather_S100000x128_S600000x1_S600000x128_1_0_n_n_0_1_1128).wf (KVal.x1K m ρ c) (KVal.srcI m c) e q

/-- The gathered source rows are real. -/
theorem xsK_real (RV : KVal.RegionValues) (m : (ℓ : Loc nD τ sig) → Buf (Elt Ideal) ℓ) (ρ : Dev nD → PrngReg) (c : Dev nD)
    (h : FinIn.ArgsReal m c) : AllReal (mat (KVal.xsK m ρ c)) := fun e q => by
  show IsReal (KVal.xsK m ρ c (ix2 e q))
  rw [xsK_apply m ρ c e q]
  exact x1K_real RV m ρ c h _ q

/-- The two edge messages are real. -/
theorem msg1K_real (RV : KVal.RegionValues) (m : (ℓ : Loc nD τ sig) → Buf (Elt Ideal) ℓ) (ρ : Dev nD → PrngReg) (c : Dev nD)
    (h : FinIn.ArgsReal m c) : AllReal (KVal.msg1K m ρ c) :=
  allReal_msg h.arg1 h.arg6 h.arg7 (xsK_real RV m ρ c h)

theorem msg2K_real (RV : KVal.RegionValues) (m : (ℓ : Loc nD τ sig) → Buf (Elt Ideal) ℓ) (ρ : Dev nD → PrngReg) (c : Dev nD)
    (h : FinIn.ArgsReal m c) : AllReal (KVal.msg2K m ρ c) :=
  allReal_msg h.arg2 h.arg8 h.arg9 (xsK_real RV m ρ c h)

/-- The two halves of the combining weight are real. -/
theorem wa_real (m : (ℓ : Loc nD τ sig) → Buf (Elt Ideal) ℓ) (c : Dev nD)
    (h : FinIn.ArgsReal m c) : AllReal (waF (KVal.am m c main_arg20)) :=
  fun q j => h.a20 (ix2 q (lo256 j))

theorem wb_real (m : (ℓ : Loc nD τ sig) → Buf (Elt Ideal) ℓ) (c : Dev nD)
    (h : FinIn.ArgsReal m c) : AllReal (wbF (KVal.am m c main_arg20)) :=
  fun q j => h.a20 (ix2 q (hi256 j))

/-- On finite inputs the node chain's value is an array of real numbers. -/
theorem HK_real (RV : KVal.RegionValues) (m : (ℓ : Loc nD τ sig) → Buf (Elt Ideal) ℓ) (ρ : Dev nD → PrngReg) (c : Dev nD)
    (h : FinIn.ArgsReal m c) : AllReal (KVal.HK m ρ c) :=
  allReal_nodeH (allReal_scat (msg1K_real RV m ρ c h)) (allReal_scat (msg2K_real RV m ρ c h)) (x1K_real RV m ρ c h)
    h.arg10 h.arg11 h.arg12 h.arg13 h.arg14 h.arg15 h.arg16 h.arg17 h.arg18 h.arg19
    (wa_real m c h) (wb_real m c h) h.arg21 h.arg22 h.arg23

/-- The three rows the last step reads (the mean scale, the norm weight, the norm bias) are real. -/
theorem arg26_real (m : (ℓ : Loc nD τ sig) → Buf (Elt Ideal) ℓ) (c : Dev nD)
    (h : FinIn.ArgsReal m c) : RowReal (vec (KVal.am m c main_arg26)) := h.arg26
theorem arg24_real (m : (ℓ : Loc nD τ sig) → Buf (Elt Ideal) ℓ) (c : Dev nD)
    (h : FinIn.ArgsReal m c) : RowReal (vec (KVal.am m c main_arg24)) := h.arg24
theorem arg25_real (m : (ℓ : Loc nD τ sig) → Buf (Elt Ideal) ℓ) (c : Dev nD)
    (h : FinIn.ArgsReal m c) : RowReal (vec (KVal.am m c main_arg25)) := h.arg25

end Cert.KernelIdeal.KReal

end
-- ==== Proof.LibSelfLoopSum.lean ====
/-
  A degree-normalised neighbourhood sum with a self-loop, in its two arrangements.

  Node `n` has degree `deg n = (number of messages arriving at n) + 1` and weight `a = deg^(-1/2)`.  One
  arrangement scales every arriving message `v j` by the product of its source's weight `w j` and its
  destination's weight, sums, and adds the node's own value times `1 / deg`; the other scales messages by the
  source's weight only, adds the node's own value scaled by its weight, and multiplies the whole by the
  destination's weight afterwards.  On the extended reals the two agree for summands of any kind, infinite ones
  included, because the weight is a nonnegative real: such a factor distributes over sums, and
  `deg^(-1/2) · deg^(-1/2) = 1 / deg` for a real `deg > 0`.
-/
import Idealize.ShloMosaic.PureOps.Ideal
import Idealize.ShloMosaic.PureOps.Ideal.Laws

noncomputable section

namespace Idealize.ShloMosaic.SelfLoopSum

open Idealize.ShloMosaic

/-- The binary32 word `0x3F800000` denotes the real `1`. -/
theorem ofBits_one_f32 : Ideal.ofBits .f32 0x3F800000#32 = 1 := by
  simp [Ideal.ofBits, Ideal.ieee, -EReal.coe_mul]
  norm_num

/-- A sum of ones is the number of its terms. -/
theorem sum_ones {ι : Type*} (s : Finset ι) : ∑ _j ∈ s, (1 : EReal) = ((s.card : ℝ) : EReal) := by
  classical
  induction s using Finset.induction_on with
  | empty => simp
  | insert j s hj ih =>
    rw [Finset.sum_insert hj, ih, Finset.card_insert_of_notMem hj]
    push_cast
    rw [add_comm]

/-- Counting arrivals from zero and adding one gives a real degree, at least one. -/
theorem degree_eq {ι : Type*} (s : Finset ι) :
    (0 + ∑ _j ∈ s, (1 : EReal)) + 1 = (((s.card : ℝ) + 1 : ℝ) : EReal) := by
  rw [zero_add, sum_ones]; rfl

/-- At a positive real `r` the weight `r^(-1/2)` is a nonnegative real, and its square is `1 / r`. -/
theorem rsqrt_pos (r : ℝ) (hr : 0 < r) :
    0 ≤ Ideal.rsqrt (r : EReal) ∧ Ideal.rsqrt (r : EReal) ≠ ⊤
      ∧ Ideal.rsqrt (r : EReal) * Ideal.rsqrt (r : EReal) = Ideal.div 1 (r : EReal) := by
  have h2 : ¬ r < 0 := not_lt.mpr hr.le
  have h3 : r ≠ 0 := hr.ne'
  have e : Ideal.rsqrt (r : EReal) = (((Real.sqrt r)⁻¹ : ℝ) : EReal) := by
    rw [Ideal.rsqrt_coe, if_neg h2, if_neg h3]
  rw [e]
  refine ⟨?_, EReal.coe_ne_top _, ?_⟩
  · exact_mod_cast inv_nonneg.mpr (Real.sqrt_nonneg r)
  · rw [Ideal.div_coe h3, one_mul, ← EReal.coe_mul, ← mul_inv, Real.mul_self_sqrt hr.le, one_div]

/-- The two arrangements agree: `a` the destination's weight (nonnegative, finite), `v j` message `j`'s
    payload, `w j` its source's weight, `wd j` its destination's weight (which is `a` for every message
    of this destination), `x` the node's own value, `q = a · a` the self-loop's weight, `b` the bias. -/
theorem scaled_eq {ι : Type*} (s : Finset ι) (a : EReal) (h0 : 0 ≤ a) (ht : a ≠ ⊤) (v w wd : ι → EReal)
    (hwd : ∀ j ∈ s, wd j = a) (x q b : EReal) (hq : a * a = q) :
    a * ((0 + ∑ j ∈ s, v j * w j) + x * a) + b = ((0 + ∑ j ∈ s, v j * (w j * wd j)) + x * q) + b := by
  classical
  have hsum : a * ∑ j ∈ s, v j * w j = ∑ j ∈ s, v j * (w j * wd j) := by
    induction s using Finset.induction_on with
    | empty => simp
    | insert j s hj ih =>
      rw [Finset.sum_insert hj, Finset.sum_insert hj, EReal.left_distrib_of_nonneg_of_ne_top h0 ht,
        ih (fun k hk => hwd k (Finset.mem_insert_of_mem hk)), hwd j (Finset.mem_insert_self j s),
        mul_comm a (v j * w j), mul_assoc]
  rw [zero_add, zero_add, EReal.left_distrib_of_nonneg_of_ne_top h0 ht, hsum, mul_left_comm a x a, hq]

end Idealize.ShloMosaic.SelfLoopSum

end
-- ==== Proof.LibHostLayer.lean ====
/-
  A dense layer on the host, read at an entry, on the extended reals.

  * `dotT_apply`: a `dot_general` of an [a,k] array with the TRANSPOSE of a [b,k] weight is, at (p,q), the sum over
    j of A(p,j)·W(q,j).
  * `bias_apply`: a flat [b] bias laid as a [1,b] row and broadcast down the rows reads, at (p,q), its entry q.
  * `swish_apply`: y·(1/(1 + exp(−y))) spelled with broadcast ones is y·σ(y) entrywise, σ the logistic function.
  * `matmulT_apply`, `kbias_apply`: the same two readings for a kernel's `tpu.matmul` into a zero accumulator and its
    `shape_cast` + `broadcast` of a bias.
-/
import Idealize.ShloMosaic.Lib.ValueIdx
import Idealize.ShloMosaic.Lib.ValueLayout
import Idealize.ShloMosaic.PureOps.Ideal.Laws
import proofs.«108244_j21019569947168_2_alg».proof.Proof.LibPlainDot
import proofs.«108244_j21019569947168_2_alg».proof.Proof.LibRowBroadcast
import proofs.«108244_j21019569947168_2_alg».proof.Proof.LibHostKeepdims
import proofs.«108244_j21019569947168_2_alg».proof.Proof.LibSelfLoopSum

open scoped BigOperators

noncomputable section

namespace Idealize.ShloMosaic.HostLayer

open Idealize.ShloMosaic Idealize.ShloMosaic.ValueIdx

variable {a k b : ℕ}

/-- A host product with a transposed weight at an entry. -/
theorem dotT_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (A : FVec Ideal ⟨2, ![a, k]⟩ .f32) (W : FVec Ideal ⟨2, ![b, k]⟩ .f32)
    (tr : (⟨2, ![b, k]⟩ : Shape).Transposes [1, 0] ⟨2, ![k, b]⟩) (p : Fin a) (q : Fin b) :
    Host.dotGeneral D prec A (transpose ⟨2, ![k, b]⟩ [1, 0] W tr) (ix2 p q) = ∑ j : Fin k, A (ix2 p j) * W (ix2 q j) := by
  rw [PlainDot.dotGeneral_apply D prec hr hs hl0 hl1 hr0 hr1]
  exact Finset.sum_congr rfl fun j _ => by rw [ValueIdx.transpose_ix2_apply]

/-- A kernel product with a transposed weight, into the zero accumulator, at an entry. -/
theorem matmulT_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    {φ₁ φ₂ : FTy} (A : FVec Ideal ⟨2, ![a, k]⟩ φ₁) (W : FVec Ideal ⟨2, ![b, k]⟩ φ₂)
    (tr : (⟨2, ![b, k]⟩ : Shape).Transposes [1, 0] ⟨2, ![k, b]⟩) (p : Fin a) (q : Fin b) :
    matmul D prec A (transpose ⟨2, ![k, b]⟩ [1, 0] W tr) (constant (F := Ideal) ⟨2, ![a, b]⟩ .f32 0x00000000#32) (ix2 p q)
      = ∑ j : Fin k, A (ix2 p j) * W (ix2 q j) := by
  rw [PlainDot.matmul_zero_apply D prec hr hs hl0 hl1 hr0 hr1]
  exact Finset.sum_congr rfl fun j _ => by rw [ValueIdx.transpose_ix2_apply]

/-- A flat bias laid as a row and broadcast down the rows, on the host. -/
theorem bias_apply (β : (⟨1, ![b]⟩ : Shape).Idx → EReal)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 β) (ix2 p q)
      = β (ix1 q) := by
  rw [RowBroadcast.broadcastInDim_row_apply _ rfl rfl, RowBroadcast.broadcastInDim_flat_apply _ rfl]

/-- A flat bias cast to a row and broadcast down the rows, in a kernel. -/
theorem kbias_apply (β : (⟨1, ![b]⟩ : Shape).Idx → EReal)
    (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ β h1) h2 (ix2 p q) = β (ix1 q) := by
  rw [RowBroadcast.broadcastTo_row_apply, RowBroadcast.shapeCast_flat_apply]

/-- y·(1/(1 + exp(−y))) with the ones broadcast from the scalar word 0x3F800000 is y·σ(y). -/
theorem swish_apply {s : Shape} (y : FVec Ideal s .f32)
    (hb : (⟨0, ![]⟩ : Shape).BroadcastsInDim s (![] : Fin 0 → Fin s.rank)) (i : s.Idx) :
    mulf y (Host.divf (broadcastInDim s (![] : Fin 0 → Fin s.rank) hb (constant (F := Ideal) ⟨0, ![]⟩ .f32 0x3F800000#32))
      (addf (broadcastInDim s (![] : Fin 0 → Fin s.rank) hb (constant (F := Ideal) ⟨0, ![]⟩ .f32 0x3F800000#32))
        (Host.exp (Host.negf y)))) i
      = y i * Ideal.logistic (y i) := by
  show y i * Ideal.div _ (_ + Ideal.exp (-(y i))) = _
  rw [HostKeepdims.bcast_scalar_apply]
  show y i * Ideal.div (Ideal.ofBits .f32 0x3F800000#32) (Ideal.ofBits .f32 0x3F800000#32 + Ideal.exp (-(y i))) = _
  rw [SelfLoopSum.ofBits_one_f32]
  rfl

end Idealize.ShloMosaic.HostLayer

end
-- ==== Proof.RefRead.lean ====
/-
  The reference program's stages read at an entry: each named stage of its run is, entry by entry, the specification's
  function of the argument arrays (`Cert.Spec`).  A host product with a transposed weight is a sum over the shared index,
  a bias a row added to every row, and the expanded form 1/(1 + exp(−y)) is the logistic function.
-/
import proofs.«108244_j21019569947168_2_alg».proof.Proof.Gen.ReferenceIdeal.Run
import proofs.«108244_j21019569947168_2_alg».proof.Proof.Spec
import proofs.«108244_j21019569947168_2_alg».proof.Proof.LibHostLayer
import proofs.«108244_j21019569947168_2_alg».proof.Proof.LibRealMatmul
import Idealize.ShloMosaic.Lib.ValueIdx
import Idealize.ShloMosaic.Lib.ValueLayout
import Idealize.ShloMosaic.Lib.Pipeline.Value
import Idealize.ShloMosaic.PureOps.Ideal.Laws

set_option maxRecDepth 16384

open scoped BigOperators

noncomputable section

namespace Cert.ReferenceIdeal.RefRead

open Idealize.ShloMosaic Idealize.ShloMosaic.TcCoe Idealize.SL.Sem Idealize.ShloMosaic.ValueIdx
open Cert.ReferenceIdeal Cert.ReferenceIdeal.Gen Cert.ReferenceIdeal.Value Cert.Spec

variable (V0 : Valuation τ sig (Elt Ideal))

/-! ## Vocabulary: the host's spelling of a dense layer over [100000, 128] -/

/-- A [128,128] weight transposed. -/
abbrev T (w : FVec Ideal S128x128 .f32) : FVec Ideal S128x128 .f32 :=
  transpose S128x128 [1, 0] w transposes_S128x128_S128x128_1_0
/-- A flat bias as an [N,128] array of equal rows. -/
abbrev rowB (β : FVec Ideal S128 .f32) : FVec Ideal S100000x128 .f32 :=
  broadcastInDim S100000x128 ![0, 1] bcast_S1x128_S100000x128_0_1 (broadcastInDim S1x128 ![1] bcast_S128_S1x128_1 β)
/-- A·Wᵀ over [N,128]x[128,128]. -/
abbrev dN (A : FVec Ideal S100000x128 .f32) (W : FVec Ideal S128x128 .f32) : FVec Ideal S100000x128 .f32 :=
  Host.dotGeneral dot_S100000x128_S128x128_S100000x128_1_0_0_1_n_n none A (T W)
/-- A·Wᵀ over [E,128]x[128,128]. -/
abbrev dE (A : FVec Ideal S600000x128 .f32) (W : FVec Ideal S128x128 .f32) : FVec Ideal S600000x128 .f32 :=
  Host.dotGeneral dot_S600000x128_S128x128_S600000x128_1_0_0_1_n_n none A (T W)
/-- A·Wᵀ over [E,32]x[32,128]. -/
abbrev dE32 (A : FVec Ideal S600000x32 .f32) (W : FVec Ideal S128x32 .f32) : FVec Ideal S600000x128 .f32 :=
  Host.dotGeneral dot_S600000x32_S32x128_S600000x128_1_0_0_1_n_n none A (transpose S32x128 [1, 0] W transposes_S128x32_S32x128_1_0)
/-- A·Wᵀ + β. -/
abbrev layer (A : FVec Ideal S100000x128 .f32) (W : FVec Ideal S128x128 .f32) (β : FVec Ideal S128 .f32) :
    FVec Ideal S100000x128 .f32 := addf (dN A W) (rowB β)
/-- y·(1/(1+exp(−y))) as the host spells it. -/
abbrev hsw (y : FVec Ideal S100000x128 .f32) : FVec Ideal S100000x128 .f32 :=
  mulf y (Host.divf (broadcastInDim S100000x128 ![] bcast_S_S100000x128 (constant S_ .f32 0x3F800000#32))
    (addf (broadcastInDim S100000x128 ![] bcast_S_S100000x128 (constant S_ .f32 0x3F800000#32)) (Host.exp (Host.negf y))))

theorem dN_apply (A : FVec Ideal S100000x128 .f32) (W : FVec Ideal S128x128 .f32) (p : Fin 100000) (q : Fin 128) :
    dN A W (ix2 p q) = dense (mat A) (mat W) p q :=
  HostLayer.dotT_apply dot_S100000x128_S128x128_S100000x128_1_0_0_1_n_n none rfl rfl
    (left_row_of% dot_S100000x128_S128x128_S100000x128_1_0_0_1_n_n)
    (fun i q => dot_S100000x128_S128x128_S100000x128_1_0_0_1_n_n.lhsIdx_val_of_single rfl i q)
    (fun i q => dot_S100000x128_S128x128_S100000x128_1_0_0_1_n_n.rhsIdx_val_of_single rfl i q)
    (right_col_of% dot_S100000x128_S128x128_S100000x128_1_0_0_1_n_n) A W _ p q

theorem dE_apply (A : FVec Ideal S600000x128 .f32) (W : FVec Ideal S128x128 .f32) (p : Fin 600000) (q : Fin 128) :
    dE A W (ix2 p q) = dense (mat A) (mat W) p q :=
  HostLayer.dotT_apply dot_S600000x128_S128x128_S600000x128_1_0_0_1_n_n none rfl rfl
    (left_row_of% dot_S600000x128_S128x128_S600000x128_1_0_0_1_n_n)
    (fun i q => dot_S600000x128_S128x128_S600000x128_1_0_0_1_n_n.lhsIdx_val_of_single rfl i q)
    (fun i q => dot_S600000x128_S128x128_S600000x128_1_0_0_1_n_n.rhsIdx_val_of_single rfl i q)
    (right_col_of% dot_S600000x128_S128x128_S600000x128_1_0_0_1_n_n) A W _ p q

theorem dE32_apply (A : FVec Ideal S600000x32 .f32) (W : FVec Ideal S128x32 .f32) (p : Fin 600000) (q : Fin 128) :
    dE32 A W (ix2 p q) = dense (mat A) (mat W) p q :=
  HostLayer.dotT_apply dot_S600000x32_S32x128_S600000x128_1_0_0_1_n_n none rfl rfl
    (left_row_of% dot_S600000x32_S32x128_S600000x128_1_0_0_1_n_n)
    (fun i q => dot_S600000x32_S32x128_S600000x128_1_0_0_1_n_n.lhsIdx_val_of_single rfl i q)
    (fun i q => dot_S600000x32_S32x128_S600000x128_1_0_0_1_n_n.rhsIdx_val_of_single rfl i q)
    (right_col_of% dot_S600000x32_S32x128_S600000x128_1_0_0_1_n_n) A W _ p q

theorem rowB_apply (β : FVec Ideal S128 .f32) (p : Fin 100000) (q : Fin 128) : rowB β (ix2 p q) = vec β q :=
  HostLayer.bias_apply β _ _ p q

theorem layer_apply (A : FVec Ideal S100000x128 .f32) (W : FVec Ideal S128x128 .f32) (β : FVec Ideal S128 .f32)
    (p : Fin 100000) (q : Fin 128) : layer A W β (ix2 p q) = lin (mat A) (mat W) (vec β) p q := by
  show dN A W (ix2 p q) + rowB β (ix2 p q) = _
  rw [dN_apply, rowB_apply]
  rfl

theorem hsw_apply (y : FVec Ideal S100000x128 .f32) (i : S100000x128.Idx) : hsw y i = sw (y i) :=
  HostLayer.swish_apply y _ i

/-! ## The stages of the reference run, named -/

abbrev a0 : FVec Ideal S100000x128 .f32 := V0 (Proc.devRef .tc main_arg0)
abbrev a1 : FVec Ideal S600000x128 .f32 := V0 (Proc.devRef .tc main_arg1)
abbrev a2 : FVec Ideal S600000x32 .f32 := V0 (Proc.devRef .tc main_arg2)
abbrev a4 : FVec Ideal S128x128 .f32 := V0 (Proc.devRef .tc main_arg4)
abbrev a5 : FVec Ideal S128 .f32 := V0 (Proc.devRef .tc main_arg5)
abbrev a6 : FVec Ideal S128x128 .f32 := V0 (Proc.devRef .tc main_arg6)
abbrev a7 : FVec Ideal S128x128 .f32 := V0 (Proc.devRef .tc main_arg7)
abbrev a8 : FVec Ideal S128x32 .f32 := V0 (Proc.devRef .tc main_arg8)
abbrev a9 : FVec Ideal S128x128 .f32 := V0 (Proc.devRef .tc main_arg9)
abbrev a10 : FVec Ideal S128x128 .f32 := V0 (Proc.devRef .tc main_arg10)
abbrev a11 : FVec Ideal S128 .f32 := V0 (Proc.devRef .tc main_arg11)
abbrev a12 : FVec Ideal S128x128 .f32 := V0 (Proc.devRef .tc main_arg12)
abbrev a13 : FVec Ideal S128x128 .f32 := V0 (Proc.devRef .tc main_arg13)
abbrev a14 : FVec Ideal S128 .f32 := V0 (Proc.devRef .tc main_arg14)
abbrev a15 : FVec Ideal S128x128 .f32 := V0 (Proc.devRef .tc main_arg15)
abbrev a16 : FVec Ideal S128x128 .f32 := V0 (Proc.devRef .tc main_arg16)
abbrev a17 : FVec Ideal S128 .f32 := V0 (Proc.devRef .tc main_arg17)
abbrev a18 : FVec Ideal S128x128 .f32 := V0 (Proc.devRef .tc main_arg18)
abbrev a19 : FVec Ideal S128 .f32 := V0 (Proc.devRef .tc main_arg19)
abbrev a20 : FVec Ideal S128x256 .f32 := V0 (Proc.devRef .tc main_arg20)
abbrev a21 : FVec Ideal S128 .f32 := V0 (Proc.devRef .tc main_arg21)
abbrev a22 : FVec Ideal S3x128x128 .f32 := V0 (Proc.devRef .tc main_arg22)
abbrev a23 : FVec Ideal S3x128 .f32 := V0 (Proc.devRef .tc main_arg23)
abbrev a24 : FVec Ideal S128 .f32 := V0 (Proc.devRef .tc main_arg24)
abbrev a25 : FVec Ideal S128 .f32 := V0 (Proc.devRef .tc main_arg25)
abbrev a26 : FVec Ideal S128 .f32 := V0 (Proc.devRef .tc main_arg26)
abbrev a27 : FVec Ideal S128x128 .f32 := V0 (Proc.devRef .tc main_arg27)
abbrev a28 : FVec Ideal S128 .f32 := V0 (Proc.devRef .tc main_arg28)

/-- The source and destination index columns. -/
abbrev idxSrcR : IVec S600000x1 32 := (broadcastInDim S600000x1 ![0] bcast_S600000_S600000x1_0 (select (cmpi .slt (res_main_v1 V0) (broadcastInDim S600000 ![] bcast_S_S600000 (constantI S_ 32 0#32))) (addi (res_main_v1 V0) (broadcastInDim S600000 ![] bcast_S_S600000 (constantI S_ 32 100000#32))) (res_main_v1 V0)))
abbrev idxDstR : IVec S600000x1 32 := (broadcastInDim S600000x1 ![0] bcast_S600000_S600000x1_0 (select (cmpi .slt (res_main_v3 V0) (broadcastInDim S600000 ![] bcast_S_S600000 (constantI S_ 32 0#32))) (addi (res_main_v3 V0) (broadcastInDim S600000 ![] bcast_S_S600000 (constantI S_ 32 100000#32))) (res_main_v3 V0)))
/-- The gathered source rows. -/
abbrev xsR : FVec Ideal S600000x128 .f32 :=
  Host.gather gather_S100000x128_S600000x1_S600000x128_1_0_n_n_0_1_1128 (res_main_v15 V0) (idxSrcR V0)
/-- The two edge messages. -/
abbrev m1R : FVec Ideal S600000x128 .f32 := mulf (dE (dE (a1 V0) (a6 V0)) (a7 V0)) (xsR V0)
abbrev m2R : FVec Ideal S600000x128 .f32 := mulf (dE (dE32 (a2 V0) (a8 V0)) (a9 V0)) (xsR V0)
abbrev zerosN : FVec Ideal S100000x128 .f32 :=
  broadcastInDim S100000x128 ![] bcast_S_S100000x128 (constant S_ .f32 0x00000000#32)
/-- The scattered sums. -/
abbrev agg1R : FVec Ideal S100000x128 .f32 :=
  Host.scatterAdd scatter_S100000x128_S600000x1_S600000x128_1_0_0_1 zerosN (idxDstR V0) (m1R V0)
abbrev agg2R : FVec Ideal S100000x128 .f32 :=
  Host.scatterAdd scatter_S100000x128_S600000x1_S600000x128_1_0_0_1 zerosN (idxDstR V0) (m2R V0)
/-- The convolutions before the last linear layer of each branch. -/
abbrev pre1R : FVec Ideal S100000x128 .f32 :=
  addf (addf (dN (agg1R V0) (a10 V0)) (rowB (a11 V0))) (dN (res_main_v15 V0) (a12 V0))
abbrev pre2R : FVec Ideal S100000x128 .f32 :=
  addf (addf (dN (agg2R V0) (a13 V0)) (rowB (a14 V0))) (dN (res_main_v15 V0) (a15 V0))
/-- The three residual weights and biases. -/
abbrev lw0 : FVec Ideal S128x128 .f32 := (shapeCast _ (extractStridedSlice S1x128x128 ![0, 0, 0] (V0 (Proc.devRef .tc main_arg22)) slices_S3x128x128_S1x128x128_0_0_0) shapeCasts_S1x128x128_S128x128)
abbrev lw1 : FVec Ideal S128x128 .f32 := (shapeCast _ (extractStridedSlice S1x128x128 ![1, 0, 0] (V0 (Proc.devRef .tc main_arg22)) slices_S3x128x128_S1x128x128_1_0_0) shapeCasts_S1x128x128_S128x128)
abbrev lw2 : FVec Ideal S128x128 .f32 := (shapeCast _ (extractStridedSlice S1x128x128 ![2, 0, 0] (V0 (Proc.devRef .tc main_arg22)) slices_S3x128x128_S1x128x128_2_0_0) shapeCasts_S1x128x128_S128x128)
abbrev lb0 : FVec Ideal S128 .f32 := (shapeCast _ (extractStridedSlice S1x128 ![0, 0] (V0 (Proc.devRef .tc main_arg23)) slices_S3x128_S1x128_0_0) shapeCasts_S1x128_S128)
abbrev lb1 : FVec Ideal S128 .f32 := (shapeCast _ (extractStridedSlice S1x128 ![1, 0] (V0 (Proc.devRef .tc main_arg23)) slices_S3x128_S1x128_1_0) shapeCasts_S1x128_S128)
abbrev lb2 : FVec Ideal S128 .f32 := (shapeCast _ (extractStridedSlice S1x128 ![2, 0] (V0 (Proc.devRef .tc main_arg23)) slices_S3x128_S1x128_2_0) shapeCasts_S1x128_S128)

theorem v8_eq : res_main_v8 V0 = layer (a0 V0) (a4 V0) (a5 V0) := rfl
theorem v15_eq : res_main_v15 V0 = hsw (res_main_v8 V0) := rfl
theorem v52_eq : res_main_v52 V0 = layer (pre1R V0) (a16 V0) (a17 V0) := rfl
theorem v88_eq : res_main_v88 V0 = layer (pre2R V0) (a18 V0) (a19 V0) := rfl
theorem v102_eq : res_main_v102 V0
    = addf (addf (Host.dotGeneral dot_S100000x256_S256x128_S100000x128_1_0_0_1_n_n none
        (concatenate S100000x256 1 [⟨S100000x128, hsw (res_main_v52 V0)⟩, ⟨S100000x128, hsw (res_main_v88 V0)⟩]
          concatenates_S100000x128_S100000x128_S100000x256_d1)
        (transpose S256x128 [1, 0] (a20 V0) transposes_S128x256_S256x128_1_0)) (rowB (a21 V0))) (res_main_v15 V0) := rfl
theorem v111_eq : res_main_v111 V0 = layer (res_main_v102 V0) (lw0 V0) (lb0 V0) := rfl
theorem v119_eq : res_main_v119 V0 = addf (hsw (res_main_v111 V0)) (res_main_v102 V0) := rfl
theorem v128_eq : res_main_v128 V0 = layer (res_main_v119 V0) (lw1 V0) (lb1 V0) := rfl
theorem v136_eq : res_main_v136 V0 = addf (hsw (res_main_v128 V0)) (res_main_v119 V0) := rfl
theorem v145_eq : res_main_v145 V0 = layer (res_main_v136 V0) (lw2 V0) (lb2 V0) := rfl
theorem v153_eq : res_main_v153 V0 = addf (hsw (res_main_v145 V0)) (res_main_v136 V0) := rfl

/-- The column means. -/
abbrev bc128 (x : FVec Ideal S_ .f32) : FVec Ideal S128 .f32 := broadcastInDim S128 ![] bcast_S_S128 x
abbrev colMean (z : FVec Ideal S100000x128 .f32) : FVec Ideal S128 .f32 :=
  Host.divf (Host.reduceAdd z (constant S_ .f32 0x00000000#32) reducesTo_S100000x128_S128_d0 h_S_)
    (bc128 (constant S_ .f32 0x47C35000#32))
theorem v160_eq : res_main_v160 V0
    = subf (res_main_v153 V0) (rowB (mulf (colMean (res_main_v153 V0)) (a26 V0))) := rfl
/-- The result. -/
abbrev outR : FVec Ideal S100000x128 .f32 :=
  layer (addf (Host.divf (mulf (rowB (a24 V0)) (res_main_v160 V0))
      (rowB (Host.sqrt (addf (colMean (mulf (res_main_v160 V0) (res_main_v160 V0))) (bc128 (constant S_ .f32 0x3727C5AC#32))))))
    (rowB (a25 V0))) (a27 V0) (a28 V0)

end Cert.ReferenceIdeal.RefRead

end
-- ==== Proof.RefStages.lean ====
/-
  The first stages of the reference run at an entry: the projected node array, the two edge messages and the two
  convolution branches, as the specification's functions of the stage before.
-/
import proofs.«108244_j21019569947168_2_alg».proof.Proof.RefRead

set_option maxRecDepth 16384

open scoped BigOperators

noncomputable section

namespace Cert.ReferenceIdeal.RefRead

open Idealize.ShloMosaic Idealize.ShloMosaic.TcCoe Idealize.SL.Sem Idealize.ShloMosaic.ValueIdx
open Cert.ReferenceIdeal Cert.ReferenceIdeal.Gen Cert.ReferenceIdeal.Value Cert.Spec

variable (V0 : Valuation τ sig (Elt Ideal))

/-! ## The stages at an entry -/

theorem mat_dN (A : FVec Ideal S100000x128 .f32) (W : FVec Ideal S128x128 .f32) : mat (dN A W) = dense (mat A) (mat W) :=
  funext fun p => funext fun q => dN_apply A W p q
theorem mat_dE (A : FVec Ideal S600000x128 .f32) (W : FVec Ideal S128x128 .f32) : mat (dE A W) = dense (mat A) (mat W) :=
  funext fun p => funext fun q => dE_apply A W p q
theorem mat_dE32 (A : FVec Ideal S600000x32 .f32) (W : FVec Ideal S128x32 .f32) : mat (dE32 A W) = dense (mat A) (mat W) :=
  funext fun p => funext fun q => dE32_apply A W p q
theorem mat_layer (A : FVec Ideal S100000x128 .f32) (W : FVec Ideal S128x128 .f32) (β : FVec Ideal S128 .f32) :
    mat (layer A W β) = lin (mat A) (mat W) (vec β) :=
  funext fun p => funext fun q => layer_apply A W β p q
theorem mat_hsw (y : FVec Ideal S100000x128 .f32) : mat (hsw y) = act (mat y) :=
  funext fun p => funext fun q => hsw_apply y (ix2 p q)

/-! Each stage first over arbitrary arrays, then at the run's. -/

/-- A layer through `y ↦ y·σ(y)`. -/
theorem proj_mat (A : FVec Ideal S100000x128 .f32) (W : FVec Ideal S128x128 .f32) (β : FVec Ideal S128 .f32) :
    mat (hsw (layer A W β)) = proj (mat A) (mat W) (vec β) := by
  funext p q
  show hsw (layer A W β) (ix2 p q) = sw (lin (mat A) (mat W) (vec β) p q)
  rw [hsw_apply, layer_apply]

/-- An edge message: two stacked products times the gathered rows. -/
theorem msg_mat (F1 : FVec Ideal S600000x128 .f32) (W1 W2 : FVec Ideal S128x128 .f32) (xs : FVec Ideal S600000x128 .f32) :
    mat (mulf (dE (dE F1 W1) W2) xs) = msg (mat F1) (mat W1) (mat W2) (mat xs) := by
  funext e q
  show dE (dE F1 W1) W2 (ix2 e q) * xs (ix2 e q) = dense (dense (mat F1) (mat W1)) (mat W2) e q * xs (ix2 e q)
  rw [dE_apply, mat_dE]

theorem msg32_mat (F1 : FVec Ideal S600000x32 .f32) (W1 : FVec Ideal S128x32 .f32) (W2 : FVec Ideal S128x128 .f32)
    (xs : FVec Ideal S600000x128 .f32) :
    mat (mulf (dE (dE32 F1 W1) W2) xs) = msg (mat F1) (mat W1) (mat W2) (mat xs) := by
  funext e q
  show dE (dE32 F1 W1) W2 (ix2 e q) * xs (ix2 e q) = dense (dense (mat F1) (mat W1)) (mat W2) e q * xs (ix2 e q)
  rw [dE_apply, mat_dE32]

/-- One convolution branch. -/
theorem branch_mat (A X : FVec Ideal S100000x128 .f32) (Rel : FVec Ideal S128x128 .f32) (relb : FVec Ideal S128 .f32)
    (Root L : FVec Ideal S128x128 .f32) (lb : FVec Ideal S128 .f32) :
    mat (hsw (layer (addf (addf (dN A Rel) (rowB relb)) (dN X Root)) L lb))
      = branch (mat A) (mat X) (mat Rel) (vec relb) (mat Root) (mat L) (vec lb) := by
  have e : mat (addf (addf (dN A Rel) (rowB relb)) (dN X Root))
      = fun p q => (dense (mat A) (mat Rel) p q + vec relb q) + dense (mat X) (mat Root) p q := by
    funext p q
    show (dN A Rel (ix2 p q) + rowB relb (ix2 p q)) + dN X Root (ix2 p q) = _
    rw [dN_apply, rowB_apply, dN_apply]
  funext p q
  show hsw (layer (addf (addf (dN A Rel) (rowB relb)) (dN X Root)) L lb) (ix2 p q)
    = sw (lin (fun p q => (dense (mat A) (mat Rel) p q + vec relb q) + dense (mat X) (mat Root) p q) (mat L) (vec lb) p q)
  rw [hsw_apply, layer_apply, e]

/-- The projected node array. -/
theorem x1R_mat : mat (res_main_v15 V0) = proj (mat (a0 V0)) (mat (a4 V0)) (vec (a5 V0)) :=
  (congrArg mat ((v15_eq V0).trans (congrArg hsw (v8_eq V0)))).trans (proj_mat (a0 V0) (a4 V0) (a5 V0))

/-- The two edge messages. -/
theorem m1R_mat : mat (m1R V0) = msg (mat (a1 V0)) (mat (a6 V0)) (mat (a7 V0)) (mat (xsR V0)) :=
  msg_mat (a1 V0) (a6 V0) (a7 V0) (xsR V0)
theorem m2R_mat : mat (m2R V0) = msg (mat (a2 V0)) (mat (a8 V0)) (mat (a9 V0)) (mat (xsR V0)) :=
  msg32_mat (a2 V0) (a8 V0) (a9 V0) (xsR V0)

/-- The two branches. -/
theorem h1R_mat : mat (hsw (res_main_v52 V0))
    = branch (mat (agg1R V0)) (mat (res_main_v15 V0)) (mat (a10 V0)) (vec (a11 V0)) (mat (a12 V0)) (mat (a16 V0)) (vec (a17 V0)) :=
  (congrArg (fun y => mat (hsw y)) (v52_eq V0)).trans
    (branch_mat (agg1R V0) (res_main_v15 V0) (a10 V0) (a11 V0) (a12 V0) (a16 V0) (a17 V0))
theorem h2R_mat : mat (hsw (res_main_v88 V0))
    = branch (mat (agg2R V0)) (mat (res_main_v15 V0)) (mat (a13 V0)) (vec (a14 V0)) (mat (a15 V0)) (mat (a18 V0)) (vec (a19 V0)) :=
  (congrArg (fun y => mat (hsw y)) (v88_eq V0)).trans
    (branch_mat (agg2R V0) (res_main_v15 V0) (a13 V0) (a14 V0) (a15 V0) (a18 V0) (a19 V0))

end Cert.ReferenceIdeal.RefRead

end
-- ==== Proof.RefComb.lean ====
/-
  The reference's combination layer at an entry: the product of the concatenated [N, 256] array with the transposed
  [128, 256] weight is the sum of the two products over 128 columns each.
-/
import proofs.«108244_j21019569947168_2_alg».proof.Proof.RefRead
import proofs.«108244_j21019569947168_2_alg».proof.Proof.Spec2

set_option maxRecDepth 16384

open scoped BigOperators

noncomputable section

namespace Cert.ReferenceIdeal.RefRead

open Idealize.ShloMosaic Idealize.ShloMosaic.TcCoe Idealize.SL.Sem Idealize.ShloMosaic.ValueIdx
open Cert.ReferenceIdeal Cert.ReferenceIdeal.Gen Cert.ReferenceIdeal.Value Cert.Spec

variable (V0 : Valuation τ sig (Elt Ideal))

/-- A sum over 256 indices in two halves. -/
theorem sum256 (f : Fin 256 → EReal) :
    ∑ j, f j = ∑ j : Fin 128, f ⟨j.val, by omega⟩ + ∑ j : Fin 128, f ⟨j.val + 128, by omega⟩ := by
  rw [Fin.sum_univ_add (M := EReal) (a := 128) (b := 128) f]
  refine congrArg₂ (· + ·) (Finset.sum_congr rfl fun j _ => congrArg f (Fin.ext ?_))
    (Finset.sum_congr rfl fun j _ => congrArg f (Fin.ext ?_))
  · rfl
  · show 128 + j.val = j.val + 128
    omega

/-- Two [N, 128] arrays joined along the columns read, at a column below 128, the first array there. -/
theorem cat_lo (h1 h2 : FVec Ideal S100000x128 .f32) (p : Fin 100000) (j : Fin 128) :
    concatenate S100000x256 1 [⟨S100000x128, h1⟩, ⟨S100000x128, h2⟩] concatenates_S100000x128_S100000x128_S100000x256_d1
        (ix2 p (lo256 j)) = h1 (ix2 p j) :=
  concatenate_pair_apply_left (t := S100000x256) (s₁ := S100000x128) (s₂ := S100000x128) (1 : Fin 2) h1 h2 concatenates_S100000x128_S100000x128_S100000x256_d1
    (ix2 p (lo256 j)) rfl (ix2 p j) (fun b => by match b with | ⟨0, _⟩ => rfl | ⟨1, _⟩ => rfl)

/-- … and, at column j + 128, the second array at column j. -/
theorem cat_hi (h1 h2 : FVec Ideal S100000x128 .f32) (p : Fin 100000) (j : Fin 128) :
    concatenate S100000x256 1 [⟨S100000x128, h1⟩, ⟨S100000x128, h2⟩] concatenates_S100000x128_S100000x128_S100000x256_d1
        (ix2 p (hi256 j)) = h2 (ix2 p j) :=
  concatenate_pair_apply_right (t := S100000x256) (s₁ := S100000x128) (s₂ := S100000x128) (1 : Fin 2) h1 h2 concatenates_S100000x128_S100000x128_S100000x256_d1
    (ix2 p (hi256 j)) rfl rfl (ix2 p j)
    (fun b hb => by match b, hb with | ⟨0, _⟩, _ => rfl | ⟨1, _⟩, hb => exact absurd rfl hb) rfl

/-- The [N, 256] by [256, 128] product with the transposed [128, 256] weight, at an entry: the sum over the 256 columns. -/
theorem d256_apply (A : FVec Ideal S100000x256 .f32) (w : FVec Ideal S128x256 .f32) (p : Fin 100000) (q : Fin 128) :
    Host.dotGeneral dot_S100000x256_S256x128_S100000x128_1_0_0_1_n_n none A
        (transpose S256x128 [1, 0] w transposes_S128x256_S256x128_1_0) (ix2 p q)
      = ∑ j : Fin 256, A (ix2 p j) * w (ix2 q j) :=
  HostLayer.dotT_apply dot_S100000x256_S256x128_S100000x128_1_0_0_1_n_n none rfl rfl
    (left_row_of% dot_S100000x256_S256x128_S100000x128_1_0_0_1_n_n)
    (fun i q => dot_S100000x256_S256x128_S100000x128_1_0_0_1_n_n.lhsIdx_val_of_single rfl i q)
    (fun i q => dot_S100000x256_S256x128_S100000x128_1_0_0_1_n_n.rhsIdx_val_of_single rfl i q)
    (right_col_of% dot_S100000x256_S256x128_S100000x128_1_0_0_1_n_n) A w _ p q

/-- The combination layer over any two branch arrays, skip array, weight and bias, at an entry. -/
theorem comb_apply (h1 h2 x : FVec Ideal S100000x128 .f32) (w : FVec Ideal S128x256 .f32) (β : FVec Ideal S128 .f32)
    (p : Fin 100000) (q : Fin 128) :
    (addf (addf (Host.dotGeneral dot_S100000x256_S256x128_S100000x128_1_0_0_1_n_n none
        (concatenate S100000x256 1 [⟨S100000x128, h1⟩, ⟨S100000x128, h2⟩] concatenates_S100000x128_S100000x128_S100000x256_d1)
        (transpose S256x128 [1, 0] w transposes_S128x256_S256x128_1_0)) (rowB β)) x) (ix2 p q)
      = comb (mat h1) (mat h2) (mat x) (waF w) (wbF w) (vec β) p q := by
  refine (congrArg₂ (· + ·) (congrArg₂ (· + ·) ((d256_apply _ w p q).trans (sum256 _)) (rowB_apply β p q))
    (rfl : x (ix2 p q) = x (ix2 p q))).trans ?_
  show _ = ((∑ j : Fin 128, h1 (ix2 p j) * w (ix2 q (lo256 j)) + ∑ j : Fin 128, h2 (ix2 p j) * w (ix2 q (hi256 j)))
    + β (ix1 q)) + x (ix2 p q)
  refine congrArg₂ (· + ·) (congrArg₂ (· + ·) (congrArg₂ (· + ·) ?_ ?_) rfl) rfl
  · exact Finset.sum_congr rfl fun j _ => congrArg (· * w (ix2 q (lo256 j))) (cat_lo h1 h2 p j)
  · exact Finset.sum_congr rfl fun j _ => congrArg (· * w (ix2 q (hi256 j))) (cat_hi h1 h2 p j)

/-- The combination: the product over the concatenated 256 columns is the sum of the two products over 128. -/
theorem v102_mat : mat (res_main_v102 V0)
    = comb (mat (hsw (res_main_v52 V0))) (mat (hsw (res_main_v88 V0))) (mat (res_main_v15 V0)) (waF (a20 V0)) (wbF (a20 V0)) (vec (a21 V0)) := by
  funext p q
  rw [v102_eq]
  exact comb_apply (hsw (res_main_v52 V0)) (hsw (res_main_v88 V0)) (res_main_v15 V0) (a20 V0) (a21 V0) p q

end Cert.ReferenceIdeal.RefRead

end
-- ==== Proof.RefTail.lean ====
/-
  The reference program's last stages read at an entry: the three residual weights and biases as layers of the stacked
  arrays, the scattered sums, the node-side chain, the column means, and the normalised result.
-/
import proofs.«108244_j21019569947168_2_alg».proof.Proof.RefRead
import proofs.«108244_j21019569947168_2_alg».proof.Proof.RefStages
import proofs.«108244_j21019569947168_2_alg».proof.Proof.Spec2
import proofs.«108244_j21019569947168_2_alg».proof.Proof.LibRowScatter
import proofs.«108244_j21019569947168_2_alg».proof.Proof.LibHostColSum
import proofs.«108244_j21019569947168_2_alg».proof.Proof.LibHostKeepdims

set_option maxRecDepth 16384

open scoped BigOperators

noncomputable section

namespace Cert.ReferenceIdeal.RefRead

open Idealize.ShloMosaic Idealize.ShloMosaic.TcCoe Idealize.SL.Sem Idealize.ShloMosaic.ValueIdx
open Cert.ReferenceIdeal Cert.ReferenceIdeal.Gen Cert.ReferenceIdeal.Value Cert.Spec

variable (V0 : Valuation τ sig (Elt Ideal))

/-! ## The residual layers' weights and biases: layers of the stacked arrays -/

theorem lw0_mat : mat (lw0 V0) = layerW (a22 V0) 0 :=
  funext fun q => funext fun j =>
    HostColSum.stackMat_apply 0 (0 : Fin 3) rfl (a22 V0) slices_S3x128x128_S1x128x128_0_0_0 shapeCasts_S1x128x128_S128x128 q j
theorem lw1_mat : mat (lw1 V0) = layerW (a22 V0) 1 :=
  funext fun q => funext fun j =>
    HostColSum.stackMat_apply 1 (1 : Fin 3) rfl (a22 V0) slices_S3x128x128_S1x128x128_1_0_0 shapeCasts_S1x128x128_S128x128 q j
theorem lw2_mat : mat (lw2 V0) = layerW (a22 V0) 2 :=
  funext fun q => funext fun j =>
    HostColSum.stackMat_apply 2 (2 : Fin 3) rfl (a22 V0) slices_S3x128x128_S1x128x128_2_0_0 shapeCasts_S1x128x128_S128x128 q j

theorem lb0_vec : vec (lb0 V0) = layerB (a23 V0) 0 :=
  funext fun q => HostColSum.stackRow_apply 0 (0 : Fin 3) rfl (a23 V0) slices_S3x128_S1x128_0_0 shapeCasts_S1x128_S128 q
theorem lb1_vec : vec (lb1 V0) = layerB (a23 V0) 1 :=
  funext fun q => HostColSum.stackRow_apply 1 (1 : Fin 3) rfl (a23 V0) slices_S3x128_S1x128_1_0 shapeCasts_S1x128_S128 q
theorem lb2_vec : vec (lb2 V0) = layerB (a23 V0) 2 :=
  funext fun q => HostColSum.stackRow_apply 2 (2 : Fin 3) rfl (a23 V0) slices_S3x128_S1x128_2_0 shapeCasts_S1x128_S128 q

/-! ## The scattered sums -/

/-- The zero table reads 0 everywhere. -/
theorem zerosN_apply (i : S100000x128.Idx) : zerosN i = 0 :=
  (HostKeepdims.bcast_scalar_apply _ bcast_S_S100000x128 i).trans Ideal.ofBits_zero_f32

/-- Rows accumulated into the zero table: row n collects the update rows whose index entry, read signed, is n. -/
theorem scatter_zero_apply (idx : IVec S600000x1 32) (u : FVec Ideal S600000x128 .f32) (n : Fin 100000) (q : Fin 128) :
    Host.scatterAdd scatter_S100000x128_S600000x1_S600000x128_1_0_0_1 zerosN idx u (ix2 n q)
      = scat (fun e : Fin 600000 => (idx (ix2 e (0 : Fin 1))).toInt) (mat u) n q := by
  refine (RowScatter.rowScatterAdd_apply scatter_S100000x128_S600000x1_S600000x128_1_0_0_1_wf idx zerosN u n q).trans ?_
  rw [zerosN_apply]
  rfl

theorem agg1R_mat : mat (agg1R V0) = scat (fun e : Fin 600000 => (idxDstR V0 (ix2 e (0 : Fin 1))).toInt) (mat (m1R V0)) :=
  funext fun n => funext fun q => scatter_zero_apply (idxDstR V0) (m1R V0) n q
theorem agg2R_mat : mat (agg2R V0) = scat (fun e : Fin 600000 => (idxDstR V0 (ix2 e (0 : Fin 1))).toInt) (mat (m2R V0)) :=
  funext fun n => funext fun q => scatter_zero_apply (idxDstR V0) (m2R V0) n q

/-! ## The node-side chain -/

/-- One residual layer as the host spells it. -/
theorem resid_mat (z : FVec Ideal S100000x128 .f32) (w : FVec Ideal S128x128 .f32) (b : FVec Ideal S128 .f32) :
    mat (addf (hsw (layer z w b)) z) = resid (mat z) (mat w) (vec b) := by
  funext p q
  show hsw (layer z w b) (ix2 p q) + z (ix2 p q) = sw (lin (mat z) (mat w) (vec b) p q) + mat z p q
  rw [hsw_apply, layer_apply]

/-- One residual step of the run: a stage `yn` that is a layer of `z`, a stage `zn` that is `yn` through `y ↦ y·σ(y)` plus
    `z`, with `z`, the weight and the bias read as `Z`, `W`, `β`. -/
theorem resid_step (zn yn z : FVec Ideal S100000x128 .f32) (w : FVec Ideal S128x128 .f32) (b : FVec Ideal S128 .f32)
    (Z : Fin 100000 → Fin 128 → EReal) (W : Fin 128 → Fin 128 → EReal) (β : Fin 128 → EReal)
    (hy : yn = layer z w b) (hn : zn = addf (hsw yn) z) (hz : mat z = Z) (hw : mat w = W) (hb : vec b = β) :
    mat zn = resid Z W β := by
  subst hy hn hz hw hb
  exact resid_mat z w b

theorem v153_mat (h102 : mat (res_main_v102 V0) = comb (mat (hsw (res_main_v52 V0))) (mat (hsw (res_main_v88 V0)))
      (mat (res_main_v15 V0)) (waF (a20 V0)) (wbF (a20 V0)) (vec (a21 V0))) :
    mat (res_main_v153 V0) = nodeH (mat (agg1R V0)) (mat (agg2R V0)) (mat (res_main_v15 V0))
      (mat (a10 V0)) (vec (a11 V0)) (mat (a12 V0)) (mat (a13 V0)) (vec (a14 V0)) (mat (a15 V0))
      (mat (a16 V0)) (vec (a17 V0)) (mat (a18 V0)) (vec (a19 V0)) (waF (a20 V0)) (wbF (a20 V0)) (vec (a21 V0))
      (layerW (a22 V0)) (layerB (a23 V0)) := by
  have e0 : mat (res_main_v102 V0)
      = comb (branch (mat (agg1R V0)) (mat (res_main_v15 V0)) (mat (a10 V0)) (vec (a11 V0)) (mat (a12 V0)) (mat (a16 V0)) (vec (a17 V0)))
          (branch (mat (agg2R V0)) (mat (res_main_v15 V0)) (mat (a13 V0)) (vec (a14 V0)) (mat (a15 V0)) (mat (a18 V0)) (vec (a19 V0)))
          (mat (res_main_v15 V0)) (waF (a20 V0)) (wbF (a20 V0)) (vec (a21 V0)) :=
    h102.trans (congrArg₂ (fun a b => comb a b (mat (res_main_v15 V0)) (waF (a20 V0)) (wbF (a20 V0)) (vec (a21 V0)))
      (h1R_mat V0) (h2R_mat V0))
  have e1 := resid_step (res_main_v119 V0) (res_main_v111 V0) (res_main_v102 V0) (lw0 V0) (lb0 V0) _ _ _
    (v111_eq V0) (v119_eq V0) e0 (lw0_mat V0) (lb0_vec V0)
  have e2 := resid_step (res_main_v136 V0) (res_main_v128 V0) (res_main_v119 V0) (lw1 V0) (lb1 V0) _ _ _
    (v128_eq V0) (v136_eq V0) e1 (lw1_mat V0) (lb1_vec V0)
  have e3 := resid_step (res_main_v153 V0) (res_main_v145 V0) (res_main_v136 V0) (lw2 V0) (lb2 V0) _ _ _
    (v145_eq V0) (v153_eq V0) e2 (lw2_mat V0) (lb2_vec V0)
  exact e3

/-! ## The column means and the normalised result -/

/-- A scalar sent to the 128 columns reads the scalar at every column. -/
theorem bc128_apply (x : FVec Ideal S_ .f32) (q : Fin 128) : bc128 x (ix1 q) = x ix0 :=
  HostKeepdims.bcast_scalar_apply x bcast_S_S128 (ix1 q)

theorem colMean_apply (z : FVec Ideal S100000x128 .f32) (q : Fin 128) :
    colMean z (ix1 q) = Ideal.div (colSum (mat z) q) (Ideal.ofBits .f32 0x47C35000#32) := by
  show Ideal.div (Host.reduceAdd z (constant S_ .f32 0x00000000#32) reducesTo_S100000x128_S128_d0 h_S_ (ix1 q))
    (bc128 (constant S_ .f32 0x47C35000#32) (ix1 q)) = _
  rw [HostColSum.hostColSum_eq z reducesTo_S100000x128_S128_d0 h_S_ q, bc128_apply]
  rfl

/-- An array minus a multiple of its column means. -/
theorem center_mat (z : FVec Ideal S100000x128 .f32) (s : FVec Ideal S128 .f32) :
    mat (subf z (rowB (mulf (colMean z) s)))
      = fun p q => mat z p q - Ideal.div (colSum (mat z) q) (Ideal.ofBits .f32 0x47C35000#32) * vec s q := by
  funext p q
  show z (ix2 p q) - rowB (mulf (colMean z) s) (ix2 p q) = _
  rw [rowB_apply]
  show z (ix2 p q) - colMean z (ix1 q) * s (ix1 q) = _
  rw [colMean_apply]

/-- The normalised rows before the last layer, at an entry. -/
theorem norm_inner_apply (c : FVec Ideal S100000x128 .f32) (w β : FVec Ideal S128 .f32) (p : Fin 100000) (j : Fin 128) :
    addf (Host.divf (mulf (rowB w) c)
        (rowB (Host.sqrt (addf (colMean (mulf c c)) (bc128 (constant S_ .f32 0x3727C5AC#32)))))) (rowB β) (ix2 p j)
      = normR (mat c) (fun q => Ideal.div (colSum (fun p q => mat c p q * mat c p q) q) (Ideal.ofBits .f32 0x47C35000#32))
          (vec w) (vec β) (Ideal.ofBits .f32 0x3727C5AC#32) p j := by
  show Ideal.div (rowB w (ix2 p j) * c (ix2 p j))
      (rowB (Host.sqrt (addf (colMean (mulf c c)) (bc128 (constant S_ .f32 0x3727C5AC#32)))) (ix2 p j)) + rowB β (ix2 p j) = _
  rw [rowB_apply, rowB_apply, rowB_apply]
  show Ideal.div (vec w j * c (ix2 p j))
      (Ideal.sqrt (colMean (mulf c c) (ix1 j) + bc128 (constant S_ .f32 0x3727C5AC#32) (ix1 j))) + vec β j = _
  rw [colMean_apply, bc128_apply]
  rfl

/-- The result at an entry, over arbitrary arrays: `c` is `z` minus a multiple `s` of its column means. -/
theorem out_entry (z c : FVec Ideal S100000x128 .f32) (s w β : FVec Ideal S128 .f32) (W : FVec Ideal S128x128 .f32)
    (b : FVec Ideal S128 .f32) (hc : c = subf z (rowB (mulf (colMean z) s))) (p : Fin 100000) (q : Fin 128) :
    layer (addf (Host.divf (mulf (rowB w) c)
        (rowB (Host.sqrt (addf (colMean (mulf c c)) (bc128 (constant S_ .f32 0x3727C5AC#32)))))) (rowB β)) W b (ix2 p q)
      = lin (normR (fun p q => mat z p q - Ideal.div (colSum (mat z) q) (Ideal.ofBits .f32 0x47C35000#32) * vec s q) (fun q => Ideal.div (colSum (fun p q => (mat z p q - Ideal.div (colSum (mat z) q) (Ideal.ofBits .f32 0x47C35000#32) * vec s q) * (mat z p q - Ideal.div (colSum (mat z) q) (Ideal.ofBits .f32 0x47C35000#32) * vec s q)) q) (Ideal.ofBits .f32 0x47C35000#32)) (vec w) (vec β) (Ideal.ofBits .f32 0x3727C5AC#32)) (mat W) (vec b) p q := by
  have hcm : mat c = fun p q => mat z p q - Ideal.div (colSum (mat z) q) (Ideal.ofBits .f32 0x47C35000#32) * vec s q := by
    subst hc
    exact center_mat z s
  have hI : mat (addf (Host.divf (mulf (rowB w) c)
        (rowB (Host.sqrt (addf (colMean (mulf c c)) (bc128 (constant S_ .f32 0x3727C5AC#32)))))) (rowB β))
      = normR (mat c) (fun q => Ideal.div (colSum (fun p q => mat c p q * mat c p q) q) (Ideal.ofBits .f32 0x47C35000#32))
          (vec w) (vec β) (Ideal.ofBits .f32 0x3727C5AC#32) :=
    funext fun p => funext fun j => norm_inner_apply c w β p j
  rw [layer_apply, hI, hcm]

theorem outR_apply (p : Fin 100000) (q : Fin 128) : outR V0 (ix2 p q) = lin (normR (fun p q => mat (res_main_v153 V0) p q - Ideal.div (colSum (mat (res_main_v153 V0)) q) (Ideal.ofBits .f32 0x47C35000#32) * vec (a26 V0) q) (fun q => Ideal.div (colSum (fun p q => (mat (res_main_v153 V0) p q - Ideal.div (colSum (mat (res_main_v153 V0)) q) (Ideal.ofBits .f32 0x47C35000#32) * vec (a26 V0) q) * (mat (res_main_v153 V0) p q - Ideal.div (colSum (mat (res_main_v153 V0)) q) (Ideal.ofBits .f32 0x47C35000#32) * vec (a26 V0) q)) q) (Ideal.ofBits .f32 0x47C35000#32)) (vec (a24 V0)) (vec (a25 V0)) (Ideal.ofBits .f32 0x3727C5AC#32)) (mat (a27 V0)) (vec (a28 V0)) p q :=
  out_entry (res_main_v153 V0) (res_main_v160 V0) (a26 V0) (a24 V0) (a25 V0) (a27 V0) (a28 V0) (v160_eq V0) p q

end Cert.ReferenceIdeal.RefRead

end
-- ==== Proof.Cross.lean ====
/-
  The two programs' vocabularies meet: both are printed over the same literal shapes, so a dimension record, an index
  column or an argument array named on one side is the one named on the other.
-/
import proofs.«108244_j21019569947168_2_alg».proof.Proof.Flow
import proofs.«108244_j21019569947168_2_alg».proof.Proof.RefRead

set_option maxRecDepth 16384

noncomputable section

namespace Cert.Cross

open Idealize.ShloMosaic Idealize.ShloMosaic.TcCoe Idealize.SL.Sem

/-! ## The row gather's dimension numbers -/

/-- The two programs' row-gather dimension records are one record. -/
theorem gather_eq :
    Cert.KernelIdeal.gather_S100000x128_S600000x1_S600000x128_1_0_n_n_0_1_1128
      = Cert.ReferenceIdeal.gather_S100000x128_S600000x1_S600000x128_1_0_n_n_0_1_1128 := rfl

/-- So the two gathers of the same table at the same indices are one array. -/
theorem gather_congr (x : FVec Ideal Cert.KernelIdeal.S100000x128 .f32) (idx : IVec Cert.KernelIdeal.S600000x1 32) :
    Host.gather Cert.KernelIdeal.gather_S100000x128_S600000x1_S600000x128_1_0_n_n_0_1_1128 x idx
      = Host.gather Cert.ReferenceIdeal.gather_S100000x128_S600000x1_S600000x128_1_0_n_n_0_1_1128 x idx := rfl

/-! ## The index columns -/

/-- The reference's source index column is the kernel side's, of the reference's own index argument. -/
theorem idxSrc_eq (V0 : Valuation Cert.ReferenceIdeal.τ Cert.ReferenceIdeal.sig (Elt Ideal)) :
    Cert.ReferenceIdeal.RefRead.idxSrcR V0
      = Cert.KernelIdeal.Flow.idxCol (Cert.KernelIdeal.Flow.srcRow (V0 (Proc.devRef .tc Cert.ReferenceIdeal.main_arg3))) := rfl

/-- The reference's destination index column is the kernel side's, of the reference's own index argument. -/
theorem idxDst_eq (V0 : Valuation Cert.ReferenceIdeal.τ Cert.ReferenceIdeal.sig (Elt Ideal)) :
    Cert.ReferenceIdeal.RefRead.idxDstR V0
      = Cert.KernelIdeal.Flow.idxCol (Cert.KernelIdeal.Flow.dstRow (V0 (Proc.devRef .tc Cert.ReferenceIdeal.main_arg3))) := rfl

/-! ## An argument at launch -/

/-- A device's buffer at launch, as a valuation, is the launch memory at that device's location. -/
theorem launch_arg {nD : Nat} {τ : Topo} {sig : RefSig} {Val : EltTy → Type}
    (m : (ℓ : Loc nD τ sig) → Buf Val ℓ) (c : Dev nD) (b : Ref sig .tc) :
    (StableHlo.launchContents m c) (Proc.devRef .tc b) = m ((c.tc : Thread nD τ).loc b) := rfl

end Cert.Cross

end
-- ==== Proof.Bridge.lean ====
/-
  The two programs compute one function.  With the reference's argument contents equal to the kernel program's, the
  reference's node-chain value is the kernel program's (the same specification function of the same arrays: the
  projected rows, the gathered rows, the messages, the scattered sums, the chain), and on finite inputs the two
  arrangements of the column normalisation agree, so the results are equal entry by entry.
-/
import proofs.«108244_j21019569947168_2_alg».proof.Proof.KVal
import proofs.«108244_j21019569947168_2_alg».proof.Proof.KReal
import proofs.«108244_j21019569947168_2_alg».proof.Proof.RefRead
import proofs.«108244_j21019569947168_2_alg».proof.Proof.RefStages
import proofs.«108244_j21019569947168_2_alg».proof.Proof.RefComb
import proofs.«108244_j21019569947168_2_alg».proof.Proof.RefTail
import proofs.«108244_j21019569947168_2_alg».proof.Proof.Cross
import proofs.«108244_j21019569947168_2_alg».proof.Proof.Math
import proofs.«108244_j21019569947168_2_alg».proof.Proof.FinIn

set_option maxRecDepth 16384

open scoped BigOperators

noncomputable section

namespace Cert.Bridge

open Idealize.ShloMosaic Idealize.ShloMosaic.TcCoe Idealize.SL.Sem Idealize.ShloMosaic.ValueIdx
open Cert.Spec Cert.KernelIdeal.KVal Cert.ReferenceIdeal.RefRead

variable (RV : Cert.KernelIdeal.KVal.RegionValues)
variable (m : (ℓ : Loc Cert.KernelIdeal.nD Cert.KernelIdeal.τ Cert.KernelIdeal.sig) → Buf (Elt Ideal) ℓ)
  (ρ : Dev Cert.KernelIdeal.nD → PrngReg)
variable (V0 : Valuation Cert.ReferenceIdeal.τ Cert.ReferenceIdeal.sig (Elt Ideal)) (c : Dev Cert.KernelIdeal.nD)

/-! ## Congruences of the specification's functions, over variables -/

section Generic
variable {n h e f : ℕ}

theorem msg_congr {feat feat' : Fin e → Fin f → EReal} {W1 W1' : Fin h → Fin f → EReal} {W2 W2' : Fin h → Fin h → EReal}
    {xs xs' : Fin e → Fin h → EReal} (h1 : feat = feat') (h2 : W1 = W1') (h3 : W2 = W2') (h4 : xs = xs') :
    msg feat W1 W2 xs = msg feat' W1' W2' xs' := by subst h1 h2 h3 h4; rfl

theorem scat_congr {E N : ℕ} {idx idx' : Fin E → Int} {u u' : Fin E → Fin h → EReal} (h1 : idx = idx') (h2 : u = u') :
    scat (N := N) idx u = scat idx' u' := by subst h1 h2; rfl

theorem proj_congr {k b : ℕ} {x x' : Fin n → Fin k → EReal} {W W' : Fin b → Fin k → EReal} {β β' : Fin b → EReal}
    (h1 : x = x') (h2 : W = W') (h3 : β = β') : proj x W β = proj x' W' β' := by subst h1 h2 h3; rfl

theorem nodeH_congr {agg1 agg1' agg2 agg2' x1 x1' : Fin n → Fin h → EReal}
    {rel1 rel1' : Fin h → Fin h → EReal} {rel1b rel1b' : Fin h → EReal} {root1 root1' : Fin h → Fin h → EReal}
    {rel2 rel2' : Fin h → Fin h → EReal} {rel2b rel2b' : Fin h → EReal} {root2 root2' : Fin h → Fin h → EReal}
    {l1 l1' : Fin h → Fin h → EReal} {l1b l1b' : Fin h → EReal} {l2 l2' : Fin h → Fin h → EReal} {l2b l2b' : Fin h → EReal}
    {wa wa' wb wb' : Fin h → Fin h → EReal} {cb cb' : Fin h → EReal}
    {W W' : Fin 3 → Fin h → Fin h → EReal} {β β' : Fin 3 → Fin h → EReal}
    (e1 : agg1 = agg1') (e2 : agg2 = agg2') (e3 : x1 = x1') (e4 : rel1 = rel1') (e5 : rel1b = rel1b') (e6 : root1 = root1')
    (e7 : rel2 = rel2') (e8 : rel2b = rel2b') (e9 : root2 = root2') (e10 : l1 = l1') (e11 : l1b = l1b') (e12 : l2 = l2')
    (e13 : l2b = l2b') (e14 : wa = wa') (e15 : wb = wb') (e16 : cb = cb') (e17 : W = W') (e18 : β = β') :
    nodeH agg1 agg2 x1 rel1 rel1b root1 rel2 rel2b root2 l1 l1b l2 l2b wa wb cb W β
      = nodeH agg1' agg2' x1' rel1' rel1b' root1' rel2' rel2b' root2' l1' l1b' l2' l2b' wa' wb' cb' W' β' := by
  subst e1 e2 e3 e4 e5 e6 e7 e8 e9 e10 e11 e12 e13 e14 e15 e16 e17 e18; rfl

/-- The last stage, over variables: with the reference's chain value equal to the kernel program's and every entry
    real, the two arrangements of the normalisation followed by the last product agree. -/
theorem final_generic (hn : 0 < n) (z zR : Fin n → Fin h → EReal) (hzR : zR = z) (hz : AllReal z)
    (s w β s' w' β' : Fin h → EReal) (es : s' = s) (ew : w' = w) (eβ : β' = β)
    (hs : RowReal s) (hw : RowReal w) (hβ : RowReal β) (ε : EReal) (hε : RealEntries.IsPosReal ε)
    (two : EReal) (h2 : two = ((2 : ℝ) : EReal)) (Nn : EReal) (hN : Nn = (((n : ℕ) : ℝ) : EReal))
    {b : ℕ} (fw fw' : Fin b → Fin h → EReal) (fb fb' : Fin b → EReal) (efw : fw' = fw) (efb : fb' = fb) (p : Fin n) (q : Fin b) :
    lin (normK z (fun q => Ideal.div (colSum z q) Nn)
          (fun q => Ideal.div (colSum (fun p q => z p q * z p q) q) Nn
                      - ((Ideal.div (colSum z q) Nn * Ideal.div (colSum z q) Nn) * s q) * (two - s q))
          s w β ε) fw fb p q
      = lin (normR (fun p q => zR p q - Ideal.div (colSum zR q) Nn * s' q)
            (fun q => Ideal.div (colSum (fun p q => (zR p q - Ideal.div (colSum zR q) Nn * s' q)
                                                    * (zR p q - Ideal.div (colSum zR q) Nn * s' q)) q) Nn)
            w' β' ε) fw' fb' p q := by
  subst hzR es ew eβ efw efb
  exact congrFun (congrFun (congrArg (fun y => lin y fw' fb') (norm_agree hn zR hz s' w' β' hs hw hβ ε hε two h2 Nn hN)) p) q

end Generic

/-- The reference's argument contents are the kernel program's launch contents. -/
structure Agree : Prop where
  a0 : a0 V0 = am m c Cert.KernelIdeal.main_arg0
  a1 : a1 V0 = am m c Cert.KernelIdeal.main_arg1
  a2 : a2 V0 = am m c Cert.KernelIdeal.main_arg2
  a4 : a4 V0 = am m c Cert.KernelIdeal.main_arg4
  a5 : a5 V0 = am m c Cert.KernelIdeal.main_arg5
  a6 : a6 V0 = am m c Cert.KernelIdeal.main_arg6
  a7 : a7 V0 = am m c Cert.KernelIdeal.main_arg7
  a8 : a8 V0 = am m c Cert.KernelIdeal.main_arg8
  a9 : a9 V0 = am m c Cert.KernelIdeal.main_arg9
  a10 : a10 V0 = am m c Cert.KernelIdeal.main_arg10
  a11 : a11 V0 = am m c Cert.KernelIdeal.main_arg11
  a12 : a12 V0 = am m c Cert.KernelIdeal.main_arg12
  a13 : a13 V0 = am m c Cert.KernelIdeal.main_arg13
  a14 : a14 V0 = am m c Cert.KernelIdeal.main_arg14
  a15 : a15 V0 = am m c Cert.KernelIdeal.main_arg15
  a16 : a16 V0 = am m c Cert.KernelIdeal.main_arg16
  a17 : a17 V0 = am m c Cert.KernelIdeal.main_arg17
  a18 : a18 V0 = am m c Cert.KernelIdeal.main_arg18
  a19 : a19 V0 = am m c Cert.KernelIdeal.main_arg19
  a20 : a20 V0 = am m c Cert.KernelIdeal.main_arg20
  a21 : a21 V0 = am m c Cert.KernelIdeal.main_arg21
  a22 : a22 V0 = am m c Cert.KernelIdeal.main_arg22
  a23 : a23 V0 = am m c Cert.KernelIdeal.main_arg23
  a24 : a24 V0 = am m c Cert.KernelIdeal.main_arg24
  a25 : a25 V0 = am m c Cert.KernelIdeal.main_arg25
  a26 : a26 V0 = am m c Cert.KernelIdeal.main_arg26
  a27 : a27 V0 = am m c Cert.KernelIdeal.main_arg27
  a28 : a28 V0 = am m c Cert.KernelIdeal.main_arg28
  a3 : V0 (Proc.devRef .tc Cert.ReferenceIdeal.main_arg3) = am m c Cert.KernelIdeal.main_arg3

variable (A : Agree m V0 c)
include RV A

variable (A : Agree m V0 c)
include RV A

/-- The projected node arrays agree. -/
theorem x1_eq : Cert.ReferenceIdeal.Value.res_main_v15 V0 = x1K m ρ c := by
  funext i
  obtain ⟨p, q, rfl⟩ : ∃ (p : Fin 100000) (q : Fin 128), i = ix2 p q := ⟨i 0, i 1, eq_ix2 i⟩
  have h1 := congrFun (congrFun (x1R_mat V0) p) q
  have h2 := congrFun (congrFun (x1K_mat RV m ρ c) p) q
  exact h1.trans ((congrFun (congrFun (proj_congr (congrArg (fun v => mat v) A.a0) (congrArg (fun v => mat v) A.a4)
    (congrArg (fun v => vec v) A.a5)) p) q).trans h2.symm)

/-- The source index columns agree. -/
theorem src_eq : idxSrcR V0 = srcI m c :=
  (Cert.Cross.idxSrc_eq V0).trans (congrArg (fun a => Cert.KernelIdeal.Flow.idxCol (Cert.KernelIdeal.Flow.srcRow a)) A.a3)

/-- The gathered rows agree. -/
theorem xs_eq : xsR V0 = xsK m ρ c :=
  (congrArg₂ (fun x i => Host.gather Cert.ReferenceIdeal.gather_S100000x128_S600000x1_S600000x128_1_0_n_n_0_1_1128 x i)
      (x1_eq RV m ρ V0 c A) (src_eq RV m V0 c A)).trans (Cert.Cross.gather_congr _ _).symm

/-- The destination indices agree. -/
theorem dst_eq : (fun e : Fin 600000 => (idxDstR V0 (ix2 e (0 : Fin 1))).toInt) = dstInt m c :=
  congrArg (fun (I : IVec Cert.KernelIdeal.S600000x1 32) => fun e : Fin 600000 => (I (ix2 e (0 : Fin 1))).toInt)
    ((Cert.Cross.idxDst_eq V0).trans (congrArg (fun a => Cert.KernelIdeal.Flow.idxCol (Cert.KernelIdeal.Flow.dstRow a)) A.a3))

/-- The messages agree. -/
theorem msg1_eq : mat (m1R V0) = msg1K m ρ c :=
  (m1R_mat V0).trans (msg_congr (congrArg (fun v => mat v) A.a1) (congrArg (fun v => mat v) A.a6)
    (congrArg (fun v => mat v) A.a7) (congrArg (fun v => mat v) (xs_eq RV m ρ V0 c A)))
theorem msg2_eq : mat (m2R V0) = msg2K m ρ c :=
  (m2R_mat V0).trans (msg_congr (congrArg (fun v => mat v) A.a2) (congrArg (fun v => mat v) A.a8)
    (congrArg (fun v => mat v) A.a9) (congrArg (fun v => mat v) (xs_eq RV m ρ V0 c A)))

/-- The node chain's values agree. -/
theorem H_eq : mat (Cert.ReferenceIdeal.Value.res_main_v153 V0) = HK m ρ c :=
  (v153_mat V0 (v102_mat V0)).trans (nodeH_congr
    ((agg1R_mat V0).trans (scat_congr (dst_eq RV m V0 c A) (msg1_eq RV m ρ V0 c A)))
    ((agg2R_mat V0).trans (scat_congr (dst_eq RV m V0 c A) (msg2_eq RV m ρ V0 c A)))
    (congrArg (fun v => mat v) (x1_eq RV m ρ V0 c A))
    (congrArg (fun v => mat v) A.a10) (congrArg (fun v => vec v) A.a11) (congrArg (fun v => mat v) A.a12)
    (congrArg (fun v => mat v) A.a13) (congrArg (fun v => vec v) A.a14) (congrArg (fun v => mat v) A.a15)
    (congrArg (fun v => mat v) A.a16) (congrArg (fun v => vec v) A.a17) (congrArg (fun v => mat v) A.a18)
    (congrArg (fun v => vec v) A.a19) (congrArg (fun v => waF v) A.a20) (congrArg (fun v => wbF v) A.a20)
    (congrArg (fun v => vec v) A.a21) (congrArg (fun v => layerW v) A.a22) (congrArg (fun v => layerB v) A.a23))

/-- On finite inputs the two results agree at every entry. -/
theorem out_eq (hfin : Cert.KernelIdeal.FinIn.ArgsReal m c) (p : Fin 100000) (q : Fin 128) :
    Cert.KernelIdeal.Gen.W8 m ρ c (Proc.devRef .tc Cert.KernelIdeal.main_v43) (ix2 p q) = outR V0 (ix2 p q) :=
  (out_apply RV m ρ c p q).trans ((final_generic (by norm_num) (HK m ρ c) _ (H_eq RV m ρ V0 c A)
      (Cert.KernelIdeal.KReal.HK_real RV m ρ c hfin) _ _ _ _ _ _
      (congrArg (fun v => vec v) A.a26) (congrArg (fun v => vec v) A.a24) (congrArg (fun v => vec v) A.a25)
      (Cert.KernelIdeal.KReal.arg26_real m c hfin) (Cert.KernelIdeal.KReal.arg24_real m c hfin)
      (Cert.KernelIdeal.KReal.arg25_real m c hfin) _ ofBits_eps_pos _ ofBits_two _ (ofBits_1e5.trans (by norm_num))
      _ _ _ _ (congrArg (fun v => mat v) A.a27) (congrArg (fun v => vec v) A.a28) p q).trans (outR_apply V0 p q).symm)

end Cert.Bridge

end
-- ==== Proof.lean ====
/-
  A message-passing block — node projection, two edge messages gathered along the source index and scattered along the
  destination index, two convolution branches, their combination, three residual layers, a column normalisation and a
  last projection — computed by four tiled kernels with host operations between them, against its plain array program.
  Frames: the generated frame certificates (the reference's is its generated run with the result dropped).  The
  idealization rewrote nothing, so it is preserved trivially.  The value claim: both programs' results are, entry by
  entry, one function of the argument arrays; every stage but the last agrees on all extended reals (sums regrouped by
  tile, a product over 256 columns split in two, one scatter of 256 columns against two of 128); the last stage spells the
  column variance as E[h²] − μ²s(2 − s) against E[(h − μs)²] and a product with a reciprocal square root against a quotient by
  a square root, which agree on real numbers — and on finite inputs every entry of the chain's value is a real number.
-/
import proofs.«108244_j21019569947168_2_alg».proof.Defs
import proofs.«108244_j21019569947168_2_alg».proof.Proof.Gen.Kernel
import proofs.«108244_j21019569947168_2_alg».proof.Proof.Gen.Kernel.Skeleton
import proofs.«108244_j21019569947168_2_alg».proof.Proof.Gen.Kernel.Launch
import proofs.«108244_j21019569947168_2_alg».proof.Proof.Gen.Kernel.Points
import proofs.«108244_j21019569947168_2_alg».proof.Proof.Gen.Kernel.Frame
import proofs.«108244_j21019569947168_2_alg».proof.Proof.Gen.KernelIdeal
import proofs.«108244_j21019569947168_2_alg».proof.Proof.Gen.KernelIdeal.Skeleton
import proofs.«108244_j21019569947168_2_alg».proof.Proof.Gen.KernelIdeal.Launch
import proofs.«108244_j21019569947168_2_alg».proof.Proof.Gen.KernelIdeal.Points
import proofs.«108244_j21019569947168_2_alg».proof.Proof.Gen.KernelIdeal.Frame
import proofs.«108244_j21019569947168_2_alg».proof.Proof.Gen.ReferenceIdeal
import proofs.«108244_j21019569947168_2_alg».proof.Proof.Gen.Pre_finite_inputs
import proofs.«108244_j21019569947168_2_alg».proof.Proof.Gen.ReferenceIdeal.Run
import proofs.«108244_j21019569947168_2_alg».proof.Proof.KRun
import proofs.«108244_j21019569947168_2_alg».proof.Proof.Region0
import proofs.«108244_j21019569947168_2_alg».proof.Proof.Region1
import proofs.«108244_j21019569947168_2_alg».proof.Proof.Region2
import proofs.«108244_j21019569947168_2_alg».proof.Proof.Region3
import proofs.«108244_j21019569947168_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The four regions' values, each proved at its entry contents. -/
theorem regionValues : Cert.KernelIdeal.KVal.RegionValues where
  arr0 := Cert.KernelIdeal.Region0.arr0
  arr1_lo := Cert.KernelIdeal.Region1.arr1_lo
  arr1_hi := Cert.KernelIdeal.Region1.arr1_hi
  arr2_h := Cert.KernelIdeal.Region2.arr2_h
  arr2_sum := Cert.KernelIdeal.Region2.arr2_sum
  arr2_sumsq := Cert.KernelIdeal.Region2.arr2_sumsq
  arr3 := Cert.KernelIdeal.Region3.arr3

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the reference's term of the arguments. -/
theorem algebraic : Cert.algebraic_KernelIdeal_ReferenceIdeal := by
  intro m ρ m' ρ' hpre hagree
  refine ⟨fun c => Cert.ReferenceIdeal.RefRead.outR (StableHlo.launchContents m' c), ?_, ?_⟩
  · refine (θ_run Cert.KernelIdeal.defs _ _).mono (fun r h c => ⟨?_,
        (h c _ (Cert.KernelIdeal.Gen.mem_uc Cert.KernelIdeal.main_arg0 (by decide))).trans (Cert.KernelIdeal.Gen.W8_main_arg0 m ρ c),
        (h c _ (Cert.KernelIdeal.Gen.mem_uc Cert.KernelIdeal.main_arg1 (by decide))).trans (Cert.KernelIdeal.Gen.W8_main_arg1 m ρ c),
        (h c _ (Cert.KernelIdeal.Gen.mem_uc Cert.KernelIdeal.main_arg2 (by decide))).trans (Cert.KernelIdeal.Gen.W8_main_arg2 m ρ c),
        (h c _ (Cert.KernelIdeal.Gen.mem_uc Cert.KernelIdeal.main_arg3 (by decide))).trans (Cert.KernelIdeal.Gen.W8_main_arg3 m ρ c),
        (h c _ (Cert.KernelIdeal.Gen.mem_uc Cert.KernelIdeal.main_arg4 (by decide))).trans (Cert.KernelIdeal.Gen.W8_main_arg4 m ρ c),
        (h c _ (Cert.KernelIdeal.Gen.mem_uc Cert.KernelIdeal.main_arg5 (by decide))).trans (Cert.KernelIdeal.Gen.W8_main_arg5 m ρ c),
        (h c _ (Cert.KernelIdeal.Gen.mem_uc Cert.KernelIdeal.main_arg6 (by decide))).trans (Cert.KernelIdeal.Gen.W8_main_arg6 m ρ c),
        (h c _ (Cert.KernelIdeal.Gen.mem_uc Cert.KernelIdeal.main_arg7 (by decide))).trans (Cert.KernelIdeal.Gen.W8_main_arg7 m ρ c),
        (h c _ (Cert.KernelIdeal.Gen.mem_uc Cert.KernelIdeal.main_arg8 (by decide))).trans (Cert.KernelIdeal.Gen.W8_main_arg8 m ρ c),
        (h c _ (Cert.KernelIdeal.Gen.mem_uc Cert.KernelIdeal.main_arg9 (by decide))).trans (Cert.KernelIdeal.Gen.W8_main_arg9 m ρ c),
        (h c _ (Cert.KernelIdeal.Gen.mem_uc Cert.KernelIdeal.main_arg10 (by decide))).trans (Cert.KernelIdeal.Gen.W8_main_arg10 m ρ c),
        (h c _ (Cert.KernelIdeal.Gen.mem_uc Cert.KernelIdeal.main_arg11 (by decide))).trans (Cert.KernelIdeal.Gen.W8_main_arg11 m ρ c),
        (h c _ (Cert.KernelIdeal.Gen.mem_uc Cert.KernelIdeal.main_arg12 (by decide))).trans (Cert.KernelIdeal.Gen.W8_main_arg12 m ρ c),
        (h c _ (Cert.KernelIdeal.Gen.mem_uc Cert.KernelIdeal.main_arg13 (by decide))).trans (Cert.KernelIdeal.Gen.W8_main_arg13 m ρ c),
        (h c _ (Cert.KernelIdeal.Gen.mem_uc Cert.KernelIdeal.main_arg14 (by decide))).trans (Cert.KernelIdeal.Gen.W8_main_arg14 m ρ c),
        (h c _ (Cert.KernelIdeal.Gen.mem_uc Cert.KernelIdeal.main_arg15 (by decide))).trans (Cert.KernelIdeal.Gen.W8_main_arg15 m ρ c),
        (h c _ (Cert.KernelIdeal.Gen.mem_uc Cert.KernelIdeal.main_arg16 (by decide))).trans (Cert.KernelIdeal.Gen.W8_main_arg16 m ρ c),
        (h c _ (Cert.KernelIdeal.Gen.mem_uc Cert.KernelIdeal.main_arg17 (by decide))).trans (Cert.KernelIdeal.Gen.W8_main_arg17 m ρ c),
        (h c _ (Cert.KernelIdeal.Gen.mem_uc Cert.KernelIdeal.main_arg18 (by decide))).trans (Cert.KernelIdeal.Gen.W8_main_arg18 m ρ c),
        (h c _ (Cert.KernelIdeal.Gen.mem_uc Cert.KernelIdeal.main_arg19 (by decide))).trans (Cert.KernelIdeal.Gen.W8_main_arg19 m ρ c),
        (h c _ (Cert.KernelIdeal.Gen.mem_uc Cert.KernelIdeal.main_arg20 (by decide))).trans (Cert.KernelIdeal.Gen.W8_main_arg20 m ρ c),
        (h c _ (Cert.KernelIdeal.Gen.mem_uc Cert.KernelIdeal.main_arg21 (by decide))).trans (Cert.KernelIdeal.Gen.W8_main_arg21 m ρ c),
        (h c _ (Cert.KernelIdeal.Gen.mem_uc Cert.KernelIdeal.main_arg22 (by decide))).trans (Cert.KernelIdeal.Gen.W8_main_arg22 m ρ c),
        (h c _ (Cert.KernelIdeal.Gen.mem_uc Cert.KernelIdeal.main_arg23 (by decide))).trans (Cert.KernelIdeal.Gen.W8_main_arg23 m ρ c),
        (h c _ (Cert.KernelIdeal.Gen.mem_uc Cert.KernelIdeal.main_arg24 (by decide))).trans (Cert.KernelIdeal.Gen.W8_main_arg24 m ρ c),
        (h c _ (Cert.KernelIdeal.Gen.mem_uc Cert.KernelIdeal.main_arg25 (by decide))).trans (Cert.KernelIdeal.Gen.W8_main_arg25 m ρ c),
        (h c _ (Cert.KernelIdeal.Gen.mem_uc Cert.KernelIdeal.main_arg26 (by decide))).trans (Cert.KernelIdeal.Gen.W8_main_arg26 m ρ c),
        (h c _ (Cert.KernelIdeal.Gen.mem_uc Cert.KernelIdeal.main_arg27 (by decide))).trans (Cert.KernelIdeal.Gen.W8_main_arg27 m ρ c),
        (h c _ (Cert.KernelIdeal.Gen.mem_uc Cert.KernelIdeal.main_arg28 (by decide))).trans (Cert.KernelIdeal.Gen.W8_main_arg28 m ρ c)⟩)
      (Cert.KernelIdeal.KRun.run_all m ρ)
    refine (h c _ (Cert.KernelIdeal.Gen.mem_uc Cert.KernelIdeal.main_v43 (by decide))).trans ?_
    have A : Cert.Bridge.Agree m (StableHlo.launchContents m' c) c := ⟨
      (Cert.Cross.launch_arg m' c Cert.ReferenceIdeal.main_arg0).trans (hagree c).1,
      (Cert.Cross.launch_arg m' c Cert.ReferenceIdeal.main_arg1).trans (hagree c).2.1,
      (Cert.Cross.launch_arg m' c Cert.ReferenceIdeal.main_arg2).trans (hagree c).2.2.1,
      (Cert.Cross.launch_arg m' c Cert.ReferenceIdeal.main_arg4).trans (hagree c).2.2.2.2.1,
      (Cert.Cross.launch_arg m' c Cert.ReferenceIdeal.main_arg5).trans (hagree c).2.2.2.2.2.1,
      (Cert.Cross.launch_arg m' c Cert.ReferenceIdeal.main_arg6).trans (hagree c).2.2.2.2.2.2.1,
      (Cert.Cross.launch_arg m' c Cert.ReferenceIdeal.main_arg7).trans (hagree c).2.2.2.2.2.2.2.1,
      (Cert.Cross.launch_arg m' c Cert.ReferenceIdeal.main_arg8).trans (hagree c).2.2.2.2.2.2.2.2.1,
      (Cert.Cross.launch_arg m' c Cert.ReferenceIdeal.main_arg9).trans (hagree c).2.2.2.2.2.2.2.2.2.1,
      (Cert.Cross.launch_arg m' c Cert.ReferenceIdeal.main_arg10).trans (hagree c).2.2.2.2.2.2.2.2.2.2.1,
      (Cert.Cross.launch_arg m' c Cert.ReferenceIdeal.main_arg11).trans (hagree c).2.2.2.2.2.2.2.2.2.2.2.1,
      (Cert.Cross.launch_arg m' c Cert.ReferenceIdeal.main_arg12).trans (hagree c).2.2.2.2.2.2.2.2.2.2.2.2.1,
      (Cert.Cross.launch_arg m' c Cert.ReferenceIdeal.main_arg13).trans (hagree c).2.2.2.2.2.2.2.2.2.2.2.2.2.1,
      (Cert.Cross.launch_arg m' c Cert.ReferenceIdeal.main_arg14).trans (hagree c).2.2.2.2.2.2.2.2.2.2.2.2.2.2.1,
      (Cert.Cross.launch_arg m' c Cert.ReferenceIdeal.main_arg15).trans (hagree c).2.2.2.2.2.2.2.2.2.2.2.2.2.2.2.1,
      (Cert.Cross.launch_arg m' c Cert.ReferenceIdeal.main_arg16).trans (hagree c).2.2.2.2.2.2.2.2.2.2.2.2.2.2.2.2.1,
      (Cert.Cross.launch_arg m' c Cert.ReferenceIdeal.main_arg17).trans (hagree c).2.2.2.2.2.2.2.2.2.2.2.2.2.2.2.2.2.1,
      (Cert.Cross.launch_arg m' c Cert.ReferenceIdeal.main_arg18).trans (hagree c).2.2.2.2.2.2.2.2.2.2.2.2.2.2.2.2.2.2.1,
      (Cert.Cross.launch_arg m' c Cert.ReferenceIdeal.main_arg19).trans (hagree c).2.2.2.2.2.2.2.2.2.2.2.2.2.2.2.2.2.2.2.1,
      (Cert.Cross.launch_arg m' c Cert.ReferenceIdeal.main_arg20).trans (hagree c).2.2.2.2.2.2.2.2.2.2.2.2.2.2.2.2.2.2.2.2.1,
      (Cert.Cross.launch_arg m' c Cert.ReferenceIdeal.main_arg21).trans (hagree c).2.2.2.2.2.2.2.2.2.2.2.2.2.2.2.2.2.2.2.2.2.1,
      (Cert.Cross.launch_arg m' c Cert.ReferenceIdeal.main_arg22).trans (hagree c).2.2.2.2.2.2.2.2.2.2.2.2.2.2.2.2.2.2.2.2.2.2.1,
      (Cert.Cross.launch_arg m' c Cert.ReferenceIdeal.main_arg23).trans (hagree c).2.2.2.2.2.2.2.2.2.2.2.2.2.2.2.2.2.2.2.2.2.2.2.1,
      (Cert.Cross.launch_arg m' c Cert.ReferenceIdeal.main_arg24).trans (hagree c).2.2.2.2.2.2.2.2.2.2.2.2.2.2.2.2.2.2.2.2.2.2.2.2.1,
      (Cert.Cross.launch_arg m' c Cert.ReferenceIdeal.main_arg25).trans (hagree c).2.2.2.2.2.2.2.2.2.2.2.2.2.2.2.2.2.2.2.2.2.2.2.2.2.1,
      (Cert.Cross.launch_arg m' c Cert.ReferenceIdeal.main_arg26).trans (hagree c).2.2.2.2.2.2.2.2.2.2.2.2.2.2.2.2.2.2.2.2.2.2.2.2.2.2.1,
      (Cert.Cross.launch_arg m' c Cert.ReferenceIdeal.main_arg27).trans (hagree c).2.2.2.2.2.2.2.2.2.2.2.2.2.2.2.2.2.2.2.2.2.2.2.2.2.2.2.1,
      (Cert.Cross.launch_arg m' c Cert.ReferenceIdeal.main_arg28).trans (hagree c).2.2.2.2.2.2.2.2.2.2.2.2.2.2.2.2.2.2.2.2.2.2.2.2.2.2.2.2,
      (Cert.Cross.launch_arg m' c Cert.ReferenceIdeal.main_arg3).trans (hagree c).2.2.2.1⟩
    funext i
    obtain ⟨p, q, rfl⟩ : ∃ (p : Fin 100000) (q : Fin 128), i = ix2 p q := ⟨i 0, i 1, eq_ix2 i⟩
    exact Cert.Bridge.out_eq regionValues m ρ (StableHlo.launchContents m' c) c A
      (Cert.KernelIdeal.FinIn.args_real m hpre c) p q
  · exact (θ_run Cert.ReferenceIdeal.defs _ _).mono (fun _ h c => ⟨(h c).1, (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
